-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x3 : Shape := ⟨2, ![200000, 3]⟩
abbrev S50000x2 : Shape := ⟨2, ![50000, 2]⟩
abbrev S600000x2 : Shape := ⟨2, ![600000, 2]⟩
abbrev S3x128 : Shape := ⟨2, ![3, 128]⟩
abbrev S128 : Shape := ⟨1, ![128]⟩
abbrev S2x128 : Shape := ⟨2, ![2, 128]⟩
abbrev S2x128x128 : Shape := ⟨3, ![2, 128, 128]⟩
abbrev S384x128 : Shape := ⟨2, ![384, 128]⟩
abbrev S128x1 : Shape := ⟨2, ![128, 1]⟩
abbrev S1 : Shape := ⟨1, ![1]⟩
abbrev S2x600000 : Shape := ⟨2, ![2, 600000]⟩
abbrev S_ : Shape := ⟨0, ![]⟩

class Facts : Prop where
  bcast_S_S200000x3 : S_.BroadcastsInDim S200000x3 (![] : Fin 0 → Fin S200000x3.rank)
  reducesTo_S200000x3_S_d0_1 : S200000x3.ReducesTo [0, 1] S_
  h_S_ : 0 < S_.numel
  bcast_S_S50000x2 : S_.BroadcastsInDim S50000x2 (![] : Fin 0 → Fin S50000x2.rank)
  reducesTo_S50000x2_S_d0_1 : S50000x2.ReducesTo [0, 1] S_
  bcast_S_S600000x2 : S_.BroadcastsInDim S600000x2 (![] : Fin 0 → Fin S600000x2.rank)
  reducesTo_S600000x2_S_d0_1 : S600000x2.ReducesTo [0, 1] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S384x128 : S_.BroadcastsInDim S384x128 (![] : Fin 0 → Fin S384x128.rank)
  reducesTo_S384x128_S_d0_1 : S384x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S1 .f32) (main_v83 : IVec S_ 1) (main_v84 : FVec F S128x1 .f32) (main_cst_32 : FVec F S_ .f32) : IVec S_ 1 :=
  let main_v85 : FVec F S128x1 .f32 := broadcastInDim S128x1 ![] bcast_S_S128x1 main_cst_32
  let main_v86 : IVec S128x1 1 := cmpf .olt main_v84 main_v85
  let main_c_33 : IVec S_ 1 := constantI S_ 1 1#1
  let main_v87 : IVec S_ 1 := (fun x v => Host.reduce IntOp.andi x v reducesTo_S128x1_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg14 : FVec F S2x128x128 .f32) (main_arg15 : FVec F S384x128 .f32) (main_arg16 : FVec F S128 .f32) (main_arg17 : FVec F S128x1 .f32) (main_arg18 : FVec F S1 .f32) (main_v63 : IVec S_ 1) (main_v67 : IVec S_ 1) : IVec S_ 1 :=
  let main_v68 : IVec S_ 1 := andi main_v63 main_v67
  let main_v69 : FVec F S2x128x128 .f32 := Host.absf main_arg14
  let main_cst_26 : FVec F S_ .f32 := constant S_ .f32 0x7F800000#32
  let main_v70 : FVec F S2x128x128 .f32 := broadcastInDim S2x128x128 ![] bcast_S_S2x128x128 main_cst_26
  let main_v71 : IVec S2x128x128 1 := cmpf .olt main_v69 main_v70
  let main_c_27 : IVec S_ 1 := constantI S_ 1 1#1
  let main_v72 : IVec S_ 1 := (fun x v => Host.reduce IntOp.andi x v reducesTo_S2x128x128_S_d0_1_2 h_S_) main_v71 main_c_27
  let main_v73 : IVec S_ 1 := andi main_v68 main_v72
  let main_v74 : FVec F S384x128 .f32 := Host.absf main_arg15
  let main_cst_28 : FVec F S_ .f32 := constant S_ .f32 0x7F800000#32
  let main_v75 : FVec F S384x128 .f32 := broadcastInDim S384x128 ![] bcast_S_S384x128 main_cst_28
  let main_v76 : IVec S384x128 1 := cmpf .olt main_v74 main_v75
  let main_c_29 : IVec S_ 1 := constantI S_ 1 1#1
  let main_v77 : IVec S_ 1 := (fun x v => Host.reduce IntOp.andi x v reducesTo_S384x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x1 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S2x128x128 .f32) (main_arg12 : FVec F S2x128x128 .f32) (main_arg13 : FVec F S2x128 .f32) (main_arg14 : FVec F S2x128x128 .f32) (main_arg15 : FVec F S384x128 .f32) (main_arg16 : FVec F S128 .f32) (main_arg17 : FVec F S128x1 .f32) (main_arg18 : FVec F S1 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2x128x128 .f32 := Host.absf main_arg11
  let main_cst_20 : FVec F S_ .f32 := constant S_ .f32 0x7F800000#32
  let main_v55 : FVec F S2x128x128 .f32 := broadcastInDim S2x128x128 ![] bcast_S_S2x128x128 main_cst_20
  let main_v56 : IVec S2x128x128 1 := cmpf .olt main_v54 main_v55
  let main_c_21 : IVec S_ 1 := constantI S_ 1 1#1
  let main_v57 : IVec S_ 1 := (fun x v => Host.reduce IntOp.andi x v reducesTo_S2x128x128_S_d0_1_2 h_S_) main_v56 main_c_21
  let main_v58 : IVec S_ 1 := andi main_v53 main_v57
  let main_v59 : FVec F S2x128x128 .f32 := Host.absf main_arg12
  let main_cst_22 : FVec F S_ .f32 := constant S_ .f32 0x7F800000#32
  let main_v60 : FVec F S2x128x128 .f32 := broadcastInDim S2x128x128 ![] bcast_S_S2x128x128 main_cst_22
  let main_v61 : IVec S2x128x128 1 := cmpf .olt main_v59 main_v60
  let main_c_23 : IVec S_ 1 := constantI S_ 1 1#1
  let main_v62 : IVec S_ 1 := (fun x v => Host.reduce IntOp.andi x v reducesTo_S2x128x128_S_d0_1_2 h_S_) main_v61 main_c_23
  let main_v63 : IVec S_ 1 := andi main_v58 main_v62
  let main_v64 : FVec F S2x128 .f32 := Host.absf main_arg13
  let main_cst_24 : FVec F S_ .f32 := constant S_ .f32 0x7F800000#32
  let main_v65 : FVec F S2x128 .f32 := broadcastInDim S2x128 ![] bcast_S_S2x128 main_cst_24
  let main_v66 : IVec S2x128 1 := cmpf .olt main_v64 main_v65
  let main_c_25 : IVec S_ 1 := constantI S_ 1 1#1
  let main_v67 : IVec S_ 1 := (fun x v => Host.reduce IntOp.andi x v reducesTo_S2x128_S_d0_1 h_S_) main_v66 main_c_25
  fn_part4 (F := F) main_arg14 main_arg15 main_arg16 main_arg17 main_arg18 main_v63 main_v67

def fn_part2 {F : FTy → Type} [FloatOps F] (main_arg7 : FVec F S2x128 .f32) (main_arg8 : FVec F S128 .f32) (main_arg9 : FVec F S2x128x128 .f32) (main_arg10 : FVec F S2x128 .f32) (main_arg11 : FVec F S2x128x128 .f32) (main_arg12 : FVec F S2x128x128 .f32) (main_arg13 : FVec F S2x128 .f32) (main_arg14 : FVec F S2x128x128 .f32) (main_arg15 : FVec F S384x128 .f32) (main_arg16 : FVec F S128 .f32) (main_arg17 : FVec F S128x1 .f32) (main_arg18 : FVec F S1 .f32) (main_v33 : IVec S_ 1) : IVec S_ 1 :=
  let main_v34 : FVec F S2x128 .f32 := Host.absf main_arg7
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S2x128x128 .f32 := Host.absf main_arg9
  let main_cst_16 : FVec F S_ .f32 := constant S_ .f32 0x7F800000#32
  let main_v45 : FVec F S2x128x128 .f32 := broadcastInDim S2x128x128 ![] bcast_S_S2x128x128 main_cst_16
  let main_v46 : IVec S2x128x128 1 := cmpf .olt main_v44 main_v45
  let main_c_17 : IVec S_ 1 := constantI S_ 1 1#1
  let main_v47 : IVec S_ 1 := (fun x v => Host.reduce IntOp.andi x v reducesTo_S2x128x128_S_d0_1_2 h_S_) main_v46 main_c_17
  let main_v48 : IVec S_ 1 := andi main_v43 main_v47
  let main_v49 : FVec F S2x128 .f32 := Host.absf main_arg10
  let main_cst_18 : FVec F S_ .f32 := constant S_ .f32 0x7F800000#32
  let main_v50 : FVec F S2x128 .f32 := broadcastInDim S2x128 ![] bcast_S_S2x128 main_cst_18
  fn_part3 (F := F) main_arg11 main_arg12 main_arg13 main_arg14 main_arg15 main_arg16 main_arg17 main_arg18 main_v48 main_v49 main_v50

def fn_part1 {F : FTy → Type} [FloatOps F] (main_arg4 : FVec F S128 .f32) (main_arg5 : FVec F S2x128 .f32) (main_arg6 : FVec F S128 .f32) (main_arg7 : FVec F S2x128 .f32) (main_arg8 : FVec F S128 .f32) (main_arg9 : FVec F S2x128x128 .f32) (main_arg10 : FVec F S2x128 .f32) (main_arg11 : FVec F S2x128x128 .f32) (main_arg12 : FVec F S2x128x128 .f32) (main_arg13 : FVec F S2x128 .f32) (main_arg14 : FVec F S2x128x128 .f32) (main_arg15 : FVec F S384x128 .f32) (main_arg16 : FVec F S128 .f32) (main_arg17 : FVec F S128x1 .f32) (main_arg18 : FVec F S1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S200000x3 .f32) (main_arg1 : FVec F S50000x2 .f32) (main_arg2 : FVec F S600000x2 .f32) (main_arg3 : FVec F S3x128 .f32) (main_arg4 : FVec F S128 .f32) (main_arg5 : FVec F S2x128 .f32) (main_arg6 : FVec F S128 .f32) (main_arg7 : FVec F S2x128 .f32) (main_arg8 : FVec F S128 .f32) (main_arg9 : FVec F S2x128x128 .f32) (main_arg10 : FVec F S2x128 .f32) (main_arg11 : FVec F S2x128x128 .f32) (main_arg12 : FVec F S2x128x128 .f32) (main_arg13 : FVec F S2x128 .f32) (main_arg14 : FVec F S2x128x128 .f32) (main_arg15 : FVec F S384x128 .f32) (main_arg16 : FVec F S128 .f32) (main_arg17 : FVec F S128x1 .f32) (main_arg18 : FVec F S1 .f32) (main_arg19 : IVec S2x600000 32) : IVec S_ 1 :=
  let main_v0 : FVec F S200000x3 .f32 := Host.absf main_arg0
  let main_cst : FVec F S_ .f32 := constant S_ .f32 0x7F800000#32
  let main_v1 : FVec F S200000x3 .f32 := broadcastInDim S200000x3 ![] bcast_S_S200000x3 main_cst
  let main_v2 : IVec S200000x3 1 := cmpf .olt main_v0 main_v1
  let main_c : IVec S_ 1 := constantI S_ 1 1#1
  let main_v3 : IVec S_ 1 := (fun x v => Host.reduce IntOp.andi x v reducesTo_S200000x3_S_d0_1 h_S_) main_v2 main_c
  let main_v4 : FVec F S50000x2 .f32 := Host.absf main_arg1
  let main_cst_0 : FVec F S_ .f32 := constant S_ .f32 0x7F800000#32
  let main_v5 : FVec F S50000x2 .f32 := broadcastInDim S50000x2 ![] bcast_S_S50000x2 main_cst_0
  let main_v6 : IVec S50000x2 1 := cmpf .olt main_v4 main_v5
  let main_c_1 : IVec S_ 1 := constantI S_ 1 1#1
  let main_v7 : IVec S_ 1 := (fun x v => Host.reduce IntOp.andi x v reducesTo_S50000x2_S_d0_1 h_S_) main_v6 main_c_1
  let main_v8 : IVec S_ 1 := andi main_v3 main_v7
  let main_v9 : FVec F S600000x2 .f32 := Host.absf main_arg2
  let main_cst_2 : FVec F S_ .f32 := constant S_ .f32 0x7F800000#32
  let main_v10 : FVec F S600000x2 .f32 := broadcastInDim S600000x2 ![] bcast_S_S600000x2 main_cst_2
  let main_v11 : IVec S600000x2 1 := cmpf .olt main_v9 main_v10
  let main_c_3 : IVec S_ 1 := constantI S_ 1 1#1
  let main_v12 : IVec S_ 1 := (fun x v => Host.reduce IntOp.andi x v reducesTo_S600000x2_S_d0_1 h_S_) main_v11 main_c_3
  let main_v13 : IVec S_ 1 := andi main_v8 main_v12
  let main_v14 : FVec F S3x128 .f32 := Host.absf main_arg3
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S200000x3 : Shape := ⟨2, ![200000, 3]⟩
abbrev S50000x2 : Shape := ⟨2, ![50000, 2]⟩
abbrev S600000x2 : Shape := ⟨2, ![600000, 2]⟩
abbrev S3x128 : Shape := ⟨2, ![3, 128]⟩
abbrev S128 : Shape := ⟨1, ![128]⟩
abbrev S2x128 : Shape := ⟨2, ![2, 128]⟩
abbrev S2x128x128 : Shape := ⟨3, ![2, 128, 128]⟩
abbrev S384x128 : Shape := ⟨2, ![384, 128]⟩
abbrev S128x1 : Shape := ⟨2, ![128, 1]⟩
abbrev S1 : Shape := ⟨1, ![1]⟩
abbrev S2x600000 : Shape := ⟨2, ![2, 600000]⟩
abbrev S1x600000 : Shape := ⟨2, ![1, 600000]⟩
abbrev S600000 : Shape := ⟨1, ![600000]⟩
abbrev S1x128 : Shape := ⟨2, ![1, 128]⟩
abbrev S200000x128 : Shape := ⟨2, ![200000, 128]⟩
abbrev S10000x3 : Shape := ⟨2, ![10000, 3]⟩
abbrev S10000x128 : Shape := ⟨2, ![10000, 128]⟩
abbrev S50000x128 : Shape := ⟨2, ![50000, 128]⟩
abbrev S10000x2 : Shape := ⟨2, ![10000, 2]⟩
abbrev S600000x128 : Shape := ⟨2, ![600000, 128]⟩
abbrev S_ : Shape := ⟨0, ![]⟩
abbrev S600000x1 : Shape := ⟨2, ![600000, 1]⟩
abbrev S50000x1 : Shape := ⟨2, ![50000, 1]⟩
abbrev S200000x1 : Shape := ⟨2, ![200000, 1]⟩
abbrev S1x128x128 : Shape := ⟨3, ![1, 128, 128]⟩
abbrev S128x128 : Shape := ⟨2, ![128, 128]⟩
abbrev S1x1 : Shape := ⟨2, ![1, 1]⟩
abbrev S10000x1 : Shape := ⟨2, ![10000, 1]⟩
abbrev S10000 : Shape := ⟨1, ![10000]⟩

abbrev nBuf : Space → Nat
  | .hbm => 168
  | .vmem => 68
  | .smem => 0
  | _ => 0

abbrev hbmTy0_0 (i : Nat) : BufTy := match i % 128 with
  | 0 => ⟨S200000x3, .f32⟩
  | 1 => ⟨S50000x2, .f32⟩
  | 2 => ⟨S600000x2, .f32⟩
  | 3 => ⟨S3x128, .f32⟩
  | 4 => ⟨S128, .f32⟩
  | 5 => ⟨S2x128, .f32⟩
  | 6 => ⟨S128, .f32⟩
  | 7 => ⟨S2x128, .f32⟩
  | 8 => ⟨S128, .f32⟩
  | 9 => ⟨S2x128x128, .f32⟩
  | 10 => ⟨S2x128, .f32⟩
  | 11 => ⟨S2x128x128, .f32⟩
  | 12 => ⟨S2x128x128, .f32⟩
  | 13 => ⟨S2x128, .f32⟩
  | 14 => ⟨S2x128x128, .f32⟩
  | 15 => ⟨S384x128, .f32⟩
  | 16 => ⟨S128, .f32⟩
  | 17 => ⟨S128x1, .f32⟩
  | 18 => ⟨S1, .f32⟩
  | 19 => ⟨S2x600000, .i32⟩
  | 20 => ⟨S1x600000, .i32⟩
  | 21 => ⟨S600000, .i32⟩
  | 22 => ⟨S1x600000, .i32⟩
  | 23 => ⟨S600000, .i32⟩
  | 24 => ⟨S1x128, .f32⟩
  | 25 => ⟨S200000x128, .bf16⟩
  | 26 => ⟨S1x128, .f32⟩
  | 27 => ⟨S50000x128, .bf16⟩
  | 28 => ⟨S1x128, .f32⟩
  | 29 => ⟨S600000x128, .bf16⟩
  | 30 => ⟨S_, .f32⟩
  | 31 => ⟨S600000x1, .f32⟩
  | 32 => ⟨S_, .f32⟩
  | 33 => ⟨S50000x1, .f32⟩
  | 34 => ⟨S600000x1, .i32⟩
  | 35 => ⟨S50000x1, .f32⟩
  | 36 => ⟨S_, .f32⟩
  | 37 => ⟨S50000x1, .f32⟩
  | 38 => ⟨S50000x1, .f32⟩
  | 39 => ⟨S_, .f32⟩
  | 40 => ⟨S200000x1, .f32⟩
  | 41 => ⟨S600000x1, .i32⟩
  | 42 => ⟨S200000x1, .f32⟩
  | 43 => ⟨S_, .f32⟩
  | 44 => ⟨S200000x1, .f32⟩
  | 45 => ⟨S200000x1, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000x128, .bf16⟩
  | 55 => ⟨S600000x128, .f32⟩
  | 56 => ⟨S_, .f32⟩
  | 57 => ⟨S50000x128, .f32⟩
  | 58 => ⟨S600000x1, .i32⟩
  | 59 => ⟨S50000x128, .f32⟩
  | 60 => ⟨S50000x128, .f32⟩
  | 61 => ⟨S50000x128, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000x128, .bf16⟩
  | 71 => ⟨S600000x128, .f32⟩
  | 72 => ⟨S_, .f32⟩
  | 73 => ⟨S200000x128, .f32⟩
  | 74 => ⟨S600000x1, .i32⟩
  | 75 => ⟨S200000x128, .f32⟩
  | 76 => ⟨S200000x128, .f32⟩
  | 77 => ⟨S200000x128, .f32⟩
  | 78 => ⟨S1x128x128, .f32⟩
  | 79 => ⟨S128x128, .f32⟩
  | 80 => ⟨S1x128x128, .f32⟩
  | 81 => ⟨S128x128, .f32⟩
  | 82 => ⟨S1x128, .f32⟩
  | 83 => ⟨S128, .f32⟩
  | 84 => ⟨S1x128, .f32⟩
  | 85 => ⟨S50000x128, .bf16⟩
  | 86 => ⟨S1x128x128, .f32⟩
  | 87 => ⟨S128x128, .f32⟩
  | 88 => ⟨S1x128x128, .f32⟩
  | 89 => ⟨S128x128, .f32⟩
  | 90 => ⟨S1x128, .f32⟩
  | 91 => ⟨S128, .f32⟩
  | 92 => ⟨S1x128, .f32⟩
  | 93 => ⟨S200000x128, .bf16⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000x128, .bf16⟩
  | 103 => ⟨S600000x128, .f32⟩
  | 104 => ⟨S_, .f32⟩
  | 105 => ⟨S50000x128, .f32⟩
  | 106 => ⟨S600000x1, .i32⟩
  | 107 => ⟨S50000x128, .f32⟩
  | 108 => ⟨S50000x128, .f32⟩
  | 109 => ⟨S50000x128, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S600000x128, .bf16⟩
  | 119 => ⟨S600000x128, .f32⟩
  | 120 => ⟨S_, .f32⟩
  | 121 => ⟨S200000x128, .f32⟩
  | 122 => ⟨S600000x1, .i32⟩
  | 123 => ⟨S200000x128, .f32⟩
  | 124 => ⟨S200000x128, .f32⟩
  | 125 => ⟨S200000x128, .f32⟩
  | 126 => ⟨S1x128x128, .f32⟩
  | 127 => ⟨S128x128, .f32⟩
  | _ => ⟨S200000x3, .f32⟩

abbrev hbmTy0_1 (i : Nat) : BufTy := match i % 128 with
  | 0 => ⟨S1x128x128, .f32⟩
  | 1 => ⟨S128x128, .f32⟩
  | 2 => ⟨S1x128, .f32⟩
  | 3 => ⟨S128, .f32⟩
  | 4 => ⟨S1x128, .f32⟩
  | 5 => ⟨S50000x128, .bf16⟩
  | 6 => ⟨S1x128x128, .f32⟩
  | 7 => ⟨S128x128, .f32⟩
  | 8 => ⟨S1x128x128, .f32⟩
  | 9 => ⟨S128x128, .f32⟩
  | 10 => ⟨S1x128, .f32⟩
  | 11 => ⟨S128, .f32⟩
  | 12 => ⟨S1x128, .f32⟩
  | 13 => ⟨S200000x128, .bf16⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S600000x128, .bf16⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .bf16⟩
  | 32 => ⟨S128x128, .f32⟩
  | 33 => ⟨S128x128, .f32⟩
  | 34 => ⟨S128x128, .f32⟩
  | 35 => ⟨S1x128, .f32⟩
  | 36 => ⟨S1x128, .f32⟩
  | 37 => ⟨S1x1, .f32⟩
  | 38 => ⟨S600000x1, .f32⟩
  | 39 => ⟨S600000, .f32⟩
  | _ => ⟨S200000x3, .f32⟩

abbrev hbmTy (i : Nat) : BufTy := match i / 128 with
  | 0 => hbmTy0_0 i
  | 1 => hbmTy0_1 i
  | _ => ⟨S200000x3, .f32⟩

abbrev bufTy : (tb : Table) → Fin (tcTables nBuf tb) → BufTy
  | .hbm, ⟨i, _⟩ => hbmTy i
  | .local _ .vmem, ⟨0, _⟩ => ⟨S10000x3, .f32⟩
  | .local _ .vmem, ⟨1, _⟩ => ⟨S10000x3, .f32⟩
  | .local _ .vmem, ⟨2, _⟩ => ⟨S3x128, .f32⟩
  | .local _ .vmem, ⟨3, _⟩ => ⟨S1x128, .f32⟩
  | .local _ .vmem, ⟨4, _⟩ => ⟨S10000x128, .bf16⟩
  | .local _ .vmem, ⟨5, _⟩ => ⟨S10000x128, .bf16⟩
  | .local _ .vmem, ⟨6, _⟩ => ⟨S10000x2, .f32⟩
  | .local _ .vmem, ⟨7, _⟩ => ⟨S10000x2, .f32⟩
  | .local _ .vmem, ⟨8, _⟩ => ⟨S2x128, .f32⟩
  | .local _ .vmem, ⟨9, _⟩ => ⟨S1x128, .f32⟩
  | .local _ .vmem, ⟨10, _⟩ => ⟨S10000x128, .bf16⟩
  | .local _ .vmem, ⟨11, _⟩ => ⟨S10000x128, .bf16⟩
  | .local _ .vmem, ⟨12, _⟩ => ⟨S10000x2, .f32⟩
  | .local _ .vmem, ⟨13, _⟩ => ⟨S10000x2, .f32⟩
  | .local _ .vmem, ⟨14, _⟩ => ⟨S2x128, .f32⟩
  | .local _ .vmem, ⟨15, _⟩ => ⟨S1x128, .f32⟩
  | .local _ .vmem, ⟨16, _⟩ => ⟨S10000x128, .bf16⟩
  | .local _ .vmem, ⟨17, _⟩ => ⟨S10000x128, .bf16⟩
  | .local _ .vmem, ⟨18, _⟩ => ⟨S10000x128, .f32⟩
  | .local _ .vmem, ⟨19, _⟩ => ⟨S10000x128, .f32⟩
  | .local _ .vmem, ⟨20, _⟩ => ⟨S10000x128, .bf16⟩
  | .local _ .vmem, ⟨21, _⟩ => ⟨S10000x128, .bf16⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S10000x128, .bf16⟩
  | .local _ .vmem, ⟨26, _⟩ => ⟨S10000x128, .bf16⟩
  | .local _ .vmem, ⟨27, _⟩ => ⟨S10000x128, .f32⟩
  | .local _ .vmem, ⟨28, _⟩ => ⟨S10000x128, .f32⟩
  | .local _ .vmem, ⟨29, _⟩ => ⟨S10000x128, .bf16⟩
  | .local _ .vmem, ⟨30, _⟩ => ⟨S10000x128, .bf16⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S10000x128, .bf16⟩
  | .local _ .vmem, ⟨35, _⟩ => ⟨S10000x128, .bf16⟩
  | .local _ .vmem, ⟨36, _⟩ => ⟨S10000x128, .f32⟩
  | .local _ .vmem, ⟨37, _⟩ => ⟨S10000x128, .f32⟩
  | .local _ .vmem, ⟨38, _⟩ => ⟨S10000x128, .bf16⟩
  | .local _ .vmem, ⟨39, _⟩ => ⟨S10000x128, .bf16⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S10000x128, .bf16⟩
  | .local _ .vmem, ⟨44, _⟩ => ⟨S10000x128, .bf16⟩
  | .local _ .vmem, ⟨45, _⟩ => ⟨S10000x128, .f32⟩
  | .local _ .vmem, ⟨46, _⟩ => ⟨S10000x128, .f32⟩
  | .local _ .vmem, ⟨47, _⟩ => ⟨S10000x128, .bf16⟩
  | .local _ .vmem, ⟨48, _⟩ => ⟨S10000x128, .bf16⟩
  | .local _ .vmem, ⟨49, _⟩ => ⟨S128x128, .f32⟩
  | .local _ .vmem, ⟨50, _⟩ => ⟨S128x128, .f32⟩
  | .local _ .vmem, ⟨51, _⟩ => ⟨S1x128, .f32⟩
  | .local _ .vmem, ⟨52, _⟩ => ⟨S10000x128, .bf16⟩
  | .local _ .vmem, ⟨53, _⟩ => ⟨S10000x128, .bf16⟩
  | .local _ .vmem, ⟨54, _⟩ => ⟨S10000x128, .bf16⟩
  | .local _ .vmem, ⟨55, _⟩ => ⟨S10000x128, .bf16⟩
  | .local _ .vmem, ⟨56, _⟩ => ⟨S10000x128, .bf16⟩
  | .local _ .vmem, ⟨57, _⟩ => ⟨S10000x128, .bf16⟩
  | .local _ .vmem, ⟨58, _⟩ => ⟨S10000x128, .bf16⟩
  | .local _ .vmem, ⟨59, _⟩ => ⟨S10000x128, .bf16⟩
  | .local _ .vmem, ⟨60, _⟩ => ⟨S128x128, .f32⟩
  | .local _ .vmem, ⟨61, _⟩ => ⟨S128x128, .f32⟩
  | .local _ .vmem, ⟨62, _⟩ => ⟨S128x128, .f32⟩
  | .local _ .vmem, ⟨63, _⟩ => ⟨S1x128, .f32⟩
  | .local _ .vmem, ⟨64, _⟩ => ⟨S1x128, .f32⟩
  | .local _ .vmem, ⟨65, _⟩ => ⟨S1x1, .f32⟩
  | .local _ .vmem, ⟨66, _⟩ => ⟨S10000x1, .f32⟩
  | .local _ .vmem, ⟨67, _⟩ => ⟨S10000x1, .f32⟩
  | _, _ => ⟨S200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_v15 : Ref sig .tc := ⟨.hbm, 38, rfl⟩
abbrev main_cst_2 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_3 : Ref sig .tc := ⟨.hbm, 43, rfl⟩
abbrev main_v19 : Ref sig .tc := ⟨.hbm, 44, rfl⟩
abbrev main_v20 : Ref sig .tc := ⟨.hbm, 45, rfl⟩
abbrev main_c : Ref sig .tc := ⟨.hbm, 46, rfl⟩
abbrev main_v21 : Ref sig .tc := ⟨.hbm, 47, rfl⟩
abbrev main_v22 : Ref sig .tc := ⟨.hbm, 48, rfl⟩
abbrev main_c_4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_6 : Ref sig .tc := ⟨.hbm, 62, rfl⟩
abbrev main_v34 : Ref sig .tc := ⟨.hbm, 63, rfl⟩
abbrev main_v35 : Ref sig .tc := ⟨.hbm, 64, rfl⟩
abbrev main_c_7 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_9 : Ref sig .tc := ⟨.hbm, 94, rfl⟩
abbrev main_v63 : Ref sig .tc := ⟨.hbm, 95, rfl⟩
abbrev main_v64 : Ref sig .tc := ⟨.hbm, 96, rfl⟩
abbrev main_c_10 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_11 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_12 : Ref sig .tc := ⟨.hbm, 110, rfl⟩
abbrev main_v76 : Ref sig .tc := ⟨.hbm, 111, rfl⟩
abbrev main_v77 : Ref sig .tc := ⟨.hbm, 112, rfl⟩
abbrev main_c_13 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_14 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_c_15 : Ref sig .tc := ⟨.hbm, 142, rfl⟩
abbrev main_v105 : Ref sig .tc := ⟨.hbm, 143, rfl⟩
abbrev main_v106 : Ref sig .tc := ⟨.hbm, 144, rfl⟩
abbrev main_c_16 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_c_17 : Ref sig .tc := ⟨.hbm, 151, rfl⟩
abbrev main_v112 : Ref sig .tc := ⟨.hbm, 152, rfl⟩
abbrev main_v113 : Ref sig .tc := ⟨.hbm, 153, rfl⟩
abbrev main_c_18 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg5_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg5_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc6_stg5_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg2_1 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg6_0 : Ref sig .tc := ⟨.vmem, 63, rfl⟩
abbrev cc7_stg7_0 : Ref sig .tc := ⟨.vmem, 64, rfl⟩
abbrev cc7_stg8_0 : Ref sig .tc := ⟨.vmem, 65, rfl⟩
abbrev cc7_stg9_0 : Ref sig .tc := ⟨.vmem, 66, rfl⟩
abbrev cc7_stg9_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem5_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem5_0 : DmaSem sig := 43
abbrev cc5_sem5_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem3_0 : DmaSem sig := 50
abbrev cc6_sem4_0 : DmaSem sig := 51
abbrev cc6_sem5_0 : DmaSem sig := 52
abbrev cc6_sem5_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem2_1 : DmaSem sig := 59
abbrev cc7_sem3_0 : DmaSem sig := 60
abbrev cc7_sem4_0 : DmaSem sig := 61
abbrev cc7_sem5_0 : DmaSem sig := 62
abbrev cc7_sem6_0 : DmaSem sig := 63
abbrev cc7_sem7_0 : DmaSem sig := 64
abbrev cc7_sem8_0 : DmaSem sig := 65
abbrev cc7_sem9_0 : DmaSem sig := 66
abbrev cc7_sem9_1 : DmaSem sig := 67

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![60], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x128 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x128 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![60], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x128 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x128 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x1 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S10000x1 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  inb_S10000x2_S10000x2_0_0 : ∀ a, (![0, 0] : Fin 2 → Nat) a + S10000x2.size a ≤ S10000x2.size a
  h_S10000x2 : 0 < S10000x2.numel
  inb_S2x128_S2x128_0_0 : ∀ a, (![0, 0] : Fin 2 → Nat) a + S2x128.size a ≤ S2x128.size a
  h_S2x128 : 0 < S2x128.numel
  bcast_S_S600000x1 : S_.BroadcastsInDim S600000x1 (![] : Fin 0 → Fin S600000x1.rank)
  bcast_S_S50000x1 : S_.BroadcastsInDim S50000x1 (![] : Fin 0 → Fin S50000x1.rank)
  bcast_S600000_S600000x1_0 : S600000.BroadcastsInDim S600000x1 (![0] : Fin 1 → Fin S600000x1.rank)
  bcast_S_S200000x1 : S_.BroadcastsInDim S200000x1 (![] : Fin 0 → Fin S200000x1.rank)
  bcast_S_S600000 : S_.BroadcastsInDim S600000 (![] : Fin 0 → Fin S600000.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x128x128_S1x128x128_1_0_0 : S2x128x128.Slices ![1, 0, 0] S1x128x128
  slices_S2x128_S1x128_1_0 : S2x128.Slices ![1, 0] S1x128
  slices_S384x128_S128x128_0_0 : S384x128.Slices ![0, 0] S128x128
  slices_S384x128_S128x128_128_0 : S384x128.Slices ![128, 0] S128x128
  slices_S384x128_S128x128_256_0 : S384x128.Slices ![256, 0] S128x128
  transposes_S128x1_S1x128_1_0 : S128x1.Transposes [1, 0] S1x128
  shapeCasts_S1_S1x1 : S1.ShapeCasts S1x1
  reduces_S10000x128_S10000 : S10000x128.Reduces [1] S10000
  shapeCasts_S10000_S10000x1 : S10000.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S600000x1_S600000 : S600000x1.ShapeCasts S600000
  dot_S10000x3_S3x128_S10000x128_1_0_0_1_n_n_wf : DotDims.WF S10000x3 S3x128 S10000x128 [1] [0] [0] [1] [] []
  dot_S10000x2_S2x128_S10000x128_1_0_0_1_n_n_wf : DotDims.WF S10000x2 S2x128 S10000x128 [1] [0] [0] [1] [] []
  scatter_S50000x1_S600000x1_S600000x1_1_0_0_1_wf : ScatterDims.WF S50000x1 S600000x1 S600000x1 [1] [0] [0] 1
  scatter_S200000x1_S600000x1_S600000x1_1_0_0_1_wf : ScatterDims.WF S200000x1 S600000x1 S600000x1 [1] [0] [0] 1
  gather_S200000x128_S600000x1_S600000x128_1_0_n_n_0_1_1128_wf : GatherDims.WF S200000x128 S600000x1 S600000x128 [1] [0] [] [0] [] 1 ![1, 128]
  scatter_S50000x128_S600000x1_S600000x128_1_0_0_1_wf : ScatterDims.WF S50000x128 S600000x1 S600000x128 [1] [0] [0] 1
  gather_S50000x128_S600000x1_S600000x128_1_0_n_n_0_1_1128_wf : GatherDims.WF S50000x128 S600000x1 S600000x128 [1] [0] [] [0] [] 1 ![1, 128]
  scatter_S200000x128_S600000x1_S600000x128_1_0_0_1_wf : ScatterDims.WF S200000x128 S600000x1 S600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S200000x3.size a
  hwx0_0 : ∀ i : grid0.Coords, EltTy.bits .f32 = 32 ∨ (Rect.block (s := S200000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .f32 = 32 ∨ (Rect.block (s := S3x128) S3x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S200000x128.size a
  hwx0_3 : ∀ i : grid0.Coords, EltTy.bits .bf16 = 32 ∨ (Rect.block (s := S200000x128) S10000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x2.size a ≤ S50000x2.size a
  hwx1_0 : ∀ i : grid1.Coords, EltTy.bits .f32 = 32 ∨ (Rect.block (s := S50000x2) S10000x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x128.size a ≤ S2x128.size a
  hwx1_1 : ∀ i : grid1.Coords, EltTy.bits .f32 = 32 ∨ (Rect.block (s := S2x128) S2x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .bf16 = 32 ∨ (Rect.block (s := S50000x128) S10000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x2.size a ≤ S600000x2.size a
  hwx2_0 : ∀ i : grid2.Coords, EltTy.bits .f32 = 32 ∨ (Rect.block (s := S600000x2) S10000x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x128.size a ≤ S2x128.size a
  hwx2_1 : ∀ i : grid2.Coords, EltTy.bits .f32 = 32 ∨ (Rect.block (s := S2x128) S2x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S600000x128.size a
  hwx2_3 : ∀ i : grid2.Coords, EltTy.bits .bf16 = 32 ∨ (Rect.block (s := S600000x128) S10000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S50000x128.size a
  hwx3_1 : ∀ i : grid3.Coords, EltTy.bits .bf16 = 32 ∨ (Rect.block (s := S50000x128) S10000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S50000x128.size a
  hwx3_5 : ∀ i : grid3.Coords, EltTy.bits .bf16 = 32 ∨ (Rect.block (s := S50000x128) S10000x128.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S200000x128.size a
  hwx4_0 : ∀ i : grid4.Coords, EltTy.bits .f32 = 32 ∨ (Rect.block (s := S200000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S200000x128.size a
  hwx4_1 : ∀ i : grid4.Coords, EltTy.bits .bf16 = 32 ∨ (Rect.block (s := S200000x128) S10000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x128.size a ≤ S200000x128.size a
  hwx4_5 : ∀ i : grid4.Coords, EltTy.bits .bf16 = 32 ∨ (Rect.block (s := S200000x128) S10000x128.size (cc4_transform_5 i) (hinb4_5 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S50000x128.size a
  hwx5_1 : ∀ i : grid5.Coords, EltTy.bits .bf16 = 32 ∨ (Rect.block (s := S50000x128) S10000x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S50000x128.size a
  hwx5_5 : ∀ i : grid5.Coords, EltTy.bits .bf16 = 32 ∨ (Rect.block (s := S50000x128) S10000x128.size (cc5_transform_5 i) (hinb5_5 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S200000x128.size a
  hwx6_0 : ∀ i : grid6.Coords, EltTy.bits .f32 = 32 ∨ (Rect.block (s := S200000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S200000x128.size a
  hwx6_1 : ∀ i : grid6.Coords, EltTy.bits .bf16 = 32 ∨ (Rect.block (s := S200000x128) S10000x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x128.size a ≤ S200000x128.size a
  hwx6_5 : ∀ i : grid6.Coords, EltTy.bits .bf16 = 32 ∨ (Rect.block (s := S200000x128) S10000x128.size (cc6_transform_5 i) (hinb6_5 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S600000x128.size a
  hwx7_0 : ∀ i : grid7.Coords, EltTy.bits .bf16 = 32 ∨ (Rect.block (s := S600000x128) S10000x128.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x128.size a ≤ S600000x128.size a
  hwx7_1 : ∀ i : grid7.Coords, EltTy.bits .bf16 = 32 ∨ (Rect.block (s := S600000x128) S10000x128.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x128.size a ≤ S600000x128.size a
  hwx7_2 : ∀ i : grid7.Coords, EltTy.bits .bf16 = 32 ∨ (Rect.block (s := S600000x128) S10000x128.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x1.size a ≤ S1x1.size a
  hwx7_8 : ∀ i : grid7.Coords, EltTy.bits .f32 = 32 ∨ (Rect.block (s := S1x1) S1x1.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S10000x1.size a ≤ S600000x1.size a
  hwx7_9 : ∀ i : grid7.Coords, EltTy.bits .f32 = 32 ∨ (Rect.block (s := S600000x1) S10000x1.size (cc7_transform_9 i) (hinb7_9 i)).WholeWords (EltTy.packing .f32)

variable [Facts₀]

def dot_S10000x3_S3x128_S10000x128_1_0_0_1_n_n : DotDims S10000x3 S3x128 S10000x128 where
  lhsContracting := [1]
  rhsContracting := [0]
  lhsNonContracting := [0]
  rhsNonContracting := [1]
  lhsBatch := []
  rhsBatch := []
  wf := dot_S10000x3_S3x128_S10000x128_1_0_0_1_n_n_wf
def dot_S10000x2_S2x128_S10000x128_1_0_0_1_n_n : DotDims S10000x2 S2x128 S10000x128 where
  lhsContracting := [1]
  rhsContracting := [0]
  lhsNonContracting := [0]
  rhsNonContracting := [1]
  lhsBatch := []
  rhsBatch := []
  wf := dot_S10000x2_S2x128_S10000x128_1_0_0_1_n_n_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def scatter_S200000x1_S600000x1_S600000x1_1_0_0_1 : ScatterDims S200000x1 S600000x1 S600000x1 where
  updateWindowDims := [1]
  insertedWindowDims := [0]
  scatterDimsToOperandDims := [0]
  indexVectorDim := 1
  wf := scatter_S200000x1_S600000x1_S600000x1_1_0_0_1_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S2x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S10000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S2x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v33) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v46) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v61) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v62) S10000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v75) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v54) S10000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v90) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v92) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v95) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v96) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v88) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v62) S10000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v98) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v100) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v103) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v104) S10000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v111) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v118) S10000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v9) S10000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v119) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v120) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v121) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v123) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v122) S1x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v124) S1x1.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v125) S10000x1.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

class Facts : Prop extends Facts₀ where

variable [Facts]
-- ==== ReferenceIdeal.lean ====
abbrev S200000x3 : Shape := ⟨2, ![200000, 3]⟩
abbrev S50000x2 : Shape := ⟨2, ![50000, 2]⟩
abbrev S600000x2 : Shape := ⟨2, ![600000, 2]⟩
abbrev S3x128 : Shape := ⟨2, ![3, 128]⟩
abbrev S128 : Shape := ⟨1, ![128]⟩
abbrev S2x128 : Shape := ⟨2, ![2, 128]⟩
abbrev S2x128x128 : Shape := ⟨3, ![2, 128, 128]⟩
abbrev S384x128 : Shape := ⟨2, ![384, 128]⟩
abbrev S128x1 : Shape := ⟨2, ![128, 1]⟩
abbrev S1 : Shape := ⟨1, ![1]⟩
abbrev S2x600000 : Shape := ⟨2, ![2, 600000]⟩
abbrev S1x600000 : Shape := ⟨2, ![1, 600000]⟩
abbrev S600000 : Shape := ⟨1, ![600000]⟩
abbrev S200000x128 : Shape := ⟨2, ![200000, 128]⟩
abbrev S1x128 : Shape := ⟨2, ![1, 128]⟩
abbrev S_ : Shape := ⟨0, ![]⟩
abbrev S50000x128 : Shape := ⟨2, ![50000, 128]⟩
abbrev S600000x128 : Shape := ⟨2, ![600000, 128]⟩
abbrev S600000x1 : Shape := ⟨2, ![600000, 1]⟩
abbrev S50000x1 : Shape := ⟨2, ![50000, 1]⟩
abbrev S1x128x128 : Shape := ⟨3, ![1, 128, 128]⟩
abbrev S128x128 : Shape := ⟨2, ![128, 128]⟩
abbrev S200000x1 : Shape := ⟨2, ![200000, 1]⟩
abbrev S600000x384 : Shape := ⟨2, ![600000, 384]⟩
abbrev S1x1 : Shape := ⟨2, ![1, 1]⟩

abbrev nBuf : Space → Nat
  | .hbm => 232
  | .vmem => 0
  | .smem => 0
  | _ => 0

abbrev hbmTy0_0 (i : Nat) : BufTy := match i % 128 with
  | 0 => ⟨S200000x3, .f32⟩
  | 1 => ⟨S50000x2, .f32⟩
  | 2 => ⟨S600000x2, .f32⟩
  | 3 => ⟨S3x128, .f32⟩
  | 4 => ⟨S128, .f32⟩
  | 5 => ⟨S2x128, .f32⟩
  | 6 => ⟨S128, .f32⟩
  | 7 => ⟨S2x128, .f32⟩
  | 8 => ⟨S128, .f32⟩
  | 9 => ⟨S2x128x128, .f32⟩
  | 10 => ⟨S2x128, .f32⟩
  | 11 => ⟨S2x128x128, .f32⟩
  | 12 => ⟨S2x128x128, .f32⟩
  | 13 => ⟨S2x128, .f32⟩
  | 14 => ⟨S2x128x128, .f32⟩
  | 15 => ⟨S384x128, .f32⟩
  | 16 => ⟨S128, .f32⟩
  | 17 => ⟨S128x1, .f32⟩
  | 18 => ⟨S1, .f32⟩
  | 19 => ⟨S2x600000, .i32⟩
  | 20 => ⟨S1x600000, .i32⟩
  | 21 => ⟨S600000, .i32⟩
  | 22 => ⟨S1x600000, .i32⟩
  | 23 => ⟨S600000, .i32⟩
  | 24 => ⟨S200000x128, .f32⟩
  | 25 => ⟨S1x128, .f32⟩
  | 26 => ⟨S200000x128, .f32⟩
  | 27 => ⟨S200000x128, .f32⟩
  | 28 => ⟨S_, .f32⟩
  | 29 => ⟨S200000x128, .f32⟩
  | 30 => ⟨S200000x128, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S600000x128, .f32⟩
  | 39 => ⟨S1x128, .f32⟩
  | 40 => ⟨S600000x128, .f32⟩
  | 41 => ⟨S600000x128, .f32⟩
  | 42 => ⟨S_, .f32⟩
  | 43 => ⟨S600000x128, .f32⟩
  | 44 => ⟨S600000x128, .f32⟩
  | 45 => ⟨S_, .i32⟩
  | 46 => ⟨S600000, .i32⟩
  | 47 => ⟨S600000, .i1⟩
  | 48 => ⟨S_, .i32⟩
  | 49 => ⟨S600000, .i32⟩
  | 50 => ⟨S600000, .i32⟩
  | 51 => ⟨S600000, .i32⟩
  | 52 => ⟨S600000x1, .i32⟩
  | 53 => ⟨S600000x128, .f32⟩
  | 54 => ⟨S_, .f32⟩
  | 55 => ⟨S50000x128, .f32⟩
  | 56 => ⟨S600000x1, .i32⟩
  | 57 => ⟨S50000x128, .f32⟩
  | 58 => ⟨S_, .f32⟩
  | 59 => ⟨S600000x1, .f32⟩
  | 60 => ⟨S_, .f32⟩
  | 61 => ⟨S50000x1, .f32⟩
  | 62 => ⟨S600000x1, .i32⟩
  | 63 => ⟨S50000x1, .f32⟩
  | 64 => ⟨S_, .f32⟩
  | 65 => ⟨S50000x1, .f32⟩
  | 66 => ⟨S50000x1, .f32⟩
  | 67 => ⟨S50000x128, .f32⟩
  | 68 => ⟨S50000x128, .f32⟩
  | 69 => ⟨S1x128x128, .f32⟩
  | 70 => ⟨S128x128, .f32⟩
  | 71 => ⟨S50000x128, .f32⟩
  | 72 => ⟨S1x128, .f32⟩
  | 73 => ⟨S128, .f32⟩
  | 74 => ⟨S1x128, .f32⟩
  | 75 => ⟨S50000x128, .f32⟩
  | 76 => ⟨S50000x128, .f32⟩
  | 77 => ⟨S1x128x128, .f32⟩
  | 78 => ⟨S128x128, .f32⟩
  | 79 => ⟨S50000x128, .f32⟩
  | 80 => ⟨S50000x128, .f32⟩
  | 81 => ⟨S_, .i32⟩
  | 82 => ⟨S600000, .i32⟩
  | 83 => ⟨S600000, .i1⟩
  | 84 => ⟨S_, .i32⟩
  | 85 => ⟨S600000, .i32⟩
  | 86 => ⟨S600000, .i32⟩
  | 87 => ⟨S600000, .i32⟩
  | 88 => ⟨S600000x1, .i32⟩
  | 89 => ⟨S600000x128, .f32⟩
  | 90 => ⟨S_, .f32⟩
  | 91 => ⟨S200000x128, .f32⟩
  | 92 => ⟨S600000x1, .i32⟩
  | 93 => ⟨S200000x128, .f32⟩
  | 94 => ⟨S_, .f32⟩
  | 95 => ⟨S600000x1, .f32⟩
  | 96 => ⟨S_, .f32⟩
  | 97 => ⟨S200000x1, .f32⟩
  | 98 => ⟨S600000x1, .i32⟩
  | 99 => ⟨S200000x1, .f32⟩
  | 100 => ⟨S_, .f32⟩
  | 101 => ⟨S200000x1, .f32⟩
  | 102 => ⟨S200000x1, .f32⟩
  | 103 => ⟨S200000x128, .f32⟩
  | 104 => ⟨S200000x128, .f32⟩
  | 105 => ⟨S1x128x128, .f32⟩
  | 106 => ⟨S128x128, .f32⟩
  | 107 => ⟨S200000x128, .f32⟩
  | 108 => ⟨S1x128, .f32⟩
  | 109 => ⟨S128, .f32⟩
  | 110 => ⟨S1x128, .f32⟩
  | 111 => ⟨S200000x128, .f32⟩
  | 112 => ⟨S200000x128, .f32⟩
  | 113 => ⟨S1x128x128, .f32⟩
  | 114 => ⟨S128x128, .f32⟩
  | 115 => ⟨S200000x128, .f32⟩
  | 116 => ⟨S200000x128, .f32⟩
  | 117 => ⟨S_, .f32⟩
  | 118 => ⟨S200000x128, .f32⟩
  | 119 => ⟨S200000x128, .f32⟩
  | 120 => ⟨S_, .f32⟩
  | 121 => ⟨S50000x128, .f32⟩
  | 122 => ⟨S50000x128, .f32⟩
  | 123 => ⟨S_, .i32⟩
  | 124 => ⟨S600000, .i32⟩
  | 125 => ⟨S600000, .i1⟩
  | 126 => ⟨S_, .i32⟩
  | 127 => ⟨S600000, .i32⟩
  | _ => ⟨S200000x3, .f32⟩

abbrev hbmTy0_1 (i : Nat) : BufTy := match i % 128 with
  | 0 => ⟨S600000, .i32⟩
  | 1 => ⟨S600000, .i32⟩
  | 2 => ⟨S600000x1, .i32⟩
  | 3 => ⟨S600000x128, .f32⟩
  | 4 => ⟨S_, .f32⟩
  | 5 => ⟨S50000x128, .f32⟩
  | 6 => ⟨S600000x1, .i32⟩
  | 7 => ⟨S50000x128, .f32⟩
  | 8 => ⟨S_, .f32⟩
  | 9 => ⟨S600000x1, .f32⟩
  | 10 => ⟨S_, .f32⟩
  | 11 => ⟨S50000x1, .f32⟩
  | 12 => ⟨S600000x1, .i32⟩
  | 13 => ⟨S50000x1, .f32⟩
  | 14 => ⟨S_, .f32⟩
  | 15 => ⟨S50000x1, .f32⟩
  | 16 => ⟨S50000x1, .f32⟩
  | 17 => ⟨S50000x128, .f32⟩
  | 18 => ⟨S50000x128, .f32⟩
  | 19 => ⟨S1x128x128, .f32⟩
  | 20 => ⟨S128x128, .f32⟩
  | 21 => ⟨S50000x128, .f32⟩
  | 22 => ⟨S1x128, .f32⟩
  | 23 => ⟨S128, .f32⟩
  | 24 => ⟨S1x128, .f32⟩
  | 25 => ⟨S50000x128, .f32⟩
  | 26 => ⟨S50000x128, .f32⟩
  | 27 => ⟨S1x128x128, .f32⟩
  | 28 => ⟨S128x128, .f32⟩
  | 29 => ⟨S50000x128, .f32⟩
  | 30 => ⟨S50000x128, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x128, .f32⟩
  | 40 => ⟨S_, .f32⟩
  | 41 => ⟨S200000x128, .f32⟩
  | 42 => ⟨S600000x1, .i32⟩
  | 43 => ⟨S200000x128, .f32⟩
  | 44 => ⟨S_, .f32⟩
  | 45 => ⟨S600000x1, .f32⟩
  | 46 => ⟨S_, .f32⟩
  | 47 => ⟨S200000x1, .f32⟩
  | 48 => ⟨S600000x1, .i32⟩
  | 49 => ⟨S200000x1, .f32⟩
  | 50 => ⟨S_, .f32⟩
  | 51 => ⟨S200000x1, .f32⟩
  | 52 => ⟨S200000x1, .f32⟩
  | 53 => ⟨S200000x128, .f32⟩
  | 54 => ⟨S200000x128, .f32⟩
  | 55 => ⟨S1x128x128, .f32⟩
  | 56 => ⟨S128x128, .f32⟩
  | 57 => ⟨S200000x128, .f32⟩
  | 58 => ⟨S1x128, .f32⟩
  | 59 => ⟨S128, .f32⟩
  | 60 => ⟨S1x128, .f32⟩
  | 61 => ⟨S200000x128, .f32⟩
  | 62 => ⟨S200000x128, .f32⟩
  | 63 => ⟨S1x128x128, .f32⟩
  | 64 => ⟨S128x128, .f32⟩
  | 65 => ⟨S200000x128, .f32⟩
  | 66 => ⟨S200000x128, .f32⟩
  | 67 => ⟨S_, .f32⟩
  | 68 => ⟨S200000x128, .f32⟩
  | 69 => ⟨S200000x128, .f32⟩
  | 70 => ⟨S_, .f32⟩
  | 71 => ⟨S50000x128, .f32⟩
  | 72 => ⟨S50000x128, .f32⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S600000x128, .f32⟩
  | 82 => ⟨S_, .i32⟩
  | 83 => ⟨S600000, .i32⟩
  | 84 => ⟨S600000, .i1⟩
  | 85 => ⟨S_, .i32⟩
  | 86 => ⟨S600000, .i32⟩
  | 87 => ⟨S600000, .i32⟩
  | 88 => ⟨S600000, .i32⟩
  | 89 => ⟨S600000x1, .i32⟩
  | 90 => ⟨S600000x128, .f32⟩
  | 91 => ⟨S600000x384, .f32⟩
  | 92 => ⟨S600000x128, .f32⟩
  | 93 => ⟨S1x128, .f32⟩
  | 94 => ⟨S600000x128, .f32⟩
  | 95 => ⟨S600000x128, .f32⟩
  | 96 => ⟨S_, .f32⟩
  | 97 => ⟨S600000x128, .f32⟩
  | 98 => ⟨S600000x128, .f32⟩
  | 99 => ⟨S600000x1, .f32⟩
  | 100 => ⟨S1x1, .f32⟩
  | 101 => ⟨S600000x1, .f32⟩
  | 102 => ⟨S600000x1, .f32⟩
  | 103 => ⟨S600000, .f32⟩
  | _ => ⟨S200000x3, .f32⟩

abbrev hbmTy (i : Nat) : BufTy := match i / 128 with
  | 0 => hbmTy0_0 i
  | 1 => hbmTy0_1 i
  | _ => ⟨S200000x3, .f32⟩

abbrev bufTy : (tb : Table) → Fin (tcTables nBuf tb) → BufTy
  | .hbm, ⟨i, _⟩ => hbmTy i
  | _, _ => ⟨S200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_call0_cst : Ref sig .tc := ⟨.hbm, 28, rfl⟩
abbrev main_call0_v0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_call1_cst : Ref sig .tc := ⟨.hbm, 35, rfl⟩
abbrev main_call1_v0 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_call2_cst : Ref sig .tc := ⟨.hbm, 42, rfl⟩
abbrev main_call2_v0 : Ref sig .tc := ⟨.hbm, 43, rfl⟩
abbrev main_v18 : Ref sig .tc := ⟨.hbm, 44, rfl⟩
abbrev main_c : Ref sig .tc := ⟨.hbm, 45, rfl⟩
abbrev main_v19 : Ref sig .tc := ⟨.hbm, 46, rfl⟩
abbrev main_v20 : Ref sig .tc := ⟨.hbm, 47, rfl⟩
abbrev main_c_0 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_1 : Ref sig .tc := ⟨.hbm, 58, rfl⟩
abbrev main_v29 : Ref sig .tc := ⟨.hbm, 59, rfl⟩
abbrev main_cst_2 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_3 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_4 : Ref sig .tc := ⟨.hbm, 81, rfl⟩
abbrev main_v49 : Ref sig .tc := ⟨.hbm, 82, rfl⟩
abbrev main_v50 : Ref sig .tc := ⟨.hbm, 83, rfl⟩
abbrev main_c_5 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_6 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_7 : Ref sig .tc := ⟨.hbm, 94, rfl⟩
abbrev main_v59 : Ref sig .tc := ⟨.hbm, 95, rfl⟩
abbrev main_cst_8 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_9 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_call3_cst : Ref sig .tc := ⟨.hbm, 117, rfl⟩
abbrev main_call3_v0 : Ref sig .tc := ⟨.hbm, 118, rfl⟩
abbrev main_v79 : Ref sig .tc := ⟨.hbm, 119, rfl⟩
abbrev main_call4_cst : Ref sig .tc := ⟨.hbm, 120, rfl⟩
abbrev main_call4_v0 : Ref sig .tc := ⟨.hbm, 121, rfl⟩
abbrev main_v80 : Ref sig .tc := ⟨.hbm, 122, rfl⟩
abbrev main_c_10 : Ref sig .tc := ⟨.hbm, 123, rfl⟩
abbrev main_v81 : Ref sig .tc := ⟨.hbm, 124, rfl⟩
abbrev main_v82 : Ref sig .tc := ⟨.hbm, 125, rfl⟩
abbrev main_c_11 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_12 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_13 : Ref sig .tc := ⟨.hbm, 136, rfl⟩
abbrev main_v91 : Ref sig .tc := ⟨.hbm, 137, rfl⟩
abbrev main_cst_14 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_15 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_c_16 : Ref sig .tc := ⟨.hbm, 159, rfl⟩
abbrev main_v111 : Ref sig .tc := ⟨.hbm, 160, rfl⟩
abbrev main_v112 : Ref sig .tc := ⟨.hbm, 161, rfl⟩
abbrev main_c_17 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_18 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_19 : Ref sig .tc := ⟨.hbm, 172, rfl⟩
abbrev main_v121 : Ref sig .tc := ⟨.hbm, 173, rfl⟩
abbrev main_cst_20 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_cst_21 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_call5_cst : Ref sig .tc := ⟨.hbm, 195, rfl⟩
abbrev main_call5_v0 : Ref sig .tc := ⟨.hbm, 196, rfl⟩
abbrev main_v141 : Ref sig .tc := ⟨.hbm, 197, rfl⟩
abbrev main_call6_cst : Ref sig .tc := ⟨.hbm, 198, rfl⟩
abbrev main_call6_v0 : Ref sig .tc := ⟨.hbm, 199, rfl⟩
abbrev main_v142 : Ref sig .tc := ⟨.hbm, 200, rfl⟩
abbrev main_c_22 : Ref sig .tc := ⟨.hbm, 201, rfl⟩
abbrev main_v143 : Ref sig .tc := ⟨.hbm, 202, rfl⟩
abbrev main_v144 : Ref sig .tc := ⟨.hbm, 203, rfl⟩
abbrev main_c_23 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_c_24 : Ref sig .tc := ⟨.hbm, 210, rfl⟩
abbrev main_v150 : Ref sig .tc := ⟨.hbm, 211, rfl⟩
abbrev main_v151 : Ref sig .tc := ⟨.hbm, 212, rfl⟩
abbrev main_c_25 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_call7_cst : Ref sig .tc := ⟨.hbm, 224, rfl⟩
abbrev main_call7_v0 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S_S200000x1 : S_.BroadcastsInDim S200000x1 (![] : Fin 0 → Fin S200000x1.rank)
  bcast_S200000x1_S200000x128_0_1 : S200000x1.BroadcastsInDim S200000x128 (![0, 1] : Fin 2 → Fin S200000x128.rank)
  slices_S2x128x128_S1x128x128_1_0_0 : S2x128x128.Slices ![1, 0, 0] S1x128x128
  slices_S2x128_S1x128_1_0 : S2x128.Slices ![1, 0] S1x128
  concatenates_S600000x128_S600000x128_S600000x128_S600000x384_d1 : Shape.Concatenates [S600000x128, S600000x128, S600000x128] S600000x384 1
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  shapeCasts_S600000x1_S600000 : S600000x1.ShapeCasts S600000
  dot_S200000x3_S3x128_S200000x128_1_0_0_1_n_n_wf : DotDims.WF S200000x3 S3x128 S200000x128 [1] [0] [0] [1] [] []
  dot_S50000x2_S2x128_S50000x128_1_0_0_1_n_n_wf : DotDims.WF S50000x2 S2x128 S50000x128 [1] [0] [0] [1] [] []
  dot_S600000x2_S2x128_S600000x128_1_0_0_1_n_n_wf : DotDims.WF S600000x2 S2x128 S600000x128 [1] [0] [0] [1] [] []
  gather_S200000x128_S600000x1_S600000x128_1_0_n_n_0_1_1128_wf : GatherDims.WF S200000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S200000x128_S600000x1_S600000x128_1_0_0_1_wf : ScatterDims.WF S200000x128 S600000x1 S600000x128 [1] [0] [0] 1
  scatter_S200000x1_S600000x1_S600000x1_1_0_0_1_wf : ScatterDims.WF S200000x1 S600000x1 S600000x1 [1] [0] [0] 1
  dot_S200000x128_S128x128_S200000x128_1_0_0_1_n_n_wf : DotDims.WF S200000x128 S128x128 S200000x128 [1] [0] [0] [1] [] []
  dot_S600000x384_S384x128_S600000x128_1_0_0_1_n_n_wf : DotDims.WF S600000x384 S384x128 S600000x128 [1] [0] [0] [1] [] []
  dot_S600000x128_S128x1_S600000x1_1_0_0_1_n_n_wf : DotDims.WF S600000x128 S128x1 S600000x1 [1] [0] [0] [1] [] []

variable [Facts₀]

def dot_S200000x3_S3x128_S200000x128_1_0_0_1_n_n : DotDims S200000x3 S3x128 S200000x128 where
  lhsContracting := [1]
  rhsContracting := [0]
  lhsNonContracting := [0]
  rhsNonContracting := [1]
  lhsBatch := []
  rhsBatch := []
  wf := dot_S200000x3_S3x128_S200000x128_1_0_0_1_n_n_wf
def dot_S50000x2_S2x128_S50000x128_1_0_0_1_n_n : DotDims S50000x2 S2x128 S50000x128 where
  lhsContracting := [1]
  rhsContracting := [0]
  lhsNonContracting := [0]
  rhsNonContracting := [1]
  lhsBatch := []
  rhsBatch := []
  wf := dot_S50000x2_S2x128_S50000x128_1_0_0_1_n_n_wf
def dot_S600000x2_S2x128_S600000x128_1_0_0_1_n_n : DotDims S600000x2 S2x128 S600000x128 where
  lhsContracting := [1]
  rhsContracting := [0]
  lhsNonContracting := [0]
  rhsNonContracting := [1]
  lhsBatch := []
  rhsBatch := []
  wf := dot_S600000x2_S2x128_S600000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000x1_S600000x1_S600000x1_1_0_0_1 : ScatterDims S200000x1 S600000x1 S600000x1 where
  updateWindowDims := [1]
  insertedWindowDims := [0]
  scatterDimsToOperandDims := [0]
  indexVectorDim := 1
  wf := scatter_S200000x1_S600000x1_S600000x1_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S600000x384_S384x128_S600000x128_1_0_0_1_n_n : DotDims S600000x384 S384x128 S600000x128 where
  lhsContracting := [1]
  rhsContracting := [0]
  lhsNonContracting := [0]
  rhsNonContracting := [1]
  lhsBatch := []
  rhsBatch := []
  wf := dot_S600000x384_S384x128_S600000x128_1_0_0_1_n_n_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf

class Facts : Prop extends Facts₀ where

variable [Facts]
-- ==== Proof.KernelRun.lean ====
/-
  The idealized kernel's run, with its RESULT named.  The program is eight tiled regions among stretches of host
  operations; its buffers' contents are followed boundary by boundary (`Gen.W0` … `Gen.W17`: a host stretch rewrites
  the buffers its operations write, a region rewrites its output array by its write-backs and leaves the rest).  Every
  weakly fair execution terminates without a fault, and in the final state EVERY unscoped buffer holds the last
  boundary's contents `Gen.W17`: in particular the result buffer, and each argument array, which nothing writes, holds
  what it held at launch.  (The frame claim keeps only the second half; the value claim needs the first.)
-/
import proofs.«103209_j60009283060024_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v126) = W17 m ρ c (Proc.devRef .tc main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v126 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c),
       (h c _ (mem_uc main_arg19 (by decide))).trans (W17_main_arg19 m ρ c)⟩)

end Cert.KernelIdeal.RunValue

end
-- ==== Proof.Spec.lean ====
/-
  The mathematics both programs compute, stage by stage, as functions of whole arrays over the extended reals.
  Every dense stage of the network is a row-by-row affine map followed by a rectifier:
    * `dense`  : relu (x · w + b)                         — the three input projections;
    * `dual`   : relu ((a · wl + x · wr) + b)             — one mean-aggregation update (neighbour mean `a`, own features `x`);
    * `final`  : (relu (((gu · wa + gm · wb) + e · wc) + b1)) · w2ᵀ + b2 — the edge classifier on the three per-edge feature rows,
                  with the first layer's weight split into the three row slabs that meet the three feature rows.
  A bias is a one-row array; the last layer's weight is a one-row array (the transposed column).
  Sums and products are those of the extended reals; the zero the rectifier compares with is the float word of +0.0.
-/
import Idealize.ShloMosaic.PureOps.Ideal
import Idealize.ShloMosaic.Lib.ValueIdx

noncomputable section

namespace Cert.Spec

open Idealize.ShloMosaic Idealize.ShloMosaic.ValueIdx

/-- A two-axis array of extended reals of extents `m × n`. -/
abbrev Arr2 (m n : Nat) : Type := (⟨2, ![m, n]⟩ : Shape).Idx → EReal

/-- The float word of +0.0 read as an extended real (never evaluated: both programs carry the same word). -/
abbrev zero : EReal := Ideal.ofBits .f32 0x00000000#32

/-- Row `r` of `x` against column `c` of `w`: the sum over the shared axis of the products. -/
def rowcol {M K N : Nat} (x : Arr2 M K) (w : Arr2 K N) (r : Fin M) (c : Fin N) : EReal :=
  ∑ k : Fin K, x (ix2 r k) * w (ix2 k c)

/-- relu (x · w + b), `b` a one-row bias. -/
def dense (M K N : Nat) (x : Arr2 M K) (w : Arr2 K N) (b : Arr2 1 N) : Arr2 M N :=
  fun i => max (rowcol x w (i 0) (i 1) + b (ix2 0 (i 1))) zero

/-- relu ((a · wl + x · wr) + b): a mean-aggregation update of one node type. -/
def dual (M : Nat) (a x : Arr2 M 128) (wl wr : Arr2 128 128) (b : Arr2 1 128) : Arr2 M 128 :=
  fun i => max ((rowcol a wl (i 0) (i 1) + rowcol x wr (i 0) (i 1)) + b (ix2 0 (i 1))) zero

/-- The hidden layer of the edge classifier: relu (((gu · wa + gm · wb) + e · wc) + b1). -/
def hidden (M : Nat) (gu gm e : Arr2 M 128) (wa wb wc : Arr2 128 128) (b1 : Arr2 1 128) (r : Fin M) (j : Fin 128) : EReal :=
  max (((rowcol gu wa r j + rowcol gm wb r j) + rowcol e wc r j) + b1 (ix2 0 j)) zero

/-- The edge classifier: the hidden layer against the one-row weight `w2`, plus the scalar bias `b2`. -/
def final (M : Nat) (gu gm e : Arr2 M 128) (wa wb wc : Arr2 128 128) (b1 w2 : Arr2 1 128) (b2 : Arr2 1 1) : Arr2 M 1 :=
  fun i => (∑ j : Fin 128, hidden M gu gm e wa wb wc b1 (i 0) j * w2 (ix2 0 j)) + b2 (ix2 0 0)

end Cert.Spec

end
-- ==== Proof.LayoutEq.lean ====
/-
  Two layout facts the two programs spell differently.
  A vector of `n` entries turned into a one-row array is the same array whether it is RESHAPED (row-major order kept) or
  BROADCAST along a new leading axis of extent one: entry (0, q) is entry q either way.
  A float format change read over the extended reals is the identity.
-/
import Idealize.ShloMosaic.PureOps.Ideal
import Idealize.ShloMosaic.Lib.ValueIdx
import Idealize.ShloMosaic.Lib.Pipeline.Value

noncomputable section

namespace Cert.LayoutEq

open Idealize.ShloMosaic Idealize.ShloMosaic.ValueIdx

/-- Reshaping `[n]` to `[1, n]` is broadcasting it along a new unit axis in front. -/
theorem row_reshape_eq_bcast {α : Type} (n : Nat) (x : (⟨1, ![n]⟩ : Shape).Idx → α)
    (h1 : (⟨1, ![n]⟩ : Shape).ShapeCasts ⟨2, ![1, n]⟩)
    (h2 : (⟨1, ![n]⟩ : Shape).BroadcastsInDim ⟨2, ![1, n]⟩ ![1]) :
    shapeCast ⟨2, ![1, n]⟩ x h1 = broadcastInDim ⟨2, ![1, n]⟩ ![1] h2 x := by
  funext j
  have hj0 : (j 0).val = 0 := by have h := (j 0).isLt; simp at h; omega
  have hj1 : (j 1).val < n := (j 1).isLt
  rw [shapeCast_apply x h1 j (ix1 (n := n) (j 1)) (by
        rw [Shape.rowMajor_val_one, Shape.rowMajor_val_two]
        show (j 1).val = (j 0).val * n + (j 1).val
        rw [hj0]; omega),
      broadcastInDim_apply ![1] h2 x j (ix1 (n := n) (j 1)) (fun a => by
        match a with
        | ⟨0, _⟩ =>
          show (j 1).val = if n = 1 then 0 else (j 1).val
          by_cases hn : n = 1
          · rw [if_pos hn]; omega
          · rw [if_neg hn])]

/-- Widening a float format is the identity on the extended reals. -/
theorem extf_id {s : Shape} {φ ψ : FTy} (a : FVec Ideal s φ) (h : φ.bits < ψ.bits) : (extf ψ a h : FVec Ideal s ψ) = a := rfl

end Cert.LayoutEq

end
-- ==== Proof.RegionDense0.lean ====
/-
  Region 0: one input projection, relu (x · w + b), computed tile by tile.
  The 200000 rows of the operand are cut into twenty tiles of 10000 rows; grid point t holds rows 10000 t … 10000 t + 9999 of the
  operand, the whole 3 × 128 weight and the whole one-row bias, and writes rows 10000 t … 10000 t + 9999 of the result.
  Entry (p, q) of a tile's result is max (∑ k, x[p, k] · w[k, q] + b[0, q]) 0 over the extended reals; since row p of tile t is
  row 10000 t + p of the operand, that is entry (10000 t + p, q) of the dense layer of the whole arrays. The tiles cover every
  row (row r lies in tile r / 10000), so the result array is the dense layer.
-/
import proofs.«103209_j60009283060024_2_alg».proof.Proof.Gen.KernelIdeal.Frame
import proofs.«103209_j60009283060024_2_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/-- The contraction of a 10000×3 block against the 3×128 weight reads row `i 0` of the left operand on its first axis. -/
theorem dot0_lhs_0 (i : S10000x128.Idx) (k : dot_S10000x3_S3x128_S10000x128_1_0_0_1_n_n.contr.Idx) :
    (dot_S10000x3_S3x128_S10000x128_1_0_0_1_n_n.lhsIdx i k 0).val = (i 0).val := by
  unfold DotDims.lhsIdx
  rw [dif_neg (show ¬(0 : Fin S10000x3.rank) ∈ dot_S10000x3_S3x128_S10000x128_1_0_0_1_n_n.lhsBatch by decide), dif_pos (show (0 : Fin S10000x3.rank) ∈ dot_S10000x3_S3x128_S10000x128_1_0_0_1_n_n.lhsNonContracting by decide)]
  rfl

/-- … and column `i 1` of the right operand on its second axis. -/
theorem dot0_rhs_1 (i : S10000x128.Idx) (k : dot_S10000x3_S3x128_S10000x128_1_0_0_1_n_n.contr.Idx) :
    (dot_S10000x3_S3x128_S10000x128_1_0_0_1_n_n.rhsIdx i k 1).val = (i 1).val := by
  unfold DotDims.rhsIdx
  rw [dif_neg (show ¬(1 : Fin S3x128.rank) ∈ dot_S10000x3_S3x128_S10000x128_1_0_0_1_n_n.rhsBatch by decide), dif_pos (show (1 : Fin S3x128.rank) ∈ dot_S10000x3_S3x128_S10000x128_1_0_0_1_n_n.rhsNonContracting by decide)]
  rfl

/-- The stored value at row `p`, lane `q` of a block: row `p` of `x0` against column `q` of `x1`, plus lane `q` of the
    one-row bias, rectified. Rounding to the narrow float is the identity on extended reals, and the contraction into a
    zero accumulator is the plain sum of products. -/
theorem pay0_apply (x0 : Vec Ideal S10000x3 .f32) (x1 : Vec Ideal S3x128 .f32) (x2 : Vec Ideal S1x128 .f32)
    (p : Fin 10000) (q : Fin 128) :
    Gen.k0_pay1 (F := Ideal) x0 x1 x2 (ix2 p q)
      = max ((∑ k : Fin 3, x0 (ix2 p k) * x1 (ix2 k q)) + x2 (ix2 0 q)) Spec.zero := by
  unfold Gen.k0_pay1
  rw [truncf_apply, maximumf_apply, addf_apply, broadcast_apply, shapeCast_self]
  rw [broadcastTo_apply x2 broadcasts_S1x128_S10000x128 (ix2 p q) (ix2 0 q) (fun a => by
    match a with
    | ⟨0, _⟩ => rfl
    | ⟨1, _⟩ => rfl)]
  simp only [matmul]
  rw [Ideal.matmul_constant_zero_apply, ← Equiv.sum_comp (contrEquiv1 dot_S10000x3_S3x128_S10000x128_1_0_0_1_n_n 3 rfl rfl).symm]
  refine congrArg₂ max (congrArg₂ (· + ·) (Finset.sum_congr rfl fun k _ => ?_) rfl) rfl
  have hk := contrEquiv1_symm_val dot_S10000x3_S3x128_S10000x128_1_0_0_1_n_n 3 rfl rfl k
  have el : dot_S10000x3_S3x128_S10000x128_1_0_0_1_n_n.lhsIdx (ix2 p q) ((contrEquiv1 dot_S10000x3_S3x128_S10000x128_1_0_0_1_n_n 3 rfl rfl).symm k) = ix2 p k := funext fun a => Fin.ext (by
    match a with
    | ⟨0, _⟩ => exact dot0_lhs_0 _ _
    | ⟨1, _⟩ => exact (dot_S10000x3_S3x128_S10000x128_1_0_0_1_n_n.lhsIdx_val_of_single rfl _ _).trans hk)
  have er : dot_S10000x3_S3x128_S10000x128_1_0_0_1_n_n.rhsIdx (ix2 p q) ((contrEquiv1 dot_S10000x3_S3x128_S10000x128_1_0_0_1_n_n 3 rfl rfl).symm k) = ix2 k q := funext fun a => Fin.ext (by
    match a with
    | ⟨0, _⟩ => exact (dot_S10000x3_S3x128_S10000x128_1_0_0_1_n_n.rhsIdx_val_of_single rfl _ _).trans hk
    | ⟨1, _⟩ => exact dot0_rhs_1 _ _)
  rw [el, er]
  rfl

theorem origin0 : (![0, 0] : Fin 2 → Nat) = fun _ => 0 := funext fun a => by fin_cases a <;> rfl

/-- The same value against whole arrays: when the block's row `p` is row `r` of `X` and the weight and bias blocks are the
    whole weight and bias, the stored value at (p, q) is the dense layer of `X`, `W`, `B` at (r, q). -/
theorem block0_apply (x0 : Vec Ideal S10000x3 .f32) (x1 : Vec Ideal S3x128 .f32) (x2 : Vec Ideal S1x128 .f32)
    (X : Spec.Arr2 200000 3) (W : Spec.Arr2 3 128) (B : Spec.Arr2 1 128) (p : Fin 10000) (q : Fin 128) (r : Fin 200000)
    (h0 : ∀ k : Fin 3, x0 (ix2 p k) = X (ix2 r k)) (h1 : x1 = W) (h2 : x2 = B) :
    Gen.k0_pay1 (F := Ideal) x0 x1 x2 (ix2 p q) = Spec.dense 200000 3 128 X W B (ix2 r q) := by
  rw [pay0_apply]
  subst h1 h2
  show _ = max ((∑ k : Fin 3, X (ix2 r k) * x1 (ix2 k q)) + x2 (ix2 0 q)) Spec.zero
  simp only [h0]

/-- The windows' printed index maps over the 20 grid points: the row-tiled operand and the result sit at block (t, 0),
    the weight and the bias at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What grid point `t` writes back is block `t` of the dense layer of the three arrays as the region finds them. -/
theorem flushed0_eq (c : Dev nD) (t : Fin cfg0.N) :
    (Gen.dat0 (F := Ideal) V c).flushed 3 t
      = ((cfg0.win 3).blk t).view.read (Elt Ideal) (Spec.dense 200000 3 128 (V c main_arg0) (V c main_arg3) (V c main_v4)) := by
  show (cfg0.win 3).cut (grid0.coords t) ((Gen.dat0 V c).after 3 t) = _
  rw [Gen.after0_3]
  unfold Gen.out0_3
  rw [View.canon_unit_zero origin0]
  simp only [View.ld_unit_zero (S := S10000x3) origin0, View.ld_unit_zero (S := S3x128) origin0, View.ld_unit_zero (S := S1x128) origin0]
  obtain ⟨e00, e01, e10, e11, e20, e21, e30, e31⟩ := idx_facts0 t
  have ht : t.val < 20 := lt_of_lt_of_eq t.isLt N_0
  refine funext fun (y : S10000x128.Idx) => ?_
  obtain ⟨p, q, rfl⟩ : ∃ (p : Fin 10000) (q : Fin 128), y = ix2 p q := ⟨y 0, y 1, eq_ix2 y⟩
  have hp : p.val < 10000 := p.isLt
  show Gen.k0_pay1 (F := Ideal) (Gen.iblk0 V c 0 t) (Gen.iblk0 V c 1 t) (Gen.iblk0 V c 2 t) (ix2 p q)
    = Spec.dense 200000 3 128 (V c main_arg0) (V c main_arg3) (V c main_v4) (((cfg0.win 3).blk t).view.emb (ix2 p q))
  refine (block0_apply _ _ _ (V c main_arg0) (V c main_arg3) (V c main_v4) p q ⟨t.val * 10000 + p.val, by omega⟩ ?_ ?_ ?_).trans ?_
  · -- row p of the operand's block t is row 10000 t + p of the operand
    intro k
    show V c main_arg0 (((cfg0.win 0).blk t).view.emb (ix2 p k)) = V c main_arg0 _
    refine congrArg (V c main_arg0) (funext fun a => Fin.ext ?_)
    match a with
    | ⟨0, _⟩ => show win0_0.index t (0 : Fin 2) * 10000 + 1 * p.val = t.val * 10000 + p.val; rw [e00]; omega
    | ⟨1, _⟩ => show win0_0.index t (1 : Fin 2) * 3 + 1 * k.val = k.val; rw [e01]; omega
  · -- the weight's one block is the weight
    funext y
    show V c main_arg3 (((cfg0.win 1).blk t).view.emb y) = V c main_arg3 y
    refine congrArg (V c main_arg3) (funext fun a => Fin.ext ?_)
    match a with
    | ⟨0, _⟩ => show win0_1.index t (0 : Fin 2) * 3 + 1 * (y 0).val = (y 0).val; rw [e10]; omega
    | ⟨1, _⟩ => show win0_1.index t (1 : Fin 2) * 128 + 1 * (y 1).val = (y 1).val; rw [e11]; omega
  · -- the bias's one block is the bias
    funext y
    show V c main_v4 (((cfg0.win 2).blk t).view.emb y) = V c main_v4 y
    refine congrArg (V c main_v4) (funext fun a => Fin.ext ?_)
    match a with
    | ⟨0, _⟩ => show win0_2.index t (0 : Fin 2) * 1 + 1 * (y 0).val = (y 0).val; rw [e20]; omega
    | ⟨1, _⟩ => show win0_2.index t (1 : Fin 2) * 128 + 1 * (y 1).val = (y 1).val; rw [e21]; omega
  · -- entry (p, q) of the result's block t is entry (10000 t + p, q) of the result
    refine congrArg (Spec.dense 200000 3 128 (V c main_arg0) (V c main_arg3) (V c main_v4)) (funext fun a => Fin.ext ?_)
    match a with
    | ⟨0, _⟩ => show t.val * 10000 + p.val = win0_3.index t (0 : Fin 2) * 10000 + 1 * p.val; rw [e30]; omega
    | ⟨1, _⟩ => show q.val = win0_3.index t (1 : Fin 2) * 128 + 1 * q.val; rw [e31]; omega

/-- An index of the result is in point `t`'s block iff each coordinate is in the block's range on its axis. -/
theorem mem_blk0 (t : Fin cfg0.N) (i : S200000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v5).slice (win0_3.rect t)).set ↔ _
  rw [View.set_slice_whole, Rect.mem_set_unit]
  exact Iff.rfl

/-- Row `r` of the result lies in the block of point `r / 10000`: the twenty blocks tile the 200000 rows. -/
theorem cover0 (i : S200000x128.Idx) :
    ∃ t : Fin cfg0.N, (cfg0.win 3).flush t = true ∧ i ∈ ((cfg0.win 3).blk t).view.set := by
  have hi0 : (i 0).val < 200000 := (i 0).isLt
  have hi1 : (i 1).val < 128 := (i 1).isLt
  let t : Fin cfg0.N := ⟨(i 0).val / 10000, lt_of_lt_of_eq (show (i 0).val / 10000 < 20 by omega) N_0.symm⟩
  obtain ⟨-, -, -, -, -, -, e30, e31⟩ := idx_facts0 t
  have ht : t.val = (i 0).val / 10000 := rfl
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; rw [e30, ht]; omega
  | ⟨1, _⟩ => show win0_3.index t (1 : Fin 2) * 128 ≤ (i 1).val ∧ (i 1).val < win0_3.index t (1 : Fin 2) * 128 + 128; rw [e31]; omega

/-- REGION 0: after its twenty points the result array holds the dense layer of the operand, weight and bias arrays
    as the region finds them. -/
theorem region0 (c : Dev nD) :
    (Gen.dat0 (F := Ideal) V c).arrAt 3 cfg0.N = Spec.dense 200000 3 128 (V c main_arg0) (V c main_arg3) (V c main_v4) :=
  (Gen.dat0 (F := Ideal) V c).arrAt_eq_of_cover 3 _ (fun t _ => flushed0_eq V c t) cover0

end Cert.KernelIdeal.RegionValue

end
-- ==== Proof.RegionDense1.lean ====
/-
  Region 1: one input projection, relu (x · w + b), computed tile by tile.
  The 50000 rows of the operand are cut into five tiles of 10000 rows; grid point t holds rows 10000 t … 10000 t + 9999 of the
  operand, the whole 2 × 128 weight and the whole one-row bias, and writes rows 10000 t … 10000 t + 9999 of the result.
  Entry (p, q) of a tile's result is max (∑ k, x[p, k] · w[k, q] + b[0, q]) 0 over the extended reals; since row p of tile t is
  row 10000 t + p of the operand, that is entry (10000 t + p, q) of the dense layer of the whole arrays. The tiles cover every
  row (row r lies in tile r / 10000), so the result array is the dense layer.
-/
import proofs.«103209_j60009283060024_2_alg».proof.Proof.Gen.KernelIdeal.Frame
import proofs.«103209_j60009283060024_2_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/-- The contraction of a 10000×2 block against the 2×128 weight reads row `i 0` of the left operand on its first axis. -/
theorem dot1_lhs_0 (i : S10000x128.Idx) (k : dot_S10000x2_S2x128_S10000x128_1_0_0_1_n_n.contr.Idx) :
    (dot_S10000x2_S2x128_S10000x128_1_0_0_1_n_n.lhsIdx i k 0).val = (i 0).val := by
  unfold DotDims.lhsIdx
  rw [dif_neg (show ¬(0 : Fin S10000x2.rank) ∈ dot_S10000x2_S2x128_S10000x128_1_0_0_1_n_n.lhsBatch by decide), dif_pos (show (0 : Fin S10000x2.rank) ∈ dot_S10000x2_S2x128_S10000x128_1_0_0_1_n_n.lhsNonContracting by decide)]
  rfl

/-- … and column `i 1` of the right operand on its second axis. -/
theorem dot1_rhs_1 (i : S10000x128.Idx) (k : dot_S10000x2_S2x128_S10000x128_1_0_0_1_n_n.contr.Idx) :
    (dot_S10000x2_S2x128_S10000x128_1_0_0_1_n_n.rhsIdx i k 1).val = (i 1).val := by
  unfold DotDims.rhsIdx
  rw [dif_neg (show ¬(1 : Fin S2x128.rank) ∈ dot_S10000x2_S2x128_S10000x128_1_0_0_1_n_n.rhsBatch by decide), dif_pos (show (1 : Fin S2x128.rank) ∈ dot_S10000x2_S2x128_S10000x128_1_0_0_1_n_n.rhsNonContracting by decide)]
  rfl

/-- The stored value at row `p`, lane `q` of a block: row `p` of `x0` against column `q` of `x1`, plus lane `q` of the
    one-row bias, rectified. Rounding to the narrow float is the identity on extended reals, and the contraction into a
    zero accumulator is the plain sum of products. -/
theorem pay1_apply (x0 : Vec Ideal S10000x2 .f32) (x1 : Vec Ideal S2x128 .f32) (x2 : Vec Ideal S1x128 .f32)
    (p : Fin 10000) (q : Fin 128) :
    Gen.k1_pay1 (F := Ideal) x0 x1 x2 (ix2 p q)
      = max ((∑ k : Fin 2, x0 (ix2 p k) * x1 (ix2 k q)) + x2 (ix2 0 q)) Spec.zero := by
  unfold Gen.k1_pay1
  rw [truncf_apply, maximumf_apply, addf_apply, broadcast_apply, shapeCast_self]
  rw [broadcastTo_apply x2 broadcasts_S1x128_S10000x128 (ix2 p q) (ix2 0 q) (fun a => by
    match a with
    | ⟨0, _⟩ => rfl
    | ⟨1, _⟩ => rfl)]
  simp only [matmul]
  rw [Ideal.matmul_constant_zero_apply, ← Equiv.sum_comp (contrEquiv1 dot_S10000x2_S2x128_S10000x128_1_0_0_1_n_n 2 rfl rfl).symm]
  refine congrArg₂ max (congrArg₂ (· + ·) (Finset.sum_congr rfl fun k _ => ?_) rfl) rfl
  have hk := contrEquiv1_symm_val dot_S10000x2_S2x128_S10000x128_1_0_0_1_n_n 2 rfl rfl k
  have el : dot_S10000x2_S2x128_S10000x128_1_0_0_1_n_n.lhsIdx (ix2 p q) ((contrEquiv1 dot_S10000x2_S2x128_S10000x128_1_0_0_1_n_n 2 rfl rfl).symm k) = ix2 p k := funext fun a => Fin.ext (by
    match a with
    | ⟨0, _⟩ => exact dot1_lhs_0 _ _
    | ⟨1, _⟩ => exact (dot_S10000x2_S2x128_S10000x128_1_0_0_1_n_n.lhsIdx_val_of_single rfl _ _).trans hk)
  have er : dot_S10000x2_S2x128_S10000x128_1_0_0_1_n_n.rhsIdx (ix2 p q) ((contrEquiv1 dot_S10000x2_S2x128_S10000x128_1_0_0_1_n_n 2 rfl rfl).symm k) = ix2 k q := funext fun a => Fin.ext (by
    match a with
    | ⟨0, _⟩ => exact (dot_S10000x2_S2x128_S10000x128_1_0_0_1_n_n.rhsIdx_val_of_single rfl _ _).trans hk
    | ⟨1, _⟩ => exact dot1_rhs_1 _ _)
  rw [el, er]
  rfl

theorem origin1 : (![0, 0] : Fin 2 → Nat) = fun _ => 0 := funext fun a => by fin_cases a <;> rfl

/-- The same value against whole arrays: when the block's row `p` is row `r` of `X` and the weight and bias blocks are the
    whole weight and bias, the stored value at (p, q) is the dense layer of `X`, `W`, `B` at (r, q). -/
theorem block1_apply (x0 : Vec Ideal S10000x2 .f32) (x1 : Vec Ideal S2x128 .f32) (x2 : Vec Ideal S1x128 .f32)
    (X : Spec.Arr2 50000 2) (W : Spec.Arr2 2 128) (B : Spec.Arr2 1 128) (p : Fin 10000) (q : Fin 128) (r : Fin 50000)
    (h0 : ∀ k : Fin 2, x0 (ix2 p k) = X (ix2 r k)) (h1 : x1 = W) (h2 : x2 = B) :
    Gen.k1_pay1 (F := Ideal) x0 x1 x2 (ix2 p q) = Spec.dense 50000 2 128 X W B (ix2 r q) := by
  rw [pay1_apply]
  subst h1 h2
  show _ = max ((∑ k : Fin 2, X (ix2 r k) * x1 (ix2 k q)) + x2 (ix2 0 q)) Spec.zero
  simp only [h0]

/-- The windows' printed index maps over the 5 grid points: the row-tiled operand and the result sit at block (t, 0),
    the weight and the bias at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What grid point `t` writes back is block `t` of the dense layer of the three arrays as the region finds them. -/
theorem flushed1_eq (c : Dev nD) (t : Fin cfg1.N) :
    (Gen.dat1 (F := Ideal) V c).flushed 3 t
      = ((cfg1.win 3).blk t).view.read (Elt Ideal) (Spec.dense 50000 2 128 (V c main_arg1) (V c main_arg5) (V c main_v6)) := by
  show (cfg1.win 3).cut (grid1.coords t) ((Gen.dat1 V c).after 3 t) = _
  rw [Gen.after1_3]
  unfold Gen.out1_3
  rw [View.canon_unit_zero origin1]
  simp only [View.ld_unit_zero (S := S10000x2) origin1, View.ld_unit_zero (S := S2x128) origin1, View.ld_unit_zero (S := S1x128) origin1]
  obtain ⟨e00, e01, e10, e11, e20, e21, e30, e31⟩ := idx_facts1 t
  have ht : t.val < 5 := lt_of_lt_of_eq t.isLt N_1
  refine funext fun (y : S10000x128.Idx) => ?_
  obtain ⟨p, q, rfl⟩ : ∃ (p : Fin 10000) (q : Fin 128), y = ix2 p q := ⟨y 0, y 1, eq_ix2 y⟩
  have hp : p.val < 10000 := p.isLt
  show Gen.k1_pay1 (F := Ideal) (Gen.iblk1 V c 0 t) (Gen.iblk1 V c 1 t) (Gen.iblk1 V c 2 t) (ix2 p q)
    = Spec.dense 50000 2 128 (V c main_arg1) (V c main_arg5) (V c main_v6) (((cfg1.win 3).blk t).view.emb (ix2 p q))
  refine (block1_apply _ _ _ (V c main_arg1) (V c main_arg5) (V c main_v6) p q ⟨t.val * 10000 + p.val, by omega⟩ ?_ ?_ ?_).trans ?_
  · -- row p of the operand's block t is row 10000 t + p of the operand
    intro k
    show V c main_arg1 (((cfg1.win 0).blk t).view.emb (ix2 p k)) = V c main_arg1 _
    refine congrArg (V c main_arg1) (funext fun a => Fin.ext ?_)
    match a with
    | ⟨0, _⟩ => show win1_0.index t (0 : Fin 2) * 10000 + 1 * p.val = t.val * 10000 + p.val; rw [e00]; omega
    | ⟨1, _⟩ => show win1_0.index t (1 : Fin 2) * 2 + 1 * k.val = k.val; rw [e01]; omega
  · -- the weight's one block is the weight
    funext y
    show V c main_arg5 (((cfg1.win 1).blk t).view.emb y) = V c main_arg5 y
    refine congrArg (V c main_arg5) (funext fun a => Fin.ext ?_)
    match a with
    | ⟨0, _⟩ => show win1_1.index t (0 : Fin 2) * 2 + 1 * (y 0).val = (y 0).val; rw [e10]; omega
    | ⟨1, _⟩ => show win1_1.index t (1 : Fin 2) * 128 + 1 * (y 1).val = (y 1).val; rw [e11]; omega
  · -- the bias's one block is the bias
    funext y
    show V c main_v6 (((cfg1.win 2).blk t).view.emb y) = V c main_v6 y
    refine congrArg (V c main_v6) (funext fun a => Fin.ext ?_)
    match a with
    | ⟨0, _⟩ => show win1_2.index t (0 : Fin 2) * 1 + 1 * (y 0).val = (y 0).val; rw [e20]; omega
    | ⟨1, _⟩ => show win1_2.index t (1 : Fin 2) * 128 + 1 * (y 1).val = (y 1).val; rw [e21]; omega
  · -- entry (p, q) of the result's block t is entry (10000 t + p, q) of the result
    refine congrArg (Spec.dense 50000 2 128 (V c main_arg1) (V c main_arg5) (V c main_v6)) (funext fun a => Fin.ext ?_)
    match a with
    | ⟨0, _⟩ => show t.val * 10000 + p.val = win1_3.index t (0 : Fin 2) * 10000 + 1 * p.val; rw [e30]; omega
    | ⟨1, _⟩ => show q.val = win1_3.index t (1 : Fin 2) * 128 + 1 * q.val; rw [e31]; omega

/-- An index of the result is in point `t`'s block iff each coordinate is in the block's range on its axis. -/
theorem mem_blk1 (t : Fin cfg1.N) (i : S50000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v7).slice (win1_3.rect t)).set ↔ _
  rw [View.set_slice_whole, Rect.mem_set_unit]
  exact Iff.rfl

/-- Row `r` of the result lies in the block of point `r / 10000`: the five blocks tile the 50000 rows. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  let t : Fin cfg1.N := ⟨(i 0).val / 10000, lt_of_lt_of_eq (show (i 0).val / 10000 < 5 by omega) N_1.symm⟩
  obtain ⟨-, -, -, -, -, -, e30, e31⟩ := idx_facts1 t
  have ht : t.val = (i 0).val / 10000 := rfl
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; rw [e30, ht]; omega
  | ⟨1, _⟩ => show win1_3.index t (1 : Fin 2) * 128 ≤ (i 1).val ∧ (i 1).val < win1_3.index t (1 : Fin 2) * 128 + 128; rw [e31]; omega

/-- REGION 1: after its five points the result array holds the dense layer of the operand, weight and bias arrays
    as the region finds them. -/
theorem region1 (c : Dev nD) :
    (Gen.dat1 (F := Ideal) V c).arrAt 3 cfg1.N = Spec.dense 50000 2 128 (V c main_arg1) (V c main_arg5) (V c main_v6) :=
  (Gen.dat1 (F := Ideal) V c).arrAt_eq_of_cover 3 _ (fun t _ => flushed1_eq V c t) cover1

end Cert.KernelIdeal.RegionValue

end
-- ==== Proof.RegionDense2.lean ====
/-
  Region 2: one input projection, relu (x · w + b), computed tile by tile.
  The 600000 rows of the operand are cut into sixty tiles of 10000 rows; grid point t holds rows 10000 t … 10000 t + 9999 of the
  operand, the whole 2 × 128 weight and the whole one-row bias, and writes rows 10000 t … 10000 t + 9999 of the result.
  Entry (p, q) of a tile's result is max (∑ k, x[p, k] · w[k, q] + b[0, q]) 0 over the extended reals; since row p of tile t is
  row 10000 t + p of the operand, that is entry (10000 t + p, q) of the dense layer of the whole arrays. The tiles cover every
  row (row r lies in tile r / 10000), so the result array is the dense layer.
-/
import proofs.«103209_j60009283060024_2_alg».proof.Proof.Gen.KernelIdeal.Frame
import proofs.«103209_j60009283060024_2_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/-- The contraction of a 10000×2 block against the 2×128 weight reads row `i 0` of the left operand on its first axis. -/
theorem dot2_lhs_0 (i : S10000x128.Idx) (k : dot_S10000x2_S2x128_S10000x128_1_0_0_1_n_n.contr.Idx) :
    (dot_S10000x2_S2x128_S10000x128_1_0_0_1_n_n.lhsIdx i k 0).val = (i 0).val := by
  unfold DotDims.lhsIdx
  rw [dif_neg (show ¬(0 : Fin S10000x2.rank) ∈ dot_S10000x2_S2x128_S10000x128_1_0_0_1_n_n.lhsBatch by decide), dif_pos (show (0 : Fin S10000x2.rank) ∈ dot_S10000x2_S2x128_S10000x128_1_0_0_1_n_n.lhsNonContracting by decide)]
  rfl

/-- … and column `i 1` of the right operand on its second axis. -/
theorem dot2_rhs_1 (i : S10000x128.Idx) (k : dot_S10000x2_S2x128_S10000x128_1_0_0_1_n_n.contr.Idx) :
    (dot_S10000x2_S2x128_S10000x128_1_0_0_1_n_n.rhsIdx i k 1).val = (i 1).val := by
  unfold DotDims.rhsIdx
  rw [dif_neg (show ¬(1 : Fin S2x128.rank) ∈ dot_S10000x2_S2x128_S10000x128_1_0_0_1_n_n.rhsBatch by decide), dif_pos (show (1 : Fin S2x128.rank) ∈ dot_S10000x2_S2x128_S10000x128_1_0_0_1_n_n.rhsNonContracting by decide)]
  rfl

/-- The stored value at row `p`, lane `q` of a block: row `p` of `x0` against column `q` of `x1`, plus lane `q` of the
    one-row bias, rectified. Rounding to the narrow float is the identity on extended reals, and the contraction into a
    zero accumulator is the plain sum of products. -/
theorem pay2_apply (x0 : Vec Ideal S10000x2 .f32) (x1 : Vec Ideal S2x128 .f32) (x2 : Vec Ideal S1x128 .f32)
    (p : Fin 10000) (q : Fin 128) :
    Gen.k2_pay1 (F := Ideal) x0 x1 x2 (ix2 p q)
      = max ((∑ k : Fin 2, x0 (ix2 p k) * x1 (ix2 k q)) + x2 (ix2 0 q)) Spec.zero := by
  unfold Gen.k2_pay1
  rw [truncf_apply, maximumf_apply, addf_apply, broadcast_apply, shapeCast_self]
  rw [broadcastTo_apply x2 broadcasts_S1x128_S10000x128 (ix2 p q) (ix2 0 q) (fun a => by
    match a with
    | ⟨0, _⟩ => rfl
    | ⟨1, _⟩ => rfl)]
  simp only [matmul]
  rw [Ideal.matmul_constant_zero_apply, ← Equiv.sum_comp (contrEquiv1 dot_S10000x2_S2x128_S10000x128_1_0_0_1_n_n 2 rfl rfl).symm]
  refine congrArg₂ max (congrArg₂ (· + ·) (Finset.sum_congr rfl fun k _ => ?_) rfl) rfl
  have hk := contrEquiv1_symm_val dot_S10000x2_S2x128_S10000x128_1_0_0_1_n_n 2 rfl rfl k
  have el : dot_S10000x2_S2x128_S10000x128_1_0_0_1_n_n.lhsIdx (ix2 p q) ((contrEquiv1 dot_S10000x2_S2x128_S10000x128_1_0_0_1_n_n 2 rfl rfl).symm k) = ix2 p k := funext fun a => Fin.ext (by
    match a with
    | ⟨0, _⟩ => exact dot2_lhs_0 _ _
    | ⟨1, _⟩ => exact (dot_S10000x2_S2x128_S10000x128_1_0_0_1_n_n.lhsIdx_val_of_single rfl _ _).trans hk)
  have er : dot_S10000x2_S2x128_S10000x128_1_0_0_1_n_n.rhsIdx (ix2 p q) ((contrEquiv1 dot_S10000x2_S2x128_S10000x128_1_0_0_1_n_n 2 rfl rfl).symm k) = ix2 k q := funext fun a => Fin.ext (by
    match a with
    | ⟨0, _⟩ => exact (dot_S10000x2_S2x128_S10000x128_1_0_0_1_n_n.rhsIdx_val_of_single rfl _ _).trans hk
    | ⟨1, _⟩ => exact dot2_rhs_1 _ _)
  rw [el, er]
  rfl

theorem origin2 : (![0, 0] : Fin 2 → Nat) = fun _ => 0 := funext fun a => by fin_cases a <;> rfl

/-- The same value against whole arrays: when the block's row `p` is row `r` of `X` and the weight and bias blocks are the
    whole weight and bias, the stored value at (p, q) is the dense layer of `X`, `W`, `B` at (r, q). -/
theorem block2_apply (x0 : Vec Ideal S10000x2 .f32) (x1 : Vec Ideal S2x128 .f32) (x2 : Vec Ideal S1x128 .f32)
    (X : Spec.Arr2 600000 2) (W : Spec.Arr2 2 128) (B : Spec.Arr2 1 128) (p : Fin 10000) (q : Fin 128) (r : Fin 600000)
    (h0 : ∀ k : Fin 2, x0 (ix2 p k) = X (ix2 r k)) (h1 : x1 = W) (h2 : x2 = B) :
    Gen.k2_pay1 (F := Ideal) x0 x1 x2 (ix2 p q) = Spec.dense 600000 2 128 X W B (ix2 r q) := by
  rw [pay2_apply]
  subst h1 h2
  show _ = max ((∑ k : Fin 2, X (ix2 r k) * x1 (ix2 k q)) + x2 (ix2 0 q)) Spec.zero
  simp only [h0]

/-- The windows' printed index maps over the 60 grid points: the row-tiled operand and the result sit at block (t, 0),
    the weight and the bias at block (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- What grid point `t` writes back is block `t` of the dense layer of the three arrays as the region finds them. -/
theorem flushed2_eq (c : Dev nD) (t : Fin cfg2.N) :
    (Gen.dat2 (F := Ideal) V c).flushed 3 t
      = ((cfg2.win 3).blk t).view.read (Elt Ideal) (Spec.dense 600000 2 128 (V c main_arg2) (V c main_arg7) (V c main_v8)) := by
  show (cfg2.win 3).cut (grid2.coords t) ((Gen.dat2 V c).after 3 t) = _
  rw [Gen.after2_3]
  unfold Gen.out2_3
  rw [View.canon_unit_zero origin2]
  simp only [View.ld_unit_zero (S := S10000x2) origin2, View.ld_unit_zero (S := S2x128) origin2, View.ld_unit_zero (S := S1x128) origin2]
  obtain ⟨e00, e01, e10, e11, e20, e21, e30, e31⟩ := idx_facts2 t
  have ht : t.val < 60 := lt_of_lt_of_eq t.isLt N_2
  refine funext fun (y : S10000x128.Idx) => ?_
  obtain ⟨p, q, rfl⟩ : ∃ (p : Fin 10000) (q : Fin 128), y = ix2 p q := ⟨y 0, y 1, eq_ix2 y⟩
  have hp : p.val < 10000 := p.isLt
  show Gen.k2_pay1 (F := Ideal) (Gen.iblk2 V c 0 t) (Gen.iblk2 V c 1 t) (Gen.iblk2 V c 2 t) (ix2 p q)
    = Spec.dense 600000 2 128 (V c main_arg2) (V c main_arg7) (V c main_v8) (((cfg2.win 3).blk t).view.emb (ix2 p q))
  refine (block2_apply _ _ _ (V c main_arg2) (V c main_arg7) (V c main_v8) p q ⟨t.val * 10000 + p.val, by omega⟩ ?_ ?_ ?_).trans ?_
  · -- row p of the operand's block t is row 10000 t + p of the operand
    intro k
    show V c main_arg2 (((cfg2.win 0).blk t).view.emb (ix2 p k)) = V c main_arg2 _
    refine congrArg (V c main_arg2) (funext fun a => Fin.ext ?_)
    match a with
    | ⟨0, _⟩ => show win2_0.index t (0 : Fin 2) * 10000 + 1 * p.val = t.val * 10000 + p.val; rw [e00]; omega
    | ⟨1, _⟩ => show win2_0.index t (1 : Fin 2) * 2 + 1 * k.val = k.val; rw [e01]; omega
  · -- the weight's one block is the weight
    funext y
    show V c main_arg7 (((cfg2.win 1).blk t).view.emb y) = V c main_arg7 y
    refine congrArg (V c main_arg7) (funext fun a => Fin.ext ?_)
    match a with
    | ⟨0, _⟩ => show win2_1.index t (0 : Fin 2) * 2 + 1 * (y 0).val = (y 0).val; rw [e10]; omega
    | ⟨1, _⟩ => show win2_1.index t (1 : Fin 2) * 128 + 1 * (y 1).val = (y 1).val; rw [e11]; omega
  · -- the bias's one block is the bias
    funext y
    show V c main_v8 (((cfg2.win 2).blk t).view.emb y) = V c main_v8 y
    refine congrArg (V c main_v8) (funext fun a => Fin.ext ?_)
    match a with
    | ⟨0, _⟩ => show win2_2.index t (0 : Fin 2) * 1 + 1 * (y 0).val = (y 0).val; rw [e20]; omega
    | ⟨1, _⟩ => show win2_2.index t (1 : Fin 2) * 128 + 1 * (y 1).val = (y 1).val; rw [e21]; omega
  · -- entry (p, q) of the result's block t is entry (10000 t + p, q) of the result
    refine congrArg (Spec.dense 600000 2 128 (V c main_arg2) (V c main_arg7) (V c main_v8)) (funext fun a => Fin.ext ?_)
    match a with
    | ⟨0, _⟩ => show t.val * 10000 + p.val = win2_3.index t (0 : Fin 2) * 10000 + 1 * p.val; rw [e30]; omega
    | ⟨1, _⟩ => show q.val = win2_3.index t (1 : Fin 2) * 128 + 1 * q.val; rw [e31]; omega

/-- An index of the result is in point `t`'s block iff each coordinate is in the block's range on its axis. -/
theorem mem_blk2 (t : Fin cfg2.N) (i : S600000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v9).slice (win2_3.rect t)).set ↔ _
  rw [View.set_slice_whole, Rect.mem_set_unit]
  exact Iff.rfl

/-- Row `r` of the result lies in the block of point `r / 10000`: the sixty blocks tile the 600000 rows. -/
theorem cover2 (i : S600000x128.Idx) :
    ∃ t : Fin cfg2.N, (cfg2.win 3).flush t = true ∧ i ∈ ((cfg2.win 3).blk t).view.set := by
  have hi0 : (i 0).val < 600000 := (i 0).isLt
  have hi1 : (i 1).val < 128 := (i 1).isLt
  let t : Fin cfg2.N := ⟨(i 0).val / 10000, lt_of_lt_of_eq (show (i 0).val / 10000 < 60 by omega) N_2.symm⟩
  obtain ⟨-, -, -, -, -, -, e30, e31⟩ := idx_facts2 t
  have ht : t.val = (i 0).val / 10000 := rfl
  refine ⟨t, flush2_3 t, ?_⟩
  rw [mem_blk2]
  intro a
  match a with
  | ⟨0, _⟩ => show win2_3.index t (0 : Fin 2) * 10000 ≤ (i 0).val ∧ (i 0).val < win2_3.index t (0 : Fin 2) * 10000 + 10000; rw [e30, ht]; omega
  | ⟨1, _⟩ => show win2_3.index t (1 : Fin 2) * 128 ≤ (i 1).val ∧ (i 1).val < win2_3.index t (1 : Fin 2) * 128 + 128; rw [e31]; omega

/-- REGION 2: after its sixty points the result array holds the dense layer of the operand, weight and bias arrays
    as the region finds them. -/
theorem region2 (c : Dev nD) :
    (Gen.dat2 (F := Ideal) V c).arrAt 3 cfg2.N = Spec.dense 600000 2 128 (V c main_arg2) (V c main_arg7) (V c main_v8) :=
  (Gen.dat2 (F := Ideal) V c).arrAt_eq_of_cover 3 _ (fun t _ => flushed2_eq V c t) cover2

end Cert.KernelIdeal.RegionValue

end
-- ==== Proof.RefDense.lean ====
/-
  The three input projections of the reference program, each read as the mathematics it computes:
  a row-by-row affine map x · w + b followed by the rectifier, over the extended reals.
-/
import proofs.«103209_j60009283060024_2_alg».proof.Proof.Gen.ReferenceIdeal.Read
import proofs.«103209_j60009283060024_2_alg».proof.Proof.Spec
import Idealize.ShloMosaic.Lib.ValueIdx
import Idealize.ShloMosaic.Lib.Pipeline.Value
import Idealize.ShloMosaic.PureOps.Ideal.Laws

noncomputable section

namespace Cert.ReferenceIdeal.StageValue

open Cert.ReferenceIdeal Cert.ReferenceIdeal.Gen Cert.ReferenceIdeal.Read Idealize.ShloMosaic Idealize.ShloMosaic.TcCoe Idealize.ShloMosaic.ValueIdx

/-- The first projection: entry (r, q) is the rectified sum over the three input features of row r against
    column q of the weight, plus entry q of the bias row. -/
theorem stage_v8 (x0 : (⟨S200000x3, .f32⟩ : BufTy).Contents (Elt Ideal)) (x3 : (⟨S3x128, .f32⟩ : BufTy).Contents (Elt Ideal)) (x4 : (⟨S128, .f32⟩ : BufTy).Contents (Elt Ideal)) :
    val_main_v8 (F := Ideal) x0 x3 x4 = Spec.dense 200000 3 128 x0 x3 (val_main_v5 (F := Ideal) x4) := by
  funext i
  obtain ⟨r, q, rfl⟩ : ∃ (r : Fin 200000) (q : Fin 128), i = ix2 r q := ⟨i 0, i 1, eq_ix2 i⟩
  rw [val_main_v8_apply, val_main_v7_apply, val_main_v4_apply, val_main_v6_apply, val_main_call0_v0_apply,
    val_main_call0_cst_apply]
  -- the product's operands sit at (r, k) and (k, q); the bias row is read at (0, q)
  have el : ∀ k : Fin 3, lidx_main_v4 (ix2 r q) k = ix2 r k := fun k =>
    funext fun a => Fin.ext (by match a with | ⟨0, _⟩ => rfl | ⟨1, _⟩ => rfl)
  have er : ∀ k : Fin 3, ridx_main_v4 (ix2 r q) k = ix2 k q := fun k =>
    funext fun a => Fin.ext (by match a with | ⟨0, _⟩ => rfl | ⟨1, _⟩ => rfl)
  have eb : idx_main_v6 (ix2 r q) = ix2 0 q :=
    funext fun a => Fin.ext (by match a with | ⟨0, _⟩ => rfl | ⟨1, _⟩ => rfl)
  simp only [el, er, eb]
  rfl

/-- The second projection: entry (r, q) is the rectified sum over the two input features of row r against
    column q of the weight, plus entry q of the bias row. -/
theorem stage_v13 (x1 : (⟨S50000x2, .f32⟩ : BufTy).Contents (Elt Ideal)) (x5 : (⟨S2x128, .f32⟩ : BufTy).Contents (Elt Ideal)) (x6 : (⟨S128, .f32⟩ : BufTy).Contents (Elt Ideal)) :
    val_main_v13 (F := Ideal) x1 x5 x6 = Spec.dense 50000 2 128 x1 x5 (val_main_v10 (F := Ideal) x6) := by
  funext i
  obtain ⟨r, q, rfl⟩ : ∃ (r : Fin 50000) (q : Fin 128), i = ix2 r q := ⟨i 0, i 1, eq_ix2 i⟩
  rw [val_main_v13_apply, val_main_v12_apply, val_main_v9_apply, val_main_v11_apply, val_main_call1_v0_apply,
    val_main_call1_cst_apply]
  -- the product's operands sit at (r, k) and (k, q); the bias row is read at (0, q)
  have el : ∀ k : Fin 2, lidx_main_v9 (ix2 r q) k = ix2 r k := fun k =>
    funext fun a => Fin.ext (by match a with | ⟨0, _⟩ => rfl | ⟨1, _⟩ => rfl)
  have er : ∀ k : Fin 2, ridx_main_v9 (ix2 r q) k = ix2 k q := fun k =>
    funext fun a => Fin.ext (by match a with | ⟨0, _⟩ => rfl | ⟨1, _⟩ => rfl)
  have eb : idx_main_v11 (ix2 r q) = ix2 0 q :=
    funext fun a => Fin.ext (by match a with | ⟨0, _⟩ => rfl | ⟨1, _⟩ => rfl)
  simp only [el, er, eb]
  rfl

/-- The third projection, on the edge features: entry (r, q) is the rectified sum over the two input features of
    row r against column q of the weight, plus entry q of the bias row. -/
theorem stage_v18 (x2 : (⟨S600000x2, .f32⟩ : BufTy).Contents (Elt Ideal)) (x7 : (⟨S2x128, .f32⟩ : BufTy).Contents (Elt Ideal)) (x8 : (⟨S128, .f32⟩ : BufTy).Contents (Elt Ideal)) :
    val_main_v18 (F := Ideal) x2 x7 x8 = Spec.dense 600000 2 128 x2 x7 (val_main_v15 (F := Ideal) x8) := by
  funext i
  obtain ⟨r, q, rfl⟩ : ∃ (r : Fin 600000) (q : Fin 128), i = ix2 r q := ⟨i 0, i 1, eq_ix2 i⟩
  rw [val_main_v18_apply, val_main_v17_apply, val_main_v14_apply, val_main_v16_apply, val_main_call2_v0_apply,
    val_main_call2_cst_apply]
  -- the product's operands sit at (r, k) and (k, q); the bias row is read at (0, q)
  have el : ∀ k : Fin 2, lidx_main_v14 (ix2 r q) k = ix2 r k := fun k =>
    funext fun a => Fin.ext (by match a with | ⟨0, _⟩ => rfl | ⟨1, _⟩ => rfl)
  have er : ∀ k : Fin 2, ridx_main_v14 (ix2 r q) k = ix2 k q := fun k =>
    funext fun a => Fin.ext (by match a with | ⟨0, _⟩ => rfl | ⟨1, _⟩ => rfl)
  have eb : idx_main_v16 (ix2 r q) = ix2 0 q :=
    funext fun a => Fin.ext (by match a with | ⟨0, _⟩ => rfl | ⟨1, _⟩ => rfl)
  simp only [el, er, eb]
  rfl

end Cert.ReferenceIdeal.StageValue

end
-- ==== Proof.ChainA.lean ====
/-
  The kernel's buffers, followed from the launch to the end of the third input projection.
  Each lemma names what ONE buffer holds at ONE boundary between a stretch of host operations and a tiled region, as
  the value the reference program computes at its corresponding operation (a composed function of the argument
  arrays): the two edge-endpoint index vectors, the three biases laid out as one-row arrays (a reshape on this side, a
  broadcast on the reference's: the same array), and the three projections relu (x · w + b), each a region's output
  (the tiles' write-backs put together) met with the reference's matrix product, broadcast bias and rectifier.
  An argument array is written by nothing, so at every boundary it holds what it held at launch.
-/
import proofs.«103209_j60009283060024_2_alg».proof.Proof.Gen.KernelIdeal.Frame
import proofs.«103209_j60009283060024_2_alg».proof.Proof.Gen.ReferenceIdeal.Read
import proofs.«103209_j60009283060024_2_alg».proof.Proof.Spec
import proofs.«103209_j60009283060024_2_alg».proof.Proof.LayoutEq
import proofs.«103209_j60009283060024_2_alg».proof.Proof.RegionDense0
import proofs.«103209_j60009283060024_2_alg».proof.Proof.RegionDense1
import proofs.«103209_j60009283060024_2_alg».proof.Proof.RegionDense2
import proofs.«103209_j60009283060024_2_alg».proof.Proof.RefDense

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## After the first stretch: the endpoint vectors and the first bias -/

theorem W1_v1 : W1 m ρ c (Proc.devRef .tc main_v1) = Cert.ReferenceIdeal.Read.val_main_v1 (F := Ideal) (m ((c : Thread nD τ).loc main_arg19)) := by
  show StableHlo.after hostOps0 (W0 m ρ c) (Proc.devRef .tc main_v1) = _
  after_results_simp
  rfl
theorem W1_v3 : W1 m ρ c (Proc.devRef .tc main_v3) = Cert.ReferenceIdeal.Read.val_main_v3 (F := Ideal) (m ((c : Thread nD τ).loc main_arg19)) := by
  show StableHlo.after hostOps0 (W0 m ρ c) (Proc.devRef .tc main_v3) = _
  after_results_simp
  rfl
theorem W1_v4 : W1 m ρ c (Proc.devRef .tc main_v4) = Cert.ReferenceIdeal.Read.val_main_v5 (F := Ideal) (m ((c : Thread nD τ).loc main_arg4)) := by
  show StableHlo.after hostOps0 (W0 m ρ c) (Proc.devRef .tc main_v4) = _
  after_results_simp
  exact Cert.LayoutEq.row_reshape_eq_bcast 128 _ _ _
theorem W1_arg0 : W1 m ρ c (Proc.devRef .tc main_arg0) = m ((c : Thread nD τ).loc main_arg0) := by
  show StableHlo.after hostOps0 (W0 m ρ c) (Proc.devRef .tc main_arg0) = _
  after_results_simp
theorem W1_arg3 : W1 m ρ c (Proc.devRef .tc main_arg3) = m ((c : Thread nD τ).loc main_arg3) := by
  show StableHlo.after hostOps0 (W0 m ρ c) (Proc.devRef .tc main_arg3) = _
  after_results_simp

/-! ## The user projection -/

theorem W2_v5 : W2 m ρ c (Proc.devRef .tc main_v5) = Cert.ReferenceIdeal.Read.val_main_v8 (F := Ideal) (m ((c : Thread nD τ).loc main_arg0)) (m ((c : Thread nD τ).loc main_arg3)) (m ((c : Thread nD τ).loc main_arg4)) := by
  refine (W2_arr m ρ c 3).trans ?_
  rw [Cert.KernelIdeal.RegionValue.region0 (V1 m ρ) c]
  rw [show V1 m ρ c main_arg0 = _ from W1_arg0 m ρ c,
    show V1 m ρ c main_arg3 = _ from W1_arg3 m ρ c,
    show V1 m ρ c main_v4 = _ from W1_v4 m ρ c]
  exact (Cert.ReferenceIdeal.StageValue.stage_v8 _ _ _).symm

/-! ## The merchant projection -/

theorem W2_arg6 : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results_simp
theorem W3_v6 : W3 m ρ c (Proc.devRef .tc main_v6) = Cert.ReferenceIdeal.Read.val_main_v10 (F := Ideal) (m ((c : Thread nD τ).loc main_arg6)) := by
  show StableHlo.after hostOps1 (W2 m ρ c) (Proc.devRef .tc main_v6) = _
  after_results_simp
  rw [W2_arg6 m ρ c]
  exact Cert.LayoutEq.row_reshape_eq_bcast 128 _ _ _
theorem W3_arg1 : W3 m ρ c (Proc.devRef .tc main_arg1) = m ((c : Thread nD τ).loc main_arg1) := by
  show StableHlo.after hostOps1 (W2 m ρ c) (Proc.devRef .tc main_arg1) = _
  after_results_simp
  rw [W2_of_ne m ρ c main_arg1 (by decide)]
  show StableHlo.after hostOps0 (W0 m ρ c) (Proc.devRef .tc main_arg1) = _
  after_results_simp
theorem W3_arg5 : W3 m ρ c (Proc.devRef .tc main_arg5) = m ((c : Thread nD τ).loc main_arg5) := by
  show StableHlo.after hostOps1 (W2 m ρ c) (Proc.devRef .tc main_arg5) = _
  after_results_simp
  rw [W2_of_ne m ρ c main_arg5 (by decide)]
  show StableHlo.after hostOps0 (W0 m ρ c) (Proc.devRef .tc main_arg5) = _
  after_results_simp
theorem W4_v7 : W4 m ρ c (Proc.devRef .tc main_v7) = Cert.ReferenceIdeal.Read.val_main_v13 (F := Ideal) (m ((c : Thread nD τ).loc main_arg1)) (m ((c : Thread nD τ).loc main_arg5)) (m ((c : Thread nD τ).loc main_arg6)) := by
  refine (W4_arr m ρ c 3).trans ?_
  rw [Cert.KernelIdeal.RegionValue.region1 (V3 m ρ) c]
  rw [show V3 m ρ c main_arg1 = _ from W3_arg1 m ρ c,
    show V3 m ρ c main_arg5 = _ from W3_arg5 m ρ c,
    show V3 m ρ c main_v6 = _ from W3_v6 m ρ c]
  exact (Cert.ReferenceIdeal.StageValue.stage_v13 _ _ _).symm

/-! ## The edge projection -/

theorem W4_arg8 : W4 m ρ c (Proc.devRef .tc main_arg8) = m ((c : Thread nD τ).loc main_arg8) := by
  rw [W4_of_ne m ρ c main_arg8 (by decide)]
  show StableHlo.after hostOps1 (W2 m ρ c) (Proc.devRef .tc main_arg8) = _
  after_results_simp
  rw [W2_of_ne m ρ c main_arg8 (by decide)]
  show StableHlo.after hostOps0 (W0 m ρ c) (Proc.devRef .tc main_arg8) = _
  after_results_simp
theorem W5_v8 : W5 m ρ c (Proc.devRef .tc main_v8) = Cert.ReferenceIdeal.Read.val_main_v15 (F := Ideal) (m ((c : Thread nD τ).loc main_arg8)) := by
  show StableHlo.after hostOps2 (W4 m ρ c) (Proc.devRef .tc main_v8) = _
  after_results_simp
  rw [W4_arg8 m ρ c]
  exact Cert.LayoutEq.row_reshape_eq_bcast 128 _ _ _
theorem W5_arg2 : W5 m ρ c (Proc.devRef .tc main_arg2) = m ((c : Thread nD τ).loc main_arg2) := by
  show StableHlo.after hostOps2 (W4 m ρ c) (Proc.devRef .tc main_arg2) = _
  after_results_simp
  rw [W4_of_ne m ρ c main_arg2 (by decide)]
  show StableHlo.after hostOps1 (W2 m ρ c) (Proc.devRef .tc main_arg2) = _
  after_results_simp
  rw [W2_of_ne m ρ c main_arg2 (by decide)]
  show StableHlo.after hostOps0 (W0 m ρ c) (Proc.devRef .tc main_arg2) = _
  after_results_simp
theorem W5_arg7 : W5 m ρ c (Proc.devRef .tc main_arg7) = m ((c : Thread nD τ).loc main_arg7) := by
  show StableHlo.after hostOps2 (W4 m ρ c) (Proc.devRef .tc main_arg7) = _
  after_results_simp
  rw [W4_of_ne m ρ c main_arg7 (by decide)]
  show StableHlo.after hostOps1 (W2 m ρ c) (Proc.devRef .tc main_arg7) = _
  after_results_simp
  rw [W2_of_ne m ρ c main_arg7 (by decide)]
  show StableHlo.after hostOps0 (W0 m ρ c) (Proc.devRef .tc main_arg7) = _
  after_results_simp
theorem W6_v9 : W6 m ρ c (Proc.devRef .tc main_v9) = Cert.ReferenceIdeal.Read.val_main_v18 (F := Ideal) (m ((c : Thread nD τ).loc main_arg2)) (m ((c : Thread nD τ).loc main_arg7)) (m ((c : Thread nD τ).loc main_arg8)) := by
  refine (W6_arr m ρ c 3).trans ?_
  rw [Cert.KernelIdeal.RegionValue.region2 (V5 m ρ) c]
  rw [show V5 m ρ c main_arg2 = _ from W5_arg2 m ρ c,
    show V5 m ρ c main_arg7 = _ from W5_arg7 m ρ c,
    show V5 m ρ c main_v8 = _ from W5_v8 m ρ c]
  exact (Cert.ReferenceIdeal.StageValue.stage_v18 _ _ _).symm

/-! ## What the later stretches read, carried to the boundary before the first aggregation -/

theorem W6_v1 : W6 m ρ c (Proc.devRef .tc main_v1) = Cert.ReferenceIdeal.Read.val_main_v1 (F := Ideal) (m ((c : Thread nD τ).loc main_arg19)) := by
  rw [W6_of_ne m ρ c main_v1 (by decide)]
  show StableHlo.after hostOps2 (W4 m ρ c) (Proc.devRef .tc main_v1) = _
  after_results_simp
  rw [W4_of_ne m ρ c main_v1 (by decide)]
  show StableHlo.after hostOps1 (W2 m ρ c) (Proc.devRef .tc main_v1) = _
  after_results_simp
  rw [W2_of_ne m ρ c main_v1 (by decide)]
  exact W1_v1 m ρ c
theorem W6_v3 : W6 m ρ c (Proc.devRef .tc main_v3) = Cert.ReferenceIdeal.Read.val_main_v3 (F := Ideal) (m ((c : Thread nD τ).loc main_arg19)) := by
  rw [W6_of_ne m ρ c main_v3 (by decide)]
  show StableHlo.after hostOps2 (W4 m ρ c) (Proc.devRef .tc main_v3) = _
  after_results_simp
  rw [W4_of_ne m ρ c main_v3 (by decide)]
  show StableHlo.after hostOps1 (W2 m ρ c) (Proc.devRef .tc main_v3) = _
  after_results_simp
  rw [W2_of_ne m ρ c main_v3 (by decide)]
  exact W1_v3 m ρ c
theorem W6_v5 : W6 m ρ c (Proc.devRef .tc main_v5) = Cert.ReferenceIdeal.Read.val_main_v8 (F := Ideal) (m ((c : Thread nD τ).loc main_arg0)) (m ((c : Thread nD τ).loc main_arg3)) (m ((c : Thread nD τ).loc main_arg4)) := by
  rw [W6_of_ne m ρ c main_v5 (by decide)]
  show StableHlo.after hostOps2 (W4 m ρ c) (Proc.devRef .tc main_v5) = _
  after_results_simp
  rw [W4_of_ne m ρ c main_v5 (by decide)]
  show StableHlo.after hostOps1 (W2 m ρ c) (Proc.devRef .tc main_v5) = _
  after_results_simp
  exact W2_v5 m ρ c
theorem W6_v7 : W6 m ρ c (Proc.devRef .tc main_v7) = Cert.ReferenceIdeal.Read.val_main_v13 (F := Ideal) (m ((c : Thread nD τ).loc main_arg1)) (m ((c : Thread nD τ).loc main_arg5)) (m ((c : Thread nD τ).loc main_arg6)) := by
  rw [W6_of_ne m ρ c main_v7 (by decide)]
  show StableHlo.after hostOps2 (W4 m ρ c) (Proc.devRef .tc main_v7) = _
  after_results_simp
  exact W4_v7 m ρ c
theorem W6_arg9 : W6 m ρ c (Proc.devRef .tc main_arg9) = m ((c : Thread nD τ).loc main_arg9) := by
  rw [W6_of_ne m ρ c main_arg9 (by decide)]
  show StableHlo.after hostOps2 (W4 m ρ c) (Proc.devRef .tc main_arg9) = _
  after_results_simp
  rw [W4_of_ne m ρ c main_arg9 (by decide)]
  show StableHlo.after hostOps1 (W2 m ρ c) (Proc.devRef .tc main_arg9) = _
  after_results_simp
  rw [W2_of_ne m ρ c main_arg9 (by decide)]
  show StableHlo.after hostOps0 (W0 m ρ c) (Proc.devRef .tc main_arg9) = _
  after_results_simp
theorem W6_arg10 : W6 m ρ c (Proc.devRef .tc main_arg10) = m ((c : Thread nD τ).loc main_arg10) := by
  rw [W6_of_ne m ρ c main_arg10 (by decide)]
  show StableHlo.after hostOps2 (W4 m ρ c) (Proc.devRef .tc main_arg10) = _
  after_results_simp
  rw [W4_of_ne m ρ c main_arg10 (by decide)]
  show StableHlo.after hostOps1 (W2 m ρ c) (Proc.devRef .tc main_arg10) = _
  after_results_simp
  rw [W2_of_ne m ρ c main_arg10 (by decide)]
  show StableHlo.after hostOps0 (W0 m ρ c) (Proc.devRef .tc main_arg10) = _
  after_results_simp
theorem W6_arg11 : W6 m ρ c (Proc.devRef .tc main_arg11) = m ((c : Thread nD τ).loc main_arg11) := by
  rw [W6_of_ne m ρ c main_arg11 (by decide)]
  show StableHlo.after hostOps2 (W4 m ρ c) (Proc.devRef .tc main_arg11) = _
  after_results_simp
  rw [W4_of_ne m ρ c main_arg11 (by decide)]
  show StableHlo.after hostOps1 (W2 m ρ c) (Proc.devRef .tc main_arg11) = _
  after_results_simp
  rw [W2_of_ne m ρ c main_arg11 (by decide)]
  show StableHlo.after hostOps0 (W0 m ρ c) (Proc.devRef .tc main_arg11) = _
  after_results_simp

end Cert.KernelIdeal.Chain

end
-- ==== Proof.RegionDual3.lean ====
/-
  Region 3: one mean-aggregation update, relu ((a · wl + x · wr) + b), computed tile by tile over row tiles of 10000 rows.
  First the arithmetic a grid point performs on its blocks, read at one entry; then each block entry as an entry of the
  whole arrays; then the tiles cover the output array, so that it ends holding the whole-array formula.
-/
import proofs.«103209_j60009283060024_2_alg».proof.Proof.Gen.KernelIdeal.Frame
import proofs.«103209_j60009283060024_2_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.RegionValue

open Cert.KernelIdeal Cert.KernelIdeal.Gen Idealize.ShloMosaic Idealize.ShloMosaic.TcCoe Idealize.ShloMosaic.ValueIdx Idealize.SL.Sem

/-! ## The tile product at an entry -/

/-- The left operand's row coordinate at output entry `i` is `i`'s row. -/
theorem dual3_lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column coordinate is the summation index. -/
theorem dual3_lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row coordinate is the summation index. -/
theorem dual3_rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column coordinate at output entry `i` is `i`'s column. -/
theorem dual3_rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A 10000 × 128 block times a 128 × 128 matrix, accumulated from zero, read at entry (p, q):
    the sum over the shared axis of row p of the block against column q of the matrix. -/
theorem dual3_tile_product (x : FVec Ideal S10000x128 .bf16) (w : FVec Ideal S128x128 .bf16) (p : Fin 10000) (q : Fin 128) :
    matmul dot_S10000x128_S128x128_S10000x128_1_0_0_1_n_n none x w (constant (F := Ideal) S10000x128 .f32 0x00000000#32) (ix2 p q)
      = ∑ k : Fin 128, x (ix2 p k) * w (ix2 k q) := by
  show FloatOps.matmul dot_S10000x128_S128x128_S10000x128_1_0_0_1_n_n none x w (constant (F := Ideal) S10000x128 .f32 0x00000000#32) (ix2 p q) = _
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact dual3_lhs_row _ _
    | ⟨1, _⟩ => exact (dual3_lhs_col _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (dual3_rhs_row _ _).trans hk
    | ⟨1, _⟩ => exact dual3_rhs_col _ _)
  rw [el, er]

/-! ## What a grid point stores, at an entry -/

/-- Entry (p, q) of the block a grid point stores, from its five input blocks: the rectifier of row p of the
    neighbour-mean block against column q of the left weight, plus row p of the own-feature block against column q of
    the right weight, plus the bias at q. -/
theorem dual3_stored_apply (x0 : Vec Ideal S10000x128 .f32) (x1 : Vec Ideal S10000x128 .bf16) (x2 : Vec Ideal S128x128 .f32)
    (x3 : Vec Ideal S128x128 .f32) (x4 : Vec Ideal S1x128 .f32) (p : Fin 10000) (q : Fin 128) :
    k3_pay1 (F := Ideal) x0 x1 x2 x3 x4 (ix2 p q)
      = max (((∑ k : Fin 128, x0 (ix2 p k) * x2 (ix2 k q)) + (∑ k : Fin 128, x1 (ix2 p k) * x3 (ix2 k q))) + x4 (ix2 (0 : Fin 1) q)) Spec.zero := by
  unfold k3_pay1
  simp only [shapeCast_self]
  rw [truncf_apply, maximumf_apply, addf_apply, addf_apply, dual3_tile_product, dual3_tile_product, broadcastTo_1b_ab_apply, broadcast_apply]
  rfl

/-- The same entry against whole arrays: when row p of the two row-tiled blocks is row r of the whole arrays, and the
    weight and bias blocks are the whole weights and bias, the stored entry is the whole-array formula at (r, q). -/
theorem dual3_stored_eq_spec (A X : Spec.Arr2 50000 128) (WL WR : Spec.Arr2 128 128) (B : Spec.Arr2 1 128)
    (x0 : Vec Ideal S10000x128 .f32) (x1 : Vec Ideal S10000x128 .bf16) (x2 : Vec Ideal S128x128 .f32)
    (x3 : Vec Ideal S128x128 .f32) (x4 : Vec Ideal S1x128 .f32) (r : Fin 50000) (p : Fin 10000) (q : Fin 128)
    (h0 : ∀ k : Fin 128, x0 (ix2 p k) = A (ix2 r k)) (h1 : ∀ k : Fin 128, x1 (ix2 p k) = X (ix2 r k))
    (h2 : ∀ k : Fin 128, x2 (ix2 k q) = WL (ix2 k q)) (h3 : ∀ k : Fin 128, x3 (ix2 k q) = WR (ix2 k q))
    (h4 : x4 (ix2 (0 : Fin 1) q) = B (ix2 (0 : Fin 1) q)) :
    k3_pay1 (F := Ideal) x0 x1 x2 x3 x4 (ix2 p q) = Spec.dual 50000 A X WL WR B (ix2 r q) := by
  rw [dual3_stored_apply]
  show _ = max ((Spec.rowcol A WL r q + Spec.rowcol X WR r q) + B (ix2 (0 : Fin 1) q)) Spec.zero
  unfold Spec.rowcol
  simp only [h0, h1, h2, h3, h4]

/-! ## From the blocks to the array -/

theorem dual3_origin : (![0, 0] : Fin 2 → Nat) = fun _ => 0 := funext fun a => by fin_cases a <;> rfl

/-- The windows' block indices at grid point t: the row-tiled operands and the output sit at row block t, column block 0;
    the weights and the bias at block (0, 0). -/
theorem dual3_block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What grid point t writes back is tile t of the whole-array formula of the arrays as the region finds them:
    entry (p, q) of the tile is entry (10000 t + p, q) of the array, whose row depends on the same row of the two
    row-tiled operands and on the whole weights and bias. -/
theorem dual3_flushed (V : (c : Dev nD) → (b : Ref sig .tc) → Buf (Elt Ideal) ((c : Thread nD τ).loc b)) (c : Dev nD) (t : Fin cfg3.N) :
    (dat3 (F := Ideal) V c).flushed 5 t = ((cfg3.win 5).blk t).view.read (Elt Ideal) (Spec.dual 50000 (V c main_v33) (V c main_v7) (V c main_v48) (V c main_v50) (V c main_v53)) := by
  show (cfg3.win 5).cut (grid3.coords t) ((dat3 V c).after 5 t) = _
  rw [after3_5]
  unfold out3_5
  rw [View.canon_unit_zero dual3_origin]
  simp only [View.ld_unit_zero (S := S10000x128) dual3_origin, View.ld_unit_zero (S := S128x128) dual3_origin, View.ld_unit_zero (S := S1x128) dual3_origin]
  obtain ⟨e00, e01, e10, e11, e20, e21, e30, e31, e40, e41, e50, e51⟩ := dual3_block_index t
  have ht : t.val < 5 := lt_of_lt_of_eq t.isLt N_3
  funext y
  obtain ⟨p, q, rfl⟩ : ∃ (p : Fin 10000) (q : Fin 128), y = ix2 p q := ⟨y 0, y 1, eq_ix2 y⟩
  rw [View.read_apply]
  have hr : t.val * 10000 + p.val < 50000 := by have := p.isLt; omega
  have he : ((cfg3.win 5).blk t).view.emb (ix2 p q) = ix2 (⟨t.val * 10000 + p.val, hr⟩ : Fin 50000) q := by
    funext a; apply Fin.ext
    match a with
    | ⟨0, _⟩ => show win3_5.index t (0 : Fin 2) * 10000 + 1 * p.val = t.val * 10000 + p.val; rw [e50]; omega
    | ⟨1, _⟩ => show win3_5.index t (1 : Fin 2) * 128 + 1 * q.val = q.val; rw [e51]; omega
  rw [he]
  refine dual3_stored_eq_spec _ _ _ _ _ _ _ _ _ _ (⟨t.val * 10000 + p.val, hr⟩ : Fin 50000) p q ?_ ?_ ?_ ?_ ?_
  · intro k
    show V c main_v33 (((cfg3.win 0).blk t).view.emb (ix2 p k)) = V c main_v33 (ix2 (⟨t.val * 10000 + p.val, hr⟩ : Fin 50000) k)
    refine congrArg _ (funext fun a => Fin.ext ?_)
    match a with
    | ⟨0, _⟩ => show win3_0.index t (0 : Fin 2) * 10000 + 1 * p.val = t.val * 10000 + p.val; rw [e00]; omega
    | ⟨1, _⟩ => show win3_0.index t (1 : Fin 2) * 128 + 1 * k.val = k.val; rw [e01]; omega
  · intro k
    show V c main_v7 (((cfg3.win 1).blk t).view.emb (ix2 p k)) = V c main_v7 (ix2 (⟨t.val * 10000 + p.val, hr⟩ : Fin 50000) k)
    refine congrArg _ (funext fun a => Fin.ext ?_)
    match a with
    | ⟨0, _⟩ => show win3_1.index t (0 : Fin 2) * 10000 + 1 * p.val = t.val * 10000 + p.val; rw [e10]; omega
    | ⟨1, _⟩ => show win3_1.index t (1 : Fin 2) * 128 + 1 * k.val = k.val; rw [e11]; omega
  · intro k
    show V c main_v48 (((cfg3.win 2).blk t).view.emb (ix2 k q)) = V c main_v48 (ix2 k q)
    refine congrArg _ (funext fun a => Fin.ext ?_)
    match a with
    | ⟨0, _⟩ => show win3_2.index t (0 : Fin 2) * 128 + 1 * k.val = k.val; rw [e20]; omega
    | ⟨1, _⟩ => show win3_2.index t (1 : Fin 2) * 128 + 1 * q.val = q.val; rw [e21]; omega
  · intro k
    show V c main_v50 (((cfg3.win 3).blk t).view.emb (ix2 k q)) = V c main_v50 (ix2 k q)
    refine congrArg _ (funext fun a => Fin.ext ?_)
    match a with
    | ⟨0, _⟩ => show win3_3.index t (0 : Fin 2) * 128 + 1 * k.val = k.val; rw [e30]; omega
    | ⟨1, _⟩ => show win3_3.index t (1 : Fin 2) * 128 + 1 * q.val = q.val; rw [e31]; omega
  · show V c main_v53 (((cfg3.win 4).blk t).view.emb (ix2 (0 : Fin 1) q)) = V c main_v53 (ix2 (0 : Fin 1) q)
    refine congrArg _ (funext fun a => Fin.ext ?_)
    match a with
    | ⟨0, _⟩ => show win3_4.index t (0 : Fin 2) * 1 + 1 * (0 : Fin 1).val = (0 : Fin 1).val; rw [e40]; rfl
    | ⟨1, _⟩ => show win3_4.index t (1 : Fin 2) * 128 + 1 * q.val = q.val; rw [e41]; omega

/-- An entry of the output array lies in grid point t's tile iff each coordinate lies in the tile's range on its axis. -/
theorem dual3_mem_tile (t : Fin cfg3.N) (i : S50000x128.Idx) :
    i ∈ ((cfg3.win 5).blk t).view.set ↔ ∀ a : Fin 2, win3_5.index t a * S10000x128.size a ≤ (i a).val ∧ (i a).val < win3_5.index t a * S10000x128.size a + S10000x128.size a := by
  show i ∈ ((View.whole main_v54).slice (win3_5.rect t)).set ↔ _
  rw [View.set_slice_whole, Rect.mem_set_unit]
  exact Iff.rfl

/-- The tiles cover the output array: row r lies in the tile of grid point r / 10000. -/
theorem dual3_cover (i : S50000x128.Idx) :
    ∃ t : Fin cfg3.N, (cfg3.win 5).flush t = true ∧ i ∈ ((cfg3.win 5).blk t).view.set := by
  have h0 : (i 0).val < 50000 := (i 0).isLt
  have h1 : (i 1).val < 128 := (i 1).isLt
  have hN : cfg3.N = 5 := N_3
  have hq : (i 0).val / 10000 < cfg3.N := by rw [hN]; omega
  obtain ⟨-, -, -, -, -, -, -, -, -, -, e50, e51⟩ := dual3_block_index ⟨(i 0).val / 10000, hq⟩
  refine ⟨⟨(i 0).val / 10000, hq⟩, flush3_5 _, ?_⟩
  rw [dual3_mem_tile]
  intro a
  match a with
  | ⟨0, _⟩ =>
    show win3_5.index ⟨(i 0).val / 10000, hq⟩ (0 : Fin 2) * 10000 ≤ (i 0).val ∧ (i 0).val < win3_5.index ⟨(i 0).val / 10000, hq⟩ (0 : Fin 2) * 10000 + 10000
    rw [e50]
    show (i 0).val / 10000 * 10000 ≤ (i 0).val ∧ (i 0).val < (i 0).val / 10000 * 10000 + 10000
    omega
  | ⟨1, _⟩ =>
    show win3_5.index ⟨(i 0).val / 10000, hq⟩ (1 : Fin 2) * 128 ≤ (i 1).val ∧ (i 1).val < win3_5.index ⟨(i 0).val / 10000, hq⟩ (1 : Fin 2) * 128 + 128
    rw [e51]
    omega

/-- After the region the output array holds relu ((a · wl + x · wr) + b) of the arrays as the region finds them. -/
theorem region3 (V : (c : Dev nD) → (b : Ref sig .tc) → Buf (Elt Ideal) ((c : Thread nD τ).loc b)) (c : Dev nD) :
    (Gen.dat3 (F := Ideal) V c).arrAt 5 cfg3.N = Spec.dual 50000 (V c main_v33) (V c main_v7) (V c main_v48) (V c main_v50) (V c main_v53) :=
  (dat3 (F := Ideal) V c).arrAt_eq_of_cover 5 (Spec.dual 50000 (V c main_v33) (V c main_v7) (V c main_v48) (V c main_v50) (V c main_v53))
    (fun t _ => dual3_flushed V c t) (fun i => dual3_cover i)

end Cert.KernelIdeal.RegionValue

end
-- ==== Proof.RegionDual4.lean ====
/-
  Region 4: one mean-aggregation update, relu ((a · wl + x · wr) + b), computed tile by tile over row tiles of 10000 rows.
  First the arithmetic a grid point performs on its blocks, read at one entry; then each block entry as an entry of the
  whole arrays; then the tiles cover the output array, so that it ends holding the whole-array formula.
-/
import proofs.«103209_j60009283060024_2_alg».proof.Proof.Gen.KernelIdeal.Frame
import proofs.«103209_j60009283060024_2_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.RegionValue

open Cert.KernelIdeal Cert.KernelIdeal.Gen Idealize.ShloMosaic Idealize.ShloMosaic.TcCoe Idealize.ShloMosaic.ValueIdx Idealize.SL.Sem

/-! ## The tile product at an entry -/

/-- The left operand's row coordinate at output entry `i` is `i`'s row. -/
theorem dual4_lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column coordinate is the summation index. -/
theorem dual4_lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row coordinate is the summation index. -/
theorem dual4_rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column coordinate at output entry `i` is `i`'s column. -/
theorem dual4_rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A 10000 × 128 block times a 128 × 128 matrix, accumulated from zero, read at entry (p, q):
    the sum over the shared axis of row p of the block against column q of the matrix. -/
theorem dual4_tile_product (x : FVec Ideal S10000x128 .bf16) (w : FVec Ideal S128x128 .bf16) (p : Fin 10000) (q : Fin 128) :
    matmul dot_S10000x128_S128x128_S10000x128_1_0_0_1_n_n none x w (constant (F := Ideal) S10000x128 .f32 0x00000000#32) (ix2 p q)
      = ∑ k : Fin 128, x (ix2 p k) * w (ix2 k q) := by
  show FloatOps.matmul dot_S10000x128_S128x128_S10000x128_1_0_0_1_n_n none x w (constant (F := Ideal) S10000x128 .f32 0x00000000#32) (ix2 p q) = _
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact dual4_lhs_row _ _
    | ⟨1, _⟩ => exact (dual4_lhs_col _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (dual4_rhs_row _ _).trans hk
    | ⟨1, _⟩ => exact dual4_rhs_col _ _)
  rw [el, er]

/-! ## What a grid point stores, at an entry -/

/-- Entry (p, q) of the block a grid point stores, from its five input blocks: the rectifier of row p of the
    neighbour-mean block against column q of the left weight, plus row p of the own-feature block against column q of
    the right weight, plus the bias at q. -/
theorem dual4_stored_apply (x0 : Vec Ideal S10000x128 .f32) (x1 : Vec Ideal S10000x128 .bf16) (x2 : Vec Ideal S128x128 .f32)
    (x3 : Vec Ideal S128x128 .f32) (x4 : Vec Ideal S1x128 .f32) (p : Fin 10000) (q : Fin 128) :
    k4_pay1 (F := Ideal) x0 x1 x2 x3 x4 (ix2 p q)
      = max (((∑ k : Fin 128, x0 (ix2 p k) * x2 (ix2 k q)) + (∑ k : Fin 128, x1 (ix2 p k) * x3 (ix2 k q))) + x4 (ix2 (0 : Fin 1) q)) Spec.zero := by
  unfold k4_pay1
  simp only [shapeCast_self]
  rw [truncf_apply, maximumf_apply, addf_apply, addf_apply, dual4_tile_product, dual4_tile_product, broadcastTo_1b_ab_apply, broadcast_apply]
  rfl

/-- The same entry against whole arrays: when row p of the two row-tiled blocks is row r of the whole arrays, and the
    weight and bias blocks are the whole weights and bias, the stored entry is the whole-array formula at (r, q). -/
theorem dual4_stored_eq_spec (A X : Spec.Arr2 200000 128) (WL WR : Spec.Arr2 128 128) (B : Spec.Arr2 1 128)
    (x0 : Vec Ideal S10000x128 .f32) (x1 : Vec Ideal S10000x128 .bf16) (x2 : Vec Ideal S128x128 .f32)
    (x3 : Vec Ideal S128x128 .f32) (x4 : Vec Ideal S1x128 .f32) (r : Fin 200000) (p : Fin 10000) (q : Fin 128)
    (h0 : ∀ k : Fin 128, x0 (ix2 p k) = A (ix2 r k)) (h1 : ∀ k : Fin 128, x1 (ix2 p k) = X (ix2 r k))
    (h2 : ∀ k : Fin 128, x2 (ix2 k q) = WL (ix2 k q)) (h3 : ∀ k : Fin 128, x3 (ix2 k q) = WR (ix2 k q))
    (h4 : x4 (ix2 (0 : Fin 1) q) = B (ix2 (0 : Fin 1) q)) :
    k4_pay1 (F := Ideal) x0 x1 x2 x3 x4 (ix2 p q) = Spec.dual 200000 A X WL WR B (ix2 r q) := by
  rw [dual4_stored_apply]
  show _ = max ((Spec.rowcol A WL r q + Spec.rowcol X WR r q) + B (ix2 (0 : Fin 1) q)) Spec.zero
  unfold Spec.rowcol
  simp only [h0, h1, h2, h3, h4]

/-! ## From the blocks to the array -/

theorem dual4_origin : (![0, 0] : Fin 2 → Nat) = fun _ => 0 := funext fun a => by fin_cases a <;> rfl

/-- The windows' block indices at grid point t: the row-tiled operands and the output sit at row block t, column block 0;
    the weights and the bias at block (0, 0). -/
theorem dual4_block_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What grid point t writes back is tile t of the whole-array formula of the arrays as the region finds them:
    entry (p, q) of the tile is entry (10000 t + p, q) of the array, whose row depends on the same row of the two
    row-tiled operands and on the whole weights and bias. -/
theorem dual4_flushed (V : (c : Dev nD) → (b : Ref sig .tc) → Buf (Elt Ideal) ((c : Thread nD τ).loc b)) (c : Dev nD) (t : Fin cfg4.N) :
    (dat4 (F := Ideal) V c).flushed 5 t = ((cfg4.win 5).blk t).view.read (Elt Ideal) (Spec.dual 200000 (V c main_v46) (V c main_v5) (V c main_v56) (V c main_v58) (V c main_v61)) := by
  show (cfg4.win 5).cut (grid4.coords t) ((dat4 V c).after 5 t) = _
  rw [after4_5]
  unfold out4_5
  rw [View.canon_unit_zero dual4_origin]
  simp only [View.ld_unit_zero (S := S10000x128) dual4_origin, View.ld_unit_zero (S := S128x128) dual4_origin, View.ld_unit_zero (S := S1x128) dual4_origin]
  obtain ⟨e00, e01, e10, e11, e20, e21, e30, e31, e40, e41, e50, e51⟩ := dual4_block_index t
  have ht : t.val < 20 := lt_of_lt_of_eq t.isLt N_4
  funext y
  obtain ⟨p, q, rfl⟩ : ∃ (p : Fin 10000) (q : Fin 128), y = ix2 p q := ⟨y 0, y 1, eq_ix2 y⟩
  rw [View.read_apply]
  have hr : t.val * 10000 + p.val < 200000 := by have := p.isLt; omega
  have he : ((cfg4.win 5).blk t).view.emb (ix2 p q) = ix2 (⟨t.val * 10000 + p.val, hr⟩ : Fin 200000) q := by
    funext a; apply Fin.ext
    match a with
    | ⟨0, _⟩ => show win4_5.index t (0 : Fin 2) * 10000 + 1 * p.val = t.val * 10000 + p.val; rw [e50]; omega
    | ⟨1, _⟩ => show win4_5.index t (1 : Fin 2) * 128 + 1 * q.val = q.val; rw [e51]; omega
  rw [he]
  refine dual4_stored_eq_spec _ _ _ _ _ _ _ _ _ _ (⟨t.val * 10000 + p.val, hr⟩ : Fin 200000) p q ?_ ?_ ?_ ?_ ?_
  · intro k
    show V c main_v46 (((cfg4.win 0).blk t).view.emb (ix2 p k)) = V c main_v46 (ix2 (⟨t.val * 10000 + p.val, hr⟩ : Fin 200000) k)
    refine congrArg _ (funext fun a => Fin.ext ?_)
    match a with
    | ⟨0, _⟩ => show win4_0.index t (0 : Fin 2) * 10000 + 1 * p.val = t.val * 10000 + p.val; rw [e00]; omega
    | ⟨1, _⟩ => show win4_0.index t (1 : Fin 2) * 128 + 1 * k.val = k.val; rw [e01]; omega
  · intro k
    show V c main_v5 (((cfg4.win 1).blk t).view.emb (ix2 p k)) = V c main_v5 (ix2 (⟨t.val * 10000 + p.val, hr⟩ : Fin 200000) k)
    refine congrArg _ (funext fun a => Fin.ext ?_)
    match a with
    | ⟨0, _⟩ => show win4_1.index t (0 : Fin 2) * 10000 + 1 * p.val = t.val * 10000 + p.val; rw [e10]; omega
    | ⟨1, _⟩ => show win4_1.index t (1 : Fin 2) * 128 + 1 * k.val = k.val; rw [e11]; omega
  · intro k
    show V c main_v56 (((cfg4.win 2).blk t).view.emb (ix2 k q)) = V c main_v56 (ix2 k q)
    refine congrArg _ (funext fun a => Fin.ext ?_)
    match a with
    | ⟨0, _⟩ => show win4_2.index t (0 : Fin 2) * 128 + 1 * k.val = k.val; rw [e20]; omega
    | ⟨1, _⟩ => show win4_2.index t (1 : Fin 2) * 128 + 1 * q.val = q.val; rw [e21]; omega
  · intro k
    show V c main_v58 (((cfg4.win 3).blk t).view.emb (ix2 k q)) = V c main_v58 (ix2 k q)
    refine congrArg _ (funext fun a => Fin.ext ?_)
    match a with
    | ⟨0, _⟩ => show win4_3.index t (0 : Fin 2) * 128 + 1 * k.val = k.val; rw [e30]; omega
    | ⟨1, _⟩ => show win4_3.index t (1 : Fin 2) * 128 + 1 * q.val = q.val; rw [e31]; omega
  · show V c main_v61 (((cfg4.win 4).blk t).view.emb (ix2 (0 : Fin 1) q)) = V c main_v61 (ix2 (0 : Fin 1) q)
    refine congrArg _ (funext fun a => Fin.ext ?_)
    match a with
    | ⟨0, _⟩ => show win4_4.index t (0 : Fin 2) * 1 + 1 * (0 : Fin 1).val = (0 : Fin 1).val; rw [e40]; rfl
    | ⟨1, _⟩ => show win4_4.index t (1 : Fin 2) * 128 + 1 * q.val = q.val; rw [e41]; omega

/-- An entry of the output array lies in grid point t's tile iff each coordinate lies in the tile's range on its axis. -/
theorem dual4_mem_tile (t : Fin cfg4.N) (i : S200000x128.Idx) :
    i ∈ ((cfg4.win 5).blk t).view.set ↔ ∀ a : Fin 2, win4_5.index t a * S10000x128.size a ≤ (i a).val ∧ (i a).val < win4_5.index t a * S10000x128.size a + S10000x128.size a := by
  show i ∈ ((View.whole main_v62).slice (win4_5.rect t)).set ↔ _
  rw [View.set_slice_whole, Rect.mem_set_unit]
  exact Iff.rfl

/-- The tiles cover the output array: row r lies in the tile of grid point r / 10000. -/
theorem dual4_cover (i : S200000x128.Idx) :
    ∃ t : Fin cfg4.N, (cfg4.win 5).flush t = true ∧ i ∈ ((cfg4.win 5).blk t).view.set := by
  have h0 : (i 0).val < 200000 := (i 0).isLt
  have h1 : (i 1).val < 128 := (i 1).isLt
  have hN : cfg4.N = 20 := N_4
  have hq : (i 0).val / 10000 < cfg4.N := by rw [hN]; omega
  obtain ⟨-, -, -, -, -, -, -, -, -, -, e50, e51⟩ := dual4_block_index ⟨(i 0).val / 10000, hq⟩
  refine ⟨⟨(i 0).val / 10000, hq⟩, flush4_5 _, ?_⟩
  rw [dual4_mem_tile]
  intro a
  match a with
  | ⟨0, _⟩ =>
    show win4_5.index ⟨(i 0).val / 10000, hq⟩ (0 : Fin 2) * 10000 ≤ (i 0).val ∧ (i 0).val < win4_5.index ⟨(i 0).val / 10000, hq⟩ (0 : Fin 2) * 10000 + 10000
    rw [e50]
    show (i 0).val / 10000 * 10000 ≤ (i 0).val ∧ (i 0).val < (i 0).val / 10000 * 10000 + 10000
    omega
  | ⟨1, _⟩ =>
    show win4_5.index ⟨(i 0).val / 10000, hq⟩ (1 : Fin 2) * 128 ≤ (i 1).val ∧ (i 1).val < win4_5.index ⟨(i 0).val / 10000, hq⟩ (1 : Fin 2) * 128 + 128
    rw [e51]
    omega

/-- After the region the output array holds relu ((a · wl + x · wr) + b) of the arrays as the region finds them. -/
theorem region4 (V : (c : Dev nD) → (b : Ref sig .tc) → Buf (Elt Ideal) ((c : Thread nD τ).loc b)) (c : Dev nD) :
    (Gen.dat4 (F := Ideal) V c).arrAt 5 cfg4.N = Spec.dual 200000 (V c main_v46) (V c main_v5) (V c main_v56) (V c main_v58) (V c main_v61) :=
  (dat4 (F := Ideal) V c).arrAt_eq_of_cover 5 (Spec.dual 200000 (V c main_v46) (V c main_v5) (V c main_v56) (V c main_v58) (V c main_v61))
    (fun t _ => dual4_flushed V c t) (fun i => dual4_cover i)

end Cert.KernelIdeal.RegionValue

end
-- ==== Proof.RefDual.lean ====
/-
  The four mean-aggregation updates of the reference program, each read as the mathematics it computes:
  relu ((a · wl + x · wr) + b) row by row over the extended reals. Each statement holds for the operand arrays as they
  stand; in the network a is the neighbour mean and x the node's own features.
  The program adds the bias row before the second product; the sum of the same three terms in the other order is
  the same extended real (addition there is commutative and associative, also at the infinities).
-/
import proofs.«103209_j60009283060024_2_alg».proof.Proof.Gen.ReferenceIdeal.Read
import proofs.«103209_j60009283060024_2_alg».proof.Proof.Spec
import Idealize.ShloMosaic.Lib.ValueIdx
import Idealize.ShloMosaic.Lib.Pipeline.Value
import Idealize.ShloMosaic.PureOps.Ideal.Laws

noncomputable section

namespace Cert.ReferenceIdeal.StageValue

open Cert.ReferenceIdeal Cert.ReferenceIdeal.Gen Cert.ReferenceIdeal.Read Idealize.ShloMosaic Idealize.ShloMosaic.TcCoe Idealize.ShloMosaic.ValueIdx

/-- First update of the 50000-row node type: entry (r, q) is the rectified sum of row r of the first operand (the neighbour mean) against
    column q of the left weight, row r of the second operand (the node's own projection) against column q of the right weight, and entry q
    of the bias row. -/
theorem stage_v80 (x0 : (⟨S200000x3, .f32⟩ : BufTy).Contents (Elt Ideal)) (x1 : (⟨S50000x2, .f32⟩ : BufTy).Contents (Elt Ideal)) (x3 : (⟨S3x128, .f32⟩ : BufTy).Contents (Elt Ideal)) (x4 : (⟨S128, .f32⟩ : BufTy).Contents (Elt Ideal)) (x5 : (⟨S2x128, .f32⟩ : BufTy).Contents (Elt Ideal)) (x6 : (⟨S128, .f32⟩ : BufTy).Contents (Elt Ideal)) (x9 : (⟨S2x128x128, .f32⟩ : BufTy).Contents (Elt Ideal)) (x10 : (⟨S2x128, .f32⟩ : BufTy).Contents (Elt Ideal)) (x11 : (⟨S2x128x128, .f32⟩ : BufTy).Contents (Elt Ideal)) (x19 : (⟨S2x600000, .i32⟩ : BufTy).Contents (Elt Ideal)) :
    val_main_v80 (F := Ideal) x0 x1 x3 x4 x5 x6 x9 x10 x11 x19 =
      Spec.dual 50000 (val_main_v36 (F := Ideal) x0 x3 x4 x19) (val_main_v13 (F := Ideal) x1 x5 x6)
        (val_main_v38 (F := Ideal) x9) (val_main_v46 (F := Ideal) x11) (val_main_v42 (F := Ideal) x10) := by
  funext i
  obtain ⟨r, q, rfl⟩ : ∃ (r : Fin 50000) (q : Fin 128), i = ix2 r q := ⟨i 0, i 1, eq_ix2 i⟩
  rw [val_main_v80_apply, val_main_v48_apply, val_main_v44_apply, val_main_v39_apply, val_main_v43_apply,
    val_main_v47_apply, val_main_call4_v0_apply, val_main_call4_cst_apply]
  -- each product's operands sit at (r, k) and (k, q); the bias row is read at (0, q)
  have el : ∀ k : Fin 128, lidx_main_v39 (ix2 r q) k = ix2 r k := fun k =>
    funext fun a => Fin.ext (by match a with | ⟨0, _⟩ => rfl | ⟨1, _⟩ => rfl)
  have er : ∀ k : Fin 128, ridx_main_v39 (ix2 r q) k = ix2 k q := fun k =>
    funext fun a => Fin.ext (by match a with | ⟨0, _⟩ => rfl | ⟨1, _⟩ => rfl)
  have el' : ∀ k : Fin 128, lidx_main_v47 (ix2 r q) k = ix2 r k := fun k =>
    funext fun a => Fin.ext (by match a with | ⟨0, _⟩ => rfl | ⟨1, _⟩ => rfl)
  have er' : ∀ k : Fin 128, ridx_main_v47 (ix2 r q) k = ix2 k q := fun k =>
    funext fun a => Fin.ext (by match a with | ⟨0, _⟩ => rfl | ⟨1, _⟩ => rfl)
  have eb : idx_main_v43 (ix2 r q) = ix2 0 q :=
    funext fun a => Fin.ext (by match a with | ⟨0, _⟩ => rfl | ⟨1, _⟩ => rfl)
  simp only [el, er, el', er', eb]
  -- the program adds the bias before the second product, the mathematics after it: the same three terms
  rw [Ideal.maximumf_def, Ideal.addf_def, Ideal.addf_def, add_right_comm]
  rfl

/-- First update of the 200000-row node type: entry (r, q) is the rectified sum of row r of the first operand (the neighbour mean) against
    column q of the left weight, row r of the second operand (the node's own projection) against column q of the right weight, and entry q
    of the bias row. -/
theorem stage_v79 (x0 : (⟨S200000x3, .f32⟩ : BufTy).Contents (Elt Ideal)) (x1 : (⟨S50000x2, .f32⟩ : BufTy).Contents (Elt Ideal)) (x3 : (⟨S3x128, .f32⟩ : BufTy).Contents (Elt Ideal)) (x4 : (⟨S128, .f32⟩ : BufTy).Contents (Elt Ideal)) (x5 : (⟨S2x128, .f32⟩ : BufTy).Contents (Elt Ideal)) (x6 : (⟨S128, .f32⟩ : BufTy).Contents (Elt Ideal)) (x12 : (⟨S2x128x128, .f32⟩ : BufTy).Contents (Elt Ideal)) (x13 : (⟨S2x128, .f32⟩ : BufTy).Contents (Elt Ideal)) (x14 : (⟨S2x128x128, .f32⟩ : BufTy).Contents (Elt Ideal)) (x19 : (⟨S2x600000, .i32⟩ : BufTy).Contents (Elt Ideal)) :
    val_main_v79 (F := Ideal) x0 x1 x3 x4 x5 x6 x12 x13 x14 x19 =
      Spec.dual 200000 (val_main_v66 (F := Ideal) x1 x5 x6 x19) (val_main_v8 (F := Ideal) x0 x3 x4)
        (val_main_v68 (F := Ideal) x12) (val_main_v76 (F := Ideal) x14) (val_main_v72 (F := Ideal) x13) := by
  funext i
  obtain ⟨r, q, rfl⟩ : ∃ (r : Fin 200000) (q : Fin 128), i = ix2 r q := ⟨i 0, i 1, eq_ix2 i⟩
  rw [val_main_v79_apply, val_main_v78_apply, val_main_v74_apply, val_main_v69_apply, val_main_v73_apply,
    val_main_v77_apply, val_main_call3_v0_apply, val_main_call3_cst_apply]
  -- each product's operands sit at (r, k) and (k, q); the bias row is read at (0, q)
  have el : ∀ k : Fin 128, lidx_main_v69 (ix2 r q) k = ix2 r k := fun k =>
    funext fun a => Fin.ext (by match a with | ⟨0, _⟩ => rfl | ⟨1, _⟩ => rfl)
  have er : ∀ k : Fin 128, ridx_main_v69 (ix2 r q) k = ix2 k q := fun k =>
    funext fun a => Fin.ext (by match a with | ⟨0, _⟩ => rfl | ⟨1, _⟩ => rfl)
  have el' : ∀ k : Fin 128, lidx_main_v77 (ix2 r q) k = ix2 r k := fun k =>
    funext fun a => Fin.ext (by match a with | ⟨0, _⟩ => rfl | ⟨1, _⟩ => rfl)
  have er' : ∀ k : Fin 128, ridx_main_v77 (ix2 r q) k = ix2 k q := fun k =>
    funext fun a => Fin.ext (by match a with | ⟨0, _⟩ => rfl | ⟨1, _⟩ => rfl)
  have eb : idx_main_v73 (ix2 r q) = ix2 0 q :=
    funext fun a => Fin.ext (by match a with | ⟨0, _⟩ => rfl | ⟨1, _⟩ => rfl)
  simp only [el, er, el', er', eb]
  -- the program adds the bias before the second product, the mathematics after it: the same three terms
  rw [Ideal.maximumf_def, Ideal.addf_def, Ideal.addf_def, add_right_comm]
  rfl

/-- Second update of the 50000-row node type: the same affine map and rectifier, with the neighbour mean taken over the other
    type's first update as first operand and this type's own first update as second. -/
theorem stage_v142 (x0 : (⟨S200000x3, .f32⟩ : BufTy).Contents (Elt Ideal)) (x1 : (⟨S50000x2, .f32⟩ : BufTy).Contents (Elt Ideal)) (x3 : (⟨S3x128, .f32⟩ : BufTy).Contents (Elt Ideal)) (x4 : (⟨S128, .f32⟩ : BufTy).Contents (Elt Ideal)) (x5 : (⟨S2x128, .f32⟩ : BufTy).Contents (Elt Ideal)) (x6 : (⟨S128, .f32⟩ : BufTy).Contents (Elt Ideal)) (x9 : (⟨S2x128x128, .f32⟩ : BufTy).Contents (Elt Ideal)) (x10 : (⟨S2x128, .f32⟩ : BufTy).Contents (Elt Ideal)) (x11 : (⟨S2x128x128, .f32⟩ : BufTy).Contents (Elt Ideal)) (x12 : (⟨S2x128x128, .f32⟩ : BufTy).Contents (Elt Ideal)) (x13 : (⟨S2x128, .f32⟩ : BufTy).Contents (Elt Ideal)) (x14 : (⟨S2x128x128, .f32⟩ : BufTy).Contents (Elt Ideal)) (x19 : (⟨S2x600000, .i32⟩ : BufTy).Contents (Elt Ideal)) :
    val_main_v142 (F := Ideal) x0 x1 x3 x4 x5 x6 x9 x10 x11 x12 x13 x14 x19 =
      Spec.dual 50000 (val_main_v98 (F := Ideal) x0 x1 x3 x4 x5 x6 x12 x13 x14 x19) (val_main_v80 (F := Ideal) x0 x1 x3 x4 x5 x6 x9 x10 x11 x19)
        (val_main_v100 (F := Ideal) x9) (val_main_v108 (F := Ideal) x11) (val_main_v104 (F := Ideal) x10) := by
  funext i
  obtain ⟨r, q, rfl⟩ : ∃ (r : Fin 50000) (q : Fin 128), i = ix2 r q := ⟨i 0, i 1, eq_ix2 i⟩
  rw [val_main_v142_apply, val_main_v110_apply, val_main_v106_apply, val_main_v101_apply, val_main_v105_apply,
    val_main_v109_apply, val_main_call6_v0_apply, val_main_call6_cst_apply]
  -- each product's operands sit at (r, k) and (k, q); the bias row is read at (0, q)
  have el : ∀ k : Fin 128, lidx_main_v101 (ix2 r q) k = ix2 r k := fun k =>
    funext fun a => Fin.ext (by match a with | ⟨0, _⟩ => rfl | ⟨1, _⟩ => rfl)
  have er : ∀ k : Fin 128, ridx_main_v101 (ix2 r q) k = ix2 k q := fun k =>
    funext fun a => Fin.ext (by match a with | ⟨0, _⟩ => rfl | ⟨1, _⟩ => rfl)
  have el' : ∀ k : Fin 128, lidx_main_v109 (ix2 r q) k = ix2 r k := fun k =>
    funext fun a => Fin.ext (by match a with | ⟨0, _⟩ => rfl | ⟨1, _⟩ => rfl)
  have er' : ∀ k : Fin 128, ridx_main_v109 (ix2 r q) k = ix2 k q := fun k =>
    funext fun a => Fin.ext (by match a with | ⟨0, _⟩ => rfl | ⟨1, _⟩ => rfl)
  have eb : idx_main_v105 (ix2 r q) = ix2 0 q :=
    funext fun a => Fin.ext (by match a with | ⟨0, _⟩ => rfl | ⟨1, _⟩ => rfl)
  simp only [el, er, el', er', eb]
  -- the program adds the bias before the second product, the mathematics after it: the same three terms
  rw [Ideal.maximumf_def, Ideal.addf_def, Ideal.addf_def, add_right_comm]
  rfl

/-- Second update of the 200000-row node type: the same affine map and rectifier, with the neighbour mean taken over the other
    type's first update as first operand and this type's own first update as second. -/
theorem stage_v141 (x0 : (⟨S200000x3, .f32⟩ : BufTy).Contents (Elt Ideal)) (x1 : (⟨S50000x2, .f32⟩ : BufTy).Contents (Elt Ideal)) (x3 : (⟨S3x128, .f32⟩ : BufTy).Contents (Elt Ideal)) (x4 : (⟨S128, .f32⟩ : BufTy).Contents (Elt Ideal)) (x5 : (⟨S2x128, .f32⟩ : BufTy).Contents (Elt Ideal)) (x6 : (⟨S128, .f32⟩ : BufTy).Contents (Elt Ideal)) (x9 : (⟨S2x128x128, .f32⟩ : BufTy).Contents (Elt Ideal)) (x10 : (⟨S2x128, .f32⟩ : BufTy).Contents (Elt Ideal)) (x11 : (⟨S2x128x128, .f32⟩ : BufTy).Contents (Elt Ideal)) (x12 : (⟨S2x128x128, .f32⟩ : BufTy).Contents (Elt Ideal)) (x13 : (⟨S2x128, .f32⟩ : BufTy).Contents (Elt Ideal)) (x14 : (⟨S2x128x128, .f32⟩ : BufTy).Contents (Elt Ideal)) (x19 : (⟨S2x600000, .i32⟩ : BufTy).Contents (Elt Ideal)) :
    val_main_v141 (F := Ideal) x0 x1 x3 x4 x5 x6 x9 x10 x11 x12 x13 x14 x19 =
      Spec.dual 200000 (val_main_v128 (F := Ideal) x0 x1 x3 x4 x5 x6 x9 x10 x11 x19) (val_main_v79 (F := Ideal) x0 x1 x3 x4 x5 x6 x12 x13 x14 x19)
        (val_main_v130 (F := Ideal) x12) (val_main_v138 (F := Ideal) x14) (val_main_v134 (F := Ideal) x13) := by
  funext i
  obtain ⟨r, q, rfl⟩ : ∃ (r : Fin 200000) (q : Fin 128), i = ix2 r q := ⟨i 0, i 1, eq_ix2 i⟩
  rw [val_main_v141_apply, val_main_v140_apply, val_main_v136_apply, val_main_v131_apply, val_main_v135_apply,
    val_main_v139_apply, val_main_call5_v0_apply, val_main_call5_cst_apply]
  -- each product's operands sit at (r, k) and (k, q); the bias row is read at (0, q)
  have el : ∀ k : Fin 128, lidx_main_v131 (ix2 r q) k = ix2 r k := fun k =>
    funext fun a => Fin.ext (by match a with | ⟨0, _⟩ => rfl | ⟨1, _⟩ => rfl)
  have er : ∀ k : Fin 128, ridx_main_v131 (ix2 r q) k = ix2 k q := fun k =>
    funext fun a => Fin.ext (by match a with | ⟨0, _⟩ => rfl | ⟨1, _⟩ => rfl)
  have el' : ∀ k : Fin 128, lidx_main_v139 (ix2 r q) k = ix2 r k := fun k =>
    funext fun a => Fin.ext (by match a with | ⟨0, _⟩ => rfl | ⟨1, _⟩ => rfl)
  have er' : ∀ k : Fin 128, ridx_main_v139 (ix2 r q) k = ix2 k q := fun k =>
    funext fun a => Fin.ext (by match a with | ⟨0, _⟩ => rfl | ⟨1, _⟩ => rfl)
  have eb : idx_main_v135 (ix2 r q) = ix2 0 q :=
    funext fun a => Fin.ext (by match a with | ⟨0, _⟩ => rfl | ⟨1, _⟩ => rfl)
  simp only [el, er, el', er', eb]
  -- the program adds the bias before the second product, the mathematics after it: the same three terms
  rw [Ideal.maximumf_def, Ideal.addf_def, Ideal.addf_def, add_right_comm]
  rfl

end Cert.ReferenceIdeal.StageValue

end
-- ==== Proof.ChainB.lean ====
/-
  The kernel's buffers through the first mean-aggregation layer.
  The stretch before it computes, from the edge endpoints, each node's in-degree clamped below by one (a scatter-add of
  ones), and for each node type the mean of its neighbours' features: the neighbours' rows gathered along the edges,
  scatter-added at the other endpoint, divided by the degree.  This side gathers the stored projection and widens its
  float format afterwards, which over the extended reals is the identity; otherwise the operations are the reference's
  own, applied to buffers already known to hold the reference's values — so each buffer holds the reference's value by
  unfolding both sides.  The two updates relu ((mean · wl + own · wr) + b) are then regions' outputs, met with the
  reference's stage relu ((mean · wl + b) + own · wr).
-/
import proofs.«103209_j60009283060024_2_alg».proof.Proof.Gen.KernelIdeal.Frame
import proofs.«103209_j60009283060024_2_alg».proof.Proof.Gen.ReferenceIdeal.Read
import proofs.«103209_j60009283060024_2_alg».proof.Proof.Spec
import proofs.«103209_j60009283060024_2_alg».proof.Proof.LayoutEq
import proofs.«103209_j60009283060024_2_alg».proof.Proof.ChainA
import proofs.«103209_j60009283060024_2_alg».proof.Proof.RegionDual3
import proofs.«103209_j60009283060024_2_alg».proof.Proof.RegionDual4
import proofs.«103209_j60009283060024_2_alg».proof.Proof.RefDual

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The stretch before the first layer -/

theorem W7_v15 : W7 m ρ c (Proc.devRef .tc main_v15) = Cert.ReferenceIdeal.Read.val_main_v34 (F := Ideal) (m ((c : Thread nD τ).loc main_arg19)) := by
  show StableHlo.after hostOps3 (W6 m ρ c) (Proc.devRef .tc main_v15) = _
  after_results_simp
  rw [W6_v3 m ρ c]
  rfl
theorem W7_v20 : W7 m ρ c (Proc.devRef .tc main_v20) = Cert.ReferenceIdeal.Read.val_main_v64 (F := Ideal) (m ((c : Thread nD τ).loc main_arg19)) := by
  show StableHlo.after hostOps3 (W6 m ρ c) (Proc.devRef .tc main_v20) = _
  after_results_simp
  rw [W6_v1 m ρ c]
  rfl
theorem W7_v33 : W7 m ρ c (Proc.devRef .tc main_v33) = Cert.ReferenceIdeal.Read.val_main_v36 (F := Ideal) (m ((c : Thread nD τ).loc main_arg0)) (m ((c : Thread nD τ).loc main_arg3)) (m ((c : Thread nD τ).loc main_arg4)) (m ((c : Thread nD τ).loc main_arg19)) := by
  show StableHlo.after hostOps3 (W6 m ρ c) (Proc.devRef .tc main_v33) = _
  after_results_simp
  rw [W6_v3 m ρ c, W6_v5 m ρ c, W6_v1 m ρ c]
  simp only [Cert.LayoutEq.extf_id]
  rfl
theorem W7_v46 : W7 m ρ c (Proc.devRef .tc main_v46) = Cert.ReferenceIdeal.Read.val_main_v66 (F := Ideal) (m ((c : Thread nD τ).loc main_arg1)) (m ((c : Thread nD τ).loc main_arg5)) (m ((c : Thread nD τ).loc main_arg6)) (m ((c : Thread nD τ).loc main_arg19)) := by
  show StableHlo.after hostOps3 (W6 m ρ c) (Proc.devRef .tc main_v46) = _
  after_results_simp
  rw [W6_v1 m ρ c, W6_v7 m ρ c, W6_v3 m ρ c]
  simp only [Cert.LayoutEq.extf_id]
  rfl
theorem W7_v48 : W7 m ρ c (Proc.devRef .tc main_v48) = Cert.ReferenceIdeal.Read.val_main_v38 (F := Ideal) (m ((c : Thread nD τ).loc main_arg9)) := by
  show StableHlo.after hostOps3 (W6 m ρ c) (Proc.devRef .tc main_v48) = _
  after_results_simp
  rw [W6_arg9 m ρ c]
  rfl
theorem W7_v50 : W7 m ρ c (Proc.devRef .tc main_v50) = Cert.ReferenceIdeal.Read.val_main_v46 (F := Ideal) (m ((c : Thread nD τ).loc main_arg11)) := by
  show StableHlo.after hostOps3 (W6 m ρ c) (Proc.devRef .tc main_v50) = _
  after_results_simp
  rw [W6_arg11 m ρ c]
  rfl
theorem W7_v53 : W7 m ρ c (Proc.devRef .tc main_v53) = Cert.ReferenceIdeal.Read.val_main_v42 (F := Ideal) (m ((c : Thread nD τ).loc main_arg10)) := by
  show StableHlo.after hostOps3 (W6 m ρ c) (Proc.devRef .tc main_v53) = _
  after_results_simp
  rw [W6_arg10 m ρ c]
  exact Cert.LayoutEq.row_reshape_eq_bcast 128 _ _ _
theorem W7_v7 : W7 m ρ c (Proc.devRef .tc main_v7) = Cert.ReferenceIdeal.Read.val_main_v13 (F := Ideal) (m ((c : Thread nD τ).loc main_arg1)) (m ((c : Thread nD τ).loc main_arg5)) (m ((c : Thread nD τ).loc main_arg6)) := by
  show StableHlo.after hostOps3 (W6 m ρ c) (Proc.devRef .tc main_v7) = _
  after_results_simp
  exact W6_v7 m ρ c

/-! ## The merchants' update, layer one -/

theorem W8_v54 : W8 m ρ c (Proc.devRef .tc main_v54) = Cert.ReferenceIdeal.Read.val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg19)) := by
  refine (W8_arr m ρ c 5).trans ?_
  rw [Cert.KernelIdeal.RegionValue.region3 (V7 m ρ) c]
  rw [show V7 m ρ c main_v33 = _ from W7_v33 m ρ c,
    show V7 m ρ c main_v7 = _ from W7_v7 m ρ c,
    show V7 m ρ c main_v48 = _ from W7_v48 m ρ c,
    show V7 m ρ c main_v50 = _ from W7_v50 m ρ c,
    show V7 m ρ c main_v53 = _ from W7_v53 m ρ c]
  exact (Cert.ReferenceIdeal.StageValue.stage_v80 _ _ _ _ _ _ _ _ _ _).symm

/-! ## The users' update, layer one -/

theorem W8_arg12 : W8 m ρ c (Proc.devRef .tc main_arg12) = m ((c : Thread nD τ).loc main_arg12) := by
  rw [W8_of_ne m ρ c main_arg12 (by decide)]
  show StableHlo.after hostOps3 (W6 m ρ c) (Proc.devRef .tc main_arg12) = _
  after_results_simp
  rw [W6_of_ne m ρ c main_arg12 (by decide)]
  show StableHlo.after hostOps2 (W4 m ρ c) (Proc.devRef .tc main_arg12) = _
  after_results_simp
  rw [W4_of_ne m ρ c main_arg12 (by decide)]
  show StableHlo.after hostOps1 (W2 m ρ c) (Proc.devRef .tc main_arg12) = _
  after_results_simp
  rw [W2_of_ne m ρ c main_arg12 (by decide)]
  show StableHlo.after hostOps0 (W0 m ρ c) (Proc.devRef .tc main_arg12) = _
  after_results_simp
theorem W8_arg13 : W8 m ρ c (Proc.devRef .tc main_arg13) = m ((c : Thread nD τ).loc main_arg13) := by
  rw [W8_of_ne m ρ c main_arg13 (by decide)]
  show StableHlo.after hostOps3 (W6 m ρ c) (Proc.devRef .tc main_arg13) = _
  after_results_simp
  rw [W6_of_ne m ρ c main_arg13 (by decide)]
  show StableHlo.after hostOps2 (W4 m ρ c) (Proc.devRef .tc main_arg13) = _
  after_results_simp
  rw [W4_of_ne m ρ c main_arg13 (by decide)]
  show StableHlo.after hostOps1 (W2 m ρ c) (Proc.devRef .tc main_arg13) = _
  after_results_simp
  rw [W2_of_ne m ρ c main_arg13 (by decide)]
  show StableHlo.after hostOps0 (W0 m ρ c) (Proc.devRef .tc main_arg13) = _
  after_results_simp
theorem W8_arg14 : W8 m ρ c (Proc.devRef .tc main_arg14) = m ((c : Thread nD τ).loc main_arg14) := by
  rw [W8_of_ne m ρ c main_arg14 (by decide)]
  show StableHlo.after hostOps3 (W6 m ρ c) (Proc.devRef .tc main_arg14) = _
  after_results_simp
  rw [W6_of_ne m ρ c main_arg14 (by decide)]
  show StableHlo.after hostOps2 (W4 m ρ c) (Proc.devRef .tc main_arg14) = _
  after_results_simp
  rw [W4_of_ne m ρ c main_arg14 (by decide)]
  show StableHlo.after hostOps1 (W2 m ρ c) (Proc.devRef .tc main_arg14) = _
  after_results_simp
  rw [W2_of_ne m ρ c main_arg14 (by decide)]
  show StableHlo.after hostOps0 (W0 m ρ c) (Proc.devRef .tc main_arg14) = _
  after_results_simp
theorem W9_v56 : W9 m ρ c (Proc.devRef .tc main_v56) = Cert.ReferenceIdeal.Read.val_main_v68 (F := Ideal) (m ((c : Thread nD τ).loc main_arg12)) := by
  show StableHlo.after hostOps4 (W8 m ρ c) (Proc.devRef .tc main_v56) = _
  after_results_simp
  rw [W8_arg12 m ρ c]
  rfl
theorem W9_v58 : W9 m ρ c (Proc.devRef .tc main_v58) = Cert.ReferenceIdeal.Read.val_main_v76 (F := Ideal) (m ((c : Thread nD τ).loc main_arg14)) := by
  show StableHlo.after hostOps4 (W8 m ρ c) (Proc.devRef .tc main_v58) = _
  after_results_simp
  rw [W8_arg14 m ρ c]
  rfl
theorem W9_v61 : W9 m ρ c (Proc.devRef .tc main_v61) = Cert.ReferenceIdeal.Read.val_main_v72 (F := Ideal) (m ((c : Thread nD τ).loc main_arg13)) := by
  show StableHlo.after hostOps4 (W8 m ρ c) (Proc.devRef .tc main_v61) = _
  after_results_simp
  rw [W8_arg13 m ρ c]
  exact Cert.LayoutEq.row_reshape_eq_bcast 128 _ _ _
theorem W9_v46 : W9 m ρ c (Proc.devRef .tc main_v46) = Cert.ReferenceIdeal.Read.val_main_v66 (F := Ideal) (m ((c : Thread nD τ).loc main_arg1)) (m ((c : Thread nD τ).loc main_arg5)) (m ((c : Thread nD τ).loc main_arg6)) (m ((c : Thread nD τ).loc main_arg19)) := by
  show StableHlo.after hostOps4 (W8 m ρ c) (Proc.devRef .tc main_v46) = _
  after_results_simp
  rw [W8_of_ne m ρ c main_v46 (by decide)]
  exact W7_v46 m ρ c
theorem W9_v5 : W9 m ρ c (Proc.devRef .tc main_v5) = Cert.ReferenceIdeal.Read.val_main_v8 (F := Ideal) (m ((c : Thread nD τ).loc main_arg0)) (m ((c : Thread nD τ).loc main_arg3)) (m ((c : Thread nD τ).loc main_arg4)) := by
  show StableHlo.after hostOps4 (W8 m ρ c) (Proc.devRef .tc main_v5) = _
  after_results_simp
  rw [W8_of_ne m ρ c main_v5 (by decide)]
  show StableHlo.after hostOps3 (W6 m ρ c) (Proc.devRef .tc main_v5) = _
  after_results_simp
  exact W6_v5 m ρ c
theorem W10_v62 : W10 m ρ c (Proc.devRef .tc main_v62) = Cert.ReferenceIdeal.Read.val_main_v79 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg12)) (m ((c : Thread nD τ).loc main_arg13)) (m ((c : Thread nD τ).loc main_arg14)) (m ((c : Thread nD τ).loc main_arg19)) := by
  refine (W10_arr m ρ c 5).trans ?_
  rw [Cert.KernelIdeal.RegionValue.region4 (V9 m ρ) c]
  rw [show V9 m ρ c main_v46 = _ from W9_v46 m ρ c,
    show V9 m ρ c main_v5 = _ from W9_v5 m ρ c,
    show V9 m ρ c main_v56 = _ from W9_v56 m ρ c,
    show V9 m ρ c main_v58 = _ from W9_v58 m ρ c,
    show V9 m ρ c main_v61 = _ from W9_v61 m ρ c]
  exact (Cert.ReferenceIdeal.StageValue.stage_v79 _ _ _ _ _ _ _ _ _ _).symm

/-! ## What the second layer's stretch reads, carried to its boundary -/

theorem W10_v1 : W10 m ρ c (Proc.devRef .tc main_v1) = Cert.ReferenceIdeal.Read.val_main_v1 (F := Ideal) (m ((c : Thread nD τ).loc main_arg19)) := by
  rw [W10_of_ne m ρ c main_v1 (by decide)]
  show StableHlo.after hostOps4 (W8 m ρ c) (Proc.devRef .tc main_v1) = _
  after_results_simp
  rw [W8_of_ne m ρ c main_v1 (by decide)]
  show StableHlo.after hostOps3 (W6 m ρ c) (Proc.devRef .tc main_v1) = _
  after_results_simp
  exact W6_v1 m ρ c
theorem W10_v3 : W10 m ρ c (Proc.devRef .tc main_v3) = Cert.ReferenceIdeal.Read.val_main_v3 (F := Ideal) (m ((c : Thread nD τ).loc main_arg19)) := by
  rw [W10_of_ne m ρ c main_v3 (by decide)]
  show StableHlo.after hostOps4 (W8 m ρ c) (Proc.devRef .tc main_v3) = _
  after_results_simp
  rw [W8_of_ne m ρ c main_v3 (by decide)]
  show StableHlo.after hostOps3 (W6 m ρ c) (Proc.devRef .tc main_v3) = _
  after_results_simp
  exact W6_v3 m ρ c
theorem W10_v54 : W10 m ρ c (Proc.devRef .tc main_v54) = Cert.ReferenceIdeal.Read.val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg19)) := by
  rw [W10_of_ne m ρ c main_v54 (by decide)]
  show StableHlo.after hostOps4 (W8 m ρ c) (Proc.devRef .tc main_v54) = _
  after_results_simp
  exact W8_v54 m ρ c
theorem W10_v15 : W10 m ρ c (Proc.devRef .tc main_v15) = Cert.ReferenceIdeal.Read.val_main_v34 (F := Ideal) (m ((c : Thread nD τ).loc main_arg19)) := by
  rw [W10_of_ne m ρ c main_v15 (by decide)]
  show StableHlo.after hostOps4 (W8 m ρ c) (Proc.devRef .tc main_v15) = _
  after_results_simp
  rw [W8_of_ne m ρ c main_v15 (by decide)]
  exact W7_v15 m ρ c
theorem W10_v20 : W10 m ρ c (Proc.devRef .tc main_v20) = Cert.ReferenceIdeal.Read.val_main_v64 (F := Ideal) (m ((c : Thread nD τ).loc main_arg19)) := by
  rw [W10_of_ne m ρ c main_v20 (by decide)]
  show StableHlo.after hostOps4 (W8 m ρ c) (Proc.devRef .tc main_v20) = _
  after_results_simp
  rw [W8_of_ne m ρ c main_v20 (by decide)]
  exact W7_v20 m ρ c
theorem W10_v9 : W10 m ρ c (Proc.devRef .tc main_v9) = Cert.ReferenceIdeal.Read.val_main_v18 (F := Ideal) (m ((c : Thread nD τ).loc main_arg2)) (m ((c : Thread nD τ).loc main_arg7)) (m ((c : Thread nD τ).loc main_arg8)) := by
  rw [W10_of_ne m ρ c main_v9 (by decide)]
  show StableHlo.after hostOps4 (W8 m ρ c) (Proc.devRef .tc main_v9) = _
  after_results_simp
  rw [W8_of_ne m ρ c main_v9 (by decide)]
  show StableHlo.after hostOps3 (W6 m ρ c) (Proc.devRef .tc main_v9) = _
  after_results_simp
  exact W6_v9 m ρ c
theorem W10_arg9 : W10 m ρ c (Proc.devRef .tc main_arg9) = m ((c : Thread nD τ).loc main_arg9) := by
  rw [W10_of_ne m ρ c main_arg9 (by decide)]
  show StableHlo.after hostOps4 (W8 m ρ c) (Proc.devRef .tc main_arg9) = _
  after_results_simp
  rw [W8_of_ne m ρ c main_arg9 (by decide)]
  show StableHlo.after hostOps3 (W6 m ρ c) (Proc.devRef .tc main_arg9) = _
  after_results_simp
  exact W6_arg9 m ρ c
theorem W10_arg10 : W10 m ρ c (Proc.devRef .tc main_arg10) = m ((c : Thread nD τ).loc main_arg10) := by
  rw [W10_of_ne m ρ c main_arg10 (by decide)]
  show StableHlo.after hostOps4 (W8 m ρ c) (Proc.devRef .tc main_arg10) = _
  after_results_simp
  rw [W8_of_ne m ρ c main_arg10 (by decide)]
  show StableHlo.after hostOps3 (W6 m ρ c) (Proc.devRef .tc main_arg10) = _
  after_results_simp
  exact W6_arg10 m ρ c
theorem W10_arg11 : W10 m ρ c (Proc.devRef .tc main_arg11) = m ((c : Thread nD τ).loc main_arg11) := by
  rw [W10_of_ne m ρ c main_arg11 (by decide)]
  show StableHlo.after hostOps4 (W8 m ρ c) (Proc.devRef .tc main_arg11) = _
  after_results_simp
  rw [W8_of_ne m ρ c main_arg11 (by decide)]
  show StableHlo.after hostOps3 (W6 m ρ c) (Proc.devRef .tc main_arg11) = _
  after_results_simp
  exact W6_arg11 m ρ c

end Cert.KernelIdeal.Chain

end
-- ==== Proof.RegionDual5.lean ====
/-
  Region 5: one mean-aggregation update, relu ((a · wl + x · wr) + b), computed tile by tile over row tiles of 10000 rows.
  First the arithmetic a grid point performs on its blocks, read at one entry; then each block entry as an entry of the
  whole arrays; then the tiles cover the output array, so that it ends holding the whole-array formula.
-/
import proofs.«103209_j60009283060024_2_alg».proof.Proof.Gen.KernelIdeal.Frame
import proofs.«103209_j60009283060024_2_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.RegionValue

open Cert.KernelIdeal Cert.KernelIdeal.Gen Idealize.ShloMosaic Idealize.ShloMosaic.TcCoe Idealize.ShloMosaic.ValueIdx Idealize.SL.Sem

/-! ## The tile product at an entry -/

/-- The left operand's row coordinate at output entry `i` is `i`'s row. -/
theorem dual5_lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column coordinate is the summation index. -/
theorem dual5_lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row coordinate is the summation index. -/
theorem dual5_rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column coordinate at output entry `i` is `i`'s column. -/
theorem dual5_rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A 10000 × 128 block times a 128 × 128 matrix, accumulated from zero, read at entry (p, q):
    the sum over the shared axis of row p of the block against column q of the matrix. -/
theorem dual5_tile_product (x : FVec Ideal S10000x128 .bf16) (w : FVec Ideal S128x128 .bf16) (p : Fin 10000) (q : Fin 128) :
    matmul dot_S10000x128_S128x128_S10000x128_1_0_0_1_n_n none x w (constant (F := Ideal) S10000x128 .f32 0x00000000#32) (ix2 p q)
      = ∑ k : Fin 128, x (ix2 p k) * w (ix2 k q) := by
  show FloatOps.matmul dot_S10000x128_S128x128_S10000x128_1_0_0_1_n_n none x w (constant (F := Ideal) S10000x128 .f32 0x00000000#32) (ix2 p q) = _
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact dual5_lhs_row _ _
    | ⟨1, _⟩ => exact (dual5_lhs_col _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (dual5_rhs_row _ _).trans hk
    | ⟨1, _⟩ => exact dual5_rhs_col _ _)
  rw [el, er]

/-! ## What a grid point stores, at an entry -/

/-- Entry (p, q) of the block a grid point stores, from its five input blocks: the rectifier of row p of the
    neighbour-mean block against column q of the left weight, plus row p of the own-feature block against column q of
    the right weight, plus the bias at q. -/
theorem dual5_stored_apply (x0 : Vec Ideal S10000x128 .f32) (x1 : Vec Ideal S10000x128 .bf16) (x2 : Vec Ideal S128x128 .f32)
    (x3 : Vec Ideal S128x128 .f32) (x4 : Vec Ideal S1x128 .f32) (p : Fin 10000) (q : Fin 128) :
    k5_pay1 (F := Ideal) x0 x1 x2 x3 x4 (ix2 p q)
      = max (((∑ k : Fin 128, x0 (ix2 p k) * x2 (ix2 k q)) + (∑ k : Fin 128, x1 (ix2 p k) * x3 (ix2 k q))) + x4 (ix2 (0 : Fin 1) q)) Spec.zero := by
  unfold k5_pay1
  simp only [shapeCast_self]
  rw [truncf_apply, maximumf_apply, addf_apply, addf_apply, dual5_tile_product, dual5_tile_product, broadcastTo_1b_ab_apply, broadcast_apply]
  rfl

/-- The same entry against whole arrays: when row p of the two row-tiled blocks is row r of the whole arrays, and the
    weight and bias blocks are the whole weights and bias, the stored entry is the whole-array formula at (r, q). -/
theorem dual5_stored_eq_spec (A X : Spec.Arr2 50000 128) (WL WR : Spec.Arr2 128 128) (B : Spec.Arr2 1 128)
    (x0 : Vec Ideal S10000x128 .f32) (x1 : Vec Ideal S10000x128 .bf16) (x2 : Vec Ideal S128x128 .f32)
    (x3 : Vec Ideal S128x128 .f32) (x4 : Vec Ideal S1x128 .f32) (r : Fin 50000) (p : Fin 10000) (q : Fin 128)
    (h0 : ∀ k : Fin 128, x0 (ix2 p k) = A (ix2 r k)) (h1 : ∀ k : Fin 128, x1 (ix2 p k) = X (ix2 r k))
    (h2 : ∀ k : Fin 128, x2 (ix2 k q) = WL (ix2 k q)) (h3 : ∀ k : Fin 128, x3 (ix2 k q) = WR (ix2 k q))
    (h4 : x4 (ix2 (0 : Fin 1) q) = B (ix2 (0 : Fin 1) q)) :
    k5_pay1 (F := Ideal) x0 x1 x2 x3 x4 (ix2 p q) = Spec.dual 50000 A X WL WR B (ix2 r q) := by
  rw [dual5_stored_apply]
  show _ = max ((Spec.rowcol A WL r q + Spec.rowcol X WR r q) + B (ix2 (0 : Fin 1) q)) Spec.zero
  unfold Spec.rowcol
  simp only [h0, h1, h2, h3, h4]

/-! ## From the blocks to the array -/

theorem dual5_origin : (![0, 0] : Fin 2 → Nat) = fun _ => 0 := funext fun a => by fin_cases a <;> rfl

/-- The windows' block indices at grid point t: the row-tiled operands and the output sit at row block t, column block 0;
    the weights and the bias at block (0, 0). -/
theorem dual5_block_index : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What grid point t writes back is tile t of the whole-array formula of the arrays as the region finds them:
    entry (p, q) of the tile is entry (10000 t + p, q) of the array, whose row depends on the same row of the two
    row-tiled operands and on the whole weights and bias. -/
theorem dual5_flushed (V : (c : Dev nD) → (b : Ref sig .tc) → Buf (Elt Ideal) ((c : Thread nD τ).loc b)) (c : Dev nD) (t : Fin cfg5.N) :
    (dat5 (F := Ideal) V c).flushed 5 t = ((cfg5.win 5).blk t).view.read (Elt Ideal) (Spec.dual 50000 (V c main_v75) (V c main_v54) (V c main_v90) (V c main_v92) (V c main_v95)) := by
  show (cfg5.win 5).cut (grid5.coords t) ((dat5 V c).after 5 t) = _
  rw [after5_5]
  unfold out5_5
  rw [View.canon_unit_zero dual5_origin]
  simp only [View.ld_unit_zero (S := S10000x128) dual5_origin, View.ld_unit_zero (S := S128x128) dual5_origin, View.ld_unit_zero (S := S1x128) dual5_origin]
  obtain ⟨e00, e01, e10, e11, e20, e21, e30, e31, e40, e41, e50, e51⟩ := dual5_block_index t
  have ht : t.val < 5 := lt_of_lt_of_eq t.isLt N_5
  funext y
  obtain ⟨p, q, rfl⟩ : ∃ (p : Fin 10000) (q : Fin 128), y = ix2 p q := ⟨y 0, y 1, eq_ix2 y⟩
  rw [View.read_apply]
  have hr : t.val * 10000 + p.val < 50000 := by have := p.isLt; omega
  have he : ((cfg5.win 5).blk t).view.emb (ix2 p q) = ix2 (⟨t.val * 10000 + p.val, hr⟩ : Fin 50000) q := by
    funext a; apply Fin.ext
    match a with
    | ⟨0, _⟩ => show win5_5.index t (0 : Fin 2) * 10000 + 1 * p.val = t.val * 10000 + p.val; rw [e50]; omega
    | ⟨1, _⟩ => show win5_5.index t (1 : Fin 2) * 128 + 1 * q.val = q.val; rw [e51]; omega
  rw [he]
  refine dual5_stored_eq_spec _ _ _ _ _ _ _ _ _ _ (⟨t.val * 10000 + p.val, hr⟩ : Fin 50000) p q ?_ ?_ ?_ ?_ ?_
  · intro k
    show V c main_v75 (((cfg5.win 0).blk t).view.emb (ix2 p k)) = V c main_v75 (ix2 (⟨t.val * 10000 + p.val, hr⟩ : Fin 50000) k)
    refine congrArg _ (funext fun a => Fin.ext ?_)
    match a with
    | ⟨0, _⟩ => show win5_0.index t (0 : Fin 2) * 10000 + 1 * p.val = t.val * 10000 + p.val; rw [e00]; omega
    | ⟨1, _⟩ => show win5_0.index t (1 : Fin 2) * 128 + 1 * k.val = k.val; rw [e01]; omega
  · intro k
    show V c main_v54 (((cfg5.win 1).blk t).view.emb (ix2 p k)) = V c main_v54 (ix2 (⟨t.val * 10000 + p.val, hr⟩ : Fin 50000) k)
    refine congrArg _ (funext fun a => Fin.ext ?_)
    match a with
    | ⟨0, _⟩ => show win5_1.index t (0 : Fin 2) * 10000 + 1 * p.val = t.val * 10000 + p.val; rw [e10]; omega
    | ⟨1, _⟩ => show win5_1.index t (1 : Fin 2) * 128 + 1 * k.val = k.val; rw [e11]; omega
  · intro k
    show V c main_v90 (((cfg5.win 2).blk t).view.emb (ix2 k q)) = V c main_v90 (ix2 k q)
    refine congrArg _ (funext fun a => Fin.ext ?_)
    match a with
    | ⟨0, _⟩ => show win5_2.index t (0 : Fin 2) * 128 + 1 * k.val = k.val; rw [e20]; omega
    | ⟨1, _⟩ => show win5_2.index t (1 : Fin 2) * 128 + 1 * q.val = q.val; rw [e21]; omega
  · intro k
    show V c main_v92 (((cfg5.win 3).blk t).view.emb (ix2 k q)) = V c main_v92 (ix2 k q)
    refine congrArg _ (funext fun a => Fin.ext ?_)
    match a with
    | ⟨0, _⟩ => show win5_3.index t (0 : Fin 2) * 128 + 1 * k.val = k.val; rw [e30]; omega
    | ⟨1, _⟩ => show win5_3.index t (1 : Fin 2) * 128 + 1 * q.val = q.val; rw [e31]; omega
  · show V c main_v95 (((cfg5.win 4).blk t).view.emb (ix2 (0 : Fin 1) q)) = V c main_v95 (ix2 (0 : Fin 1) q)
    refine congrArg _ (funext fun a => Fin.ext ?_)
    match a with
    | ⟨0, _⟩ => show win5_4.index t (0 : Fin 2) * 1 + 1 * (0 : Fin 1).val = (0 : Fin 1).val; rw [e40]; rfl
    | ⟨1, _⟩ => show win5_4.index t (1 : Fin 2) * 128 + 1 * q.val = q.val; rw [e41]; omega

/-- An entry of the output array lies in grid point t's tile iff each coordinate lies in the tile's range on its axis. -/
theorem dual5_mem_tile (t : Fin cfg5.N) (i : S50000x128.Idx) :
    i ∈ ((cfg5.win 5).blk t).view.set ↔ ∀ a : Fin 2, win5_5.index t a * S10000x128.size a ≤ (i a).val ∧ (i a).val < win5_5.index t a * S10000x128.size a + S10000x128.size a := by
  show i ∈ ((View.whole main_v96).slice (win5_5.rect t)).set ↔ _
  rw [View.set_slice_whole, Rect.mem_set_unit]
  exact Iff.rfl

/-- The tiles cover the output array: row r lies in the tile of grid point r / 10000. -/
theorem dual5_cover (i : S50000x128.Idx) :
    ∃ t : Fin cfg5.N, (cfg5.win 5).flush t = true ∧ i ∈ ((cfg5.win 5).blk t).view.set := by
  have h0 : (i 0).val < 50000 := (i 0).isLt
  have h1 : (i 1).val < 128 := (i 1).isLt
  have hN : cfg5.N = 5 := N_5
  have hq : (i 0).val / 10000 < cfg5.N := by rw [hN]; omega
  obtain ⟨-, -, -, -, -, -, -, -, -, -, e50, e51⟩ := dual5_block_index ⟨(i 0).val / 10000, hq⟩
  refine ⟨⟨(i 0).val / 10000, hq⟩, flush5_5 _, ?_⟩
  rw [dual5_mem_tile]
  intro a
  match a with
  | ⟨0, _⟩ =>
    show win5_5.index ⟨(i 0).val / 10000, hq⟩ (0 : Fin 2) * 10000 ≤ (i 0).val ∧ (i 0).val < win5_5.index ⟨(i 0).val / 10000, hq⟩ (0 : Fin 2) * 10000 + 10000
    rw [e50]
    show (i 0).val / 10000 * 10000 ≤ (i 0).val ∧ (i 0).val < (i 0).val / 10000 * 10000 + 10000
    omega
  | ⟨1, _⟩ =>
    show win5_5.index ⟨(i 0).val / 10000, hq⟩ (1 : Fin 2) * 128 ≤ (i 1).val ∧ (i 1).val < win5_5.index ⟨(i 0).val / 10000, hq⟩ (1 : Fin 2) * 128 + 128
    rw [e51]
    omega

/-- After the region the output array holds relu ((a · wl + x · wr) + b) of the arrays as the region finds them. -/
theorem region5 (V : (c : Dev nD) → (b : Ref sig .tc) → Buf (Elt Ideal) ((c : Thread nD τ).loc b)) (c : Dev nD) :
    (Gen.dat5 (F := Ideal) V c).arrAt 5 cfg5.N = Spec.dual 50000 (V c main_v75) (V c main_v54) (V c main_v90) (V c main_v92) (V c main_v95) :=
  (dat5 (F := Ideal) V c).arrAt_eq_of_cover 5 (Spec.dual 50000 (V c main_v75) (V c main_v54) (V c main_v90) (V c main_v92) (V c main_v95))
    (fun t _ => dual5_flushed V c t) (fun i => dual5_cover i)

end Cert.KernelIdeal.RegionValue

end
-- ==== Proof.RegionDual6.lean ====
/-
  Region 6: one mean-aggregation update, relu ((a · wl + x · wr) + b), computed tile by tile over row tiles of 10000 rows.
  First the arithmetic a grid point performs on its blocks, read at one entry; then each block entry as an entry of the
  whole arrays; then the tiles cover the output array, so that it ends holding the whole-array formula.
-/
import proofs.«103209_j60009283060024_2_alg».proof.Proof.Gen.KernelIdeal.Frame
import proofs.«103209_j60009283060024_2_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.RegionValue

open Cert.KernelIdeal Cert.KernelIdeal.Gen Idealize.ShloMosaic Idealize.ShloMosaic.TcCoe Idealize.ShloMosaic.ValueIdx Idealize.SL.Sem

/-! ## The tile product at an entry -/

/-- The left operand's row coordinate at output entry `i` is `i`'s row. -/
theorem dual6_lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column coordinate is the summation index. -/
theorem dual6_lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row coordinate is the summation index. -/
theorem dual6_rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column coordinate at output entry `i` is `i`'s column. -/
theorem dual6_rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A 10000 × 128 block times a 128 × 128 matrix, accumulated from zero, read at entry (p, q):
    the sum over the shared axis of row p of the block against column q of the matrix. -/
theorem dual6_tile_product (x : FVec Ideal S10000x128 .bf16) (w : FVec Ideal S128x128 .bf16) (p : Fin 10000) (q : Fin 128) :
    matmul dot_S10000x128_S128x128_S10000x128_1_0_0_1_n_n none x w (constant (F := Ideal) S10000x128 .f32 0x00000000#32) (ix2 p q)
      = ∑ k : Fin 128, x (ix2 p k) * w (ix2 k q) := by
  show FloatOps.matmul dot_S10000x128_S128x128_S10000x128_1_0_0_1_n_n none x w (constant (F := Ideal) S10000x128 .f32 0x00000000#32) (ix2 p q) = _
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact dual6_lhs_row _ _
    | ⟨1, _⟩ => exact (dual6_lhs_col _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (dual6_rhs_row _ _).trans hk
    | ⟨1, _⟩ => exact dual6_rhs_col _ _)
  rw [el, er]

/-! ## What a grid point stores, at an entry -/

/-- Entry (p, q) of the block a grid point stores, from its five input blocks: the rectifier of row p of the
    neighbour-mean block against column q of the left weight, plus row p of the own-feature block against column q of
    the right weight, plus the bias at q. -/
theorem dual6_stored_apply (x0 : Vec Ideal S10000x128 .f32) (x1 : Vec Ideal S10000x128 .bf16) (x2 : Vec Ideal S128x128 .f32)
    (x3 : Vec Ideal S128x128 .f32) (x4 : Vec Ideal S1x128 .f32) (p : Fin 10000) (q : Fin 128) :
    k6_pay1 (F := Ideal) x0 x1 x2 x3 x4 (ix2 p q)
      = max (((∑ k : Fin 128, x0 (ix2 p k) * x2 (ix2 k q)) + (∑ k : Fin 128, x1 (ix2 p k) * x3 (ix2 k q))) + x4 (ix2 (0 : Fin 1) q)) Spec.zero := by
  unfold k6_pay1
  simp only [shapeCast_self]
  rw [truncf_apply, maximumf_apply, addf_apply, addf_apply, dual6_tile_product, dual6_tile_product, broadcastTo_1b_ab_apply, broadcast_apply]
  rfl

/-- The same entry against whole arrays: when row p of the two row-tiled blocks is row r of the whole arrays, and the
    weight and bias blocks are the whole weights and bias, the stored entry is the whole-array formula at (r, q). -/
theorem dual6_stored_eq_spec (A X : Spec.Arr2 200000 128) (WL WR : Spec.Arr2 128 128) (B : Spec.Arr2 1 128)
    (x0 : Vec Ideal S10000x128 .f32) (x1 : Vec Ideal S10000x128 .bf16) (x2 : Vec Ideal S128x128 .f32)
    (x3 : Vec Ideal S128x128 .f32) (x4 : Vec Ideal S1x128 .f32) (r : Fin 200000) (p : Fin 10000) (q : Fin 128)
    (h0 : ∀ k : Fin 128, x0 (ix2 p k) = A (ix2 r k)) (h1 : ∀ k : Fin 128, x1 (ix2 p k) = X (ix2 r k))
    (h2 : ∀ k : Fin 128, x2 (ix2 k q) = WL (ix2 k q)) (h3 : ∀ k : Fin 128, x3 (ix2 k q) = WR (ix2 k q))
    (h4 : x4 (ix2 (0 : Fin 1) q) = B (ix2 (0 : Fin 1) q)) :
    k6_pay1 (F := Ideal) x0 x1 x2 x3 x4 (ix2 p q) = Spec.dual 200000 A X WL WR B (ix2 r q) := by
  rw [dual6_stored_apply]
  show _ = max ((Spec.rowcol A WL r q + Spec.rowcol X WR r q) + B (ix2 (0 : Fin 1) q)) Spec.zero
  unfold Spec.rowcol
  simp only [h0, h1, h2, h3, h4]

/-! ## From the blocks to the array -/

theorem dual6_origin : (![0, 0] : Fin 2 → Nat) = fun _ => 0 := funext fun a => by fin_cases a <;> rfl

/-- The windows' block indices at grid point t: the row-tiled operands and the output sit at row block t, column block 0;
    the weights and the bias at block (0, 0). -/
theorem dual6_block_index : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- What grid point t writes back is tile t of the whole-array formula of the arrays as the region finds them:
    entry (p, q) of the tile is entry (10000 t + p, q) of the array, whose row depends on the same row of the two
    row-tiled operands and on the whole weights and bias. -/
theorem dual6_flushed (V : (c : Dev nD) → (b : Ref sig .tc) → Buf (Elt Ideal) ((c : Thread nD τ).loc b)) (c : Dev nD) (t : Fin cfg6.N) :
    (dat6 (F := Ideal) V c).flushed 5 t = ((cfg6.win 5).blk t).view.read (Elt Ideal) (Spec.dual 200000 (V c main_v88) (V c main_v62) (V c main_v98) (V c main_v100) (V c main_v103)) := by
  show (cfg6.win 5).cut (grid6.coords t) ((dat6 V c).after 5 t) = _
  rw [after6_5]
  unfold out6_5
  rw [View.canon_unit_zero dual6_origin]
  simp only [View.ld_unit_zero (S := S10000x128) dual6_origin, View.ld_unit_zero (S := S128x128) dual6_origin, View.ld_unit_zero (S := S1x128) dual6_origin]
  obtain ⟨e00, e01, e10, e11, e20, e21, e30, e31, e40, e41, e50, e51⟩ := dual6_block_index t
  have ht : t.val < 20 := lt_of_lt_of_eq t.isLt N_6
  funext y
  obtain ⟨p, q, rfl⟩ : ∃ (p : Fin 10000) (q : Fin 128), y = ix2 p q := ⟨y 0, y 1, eq_ix2 y⟩
  rw [View.read_apply]
  have hr : t.val * 10000 + p.val < 200000 := by have := p.isLt; omega
  have he : ((cfg6.win 5).blk t).view.emb (ix2 p q) = ix2 (⟨t.val * 10000 + p.val, hr⟩ : Fin 200000) q := by
    funext a; apply Fin.ext
    match a with
    | ⟨0, _⟩ => show win6_5.index t (0 : Fin 2) * 10000 + 1 * p.val = t.val * 10000 + p.val; rw [e50]; omega
    | ⟨1, _⟩ => show win6_5.index t (1 : Fin 2) * 128 + 1 * q.val = q.val; rw [e51]; omega
  rw [he]
  refine dual6_stored_eq_spec _ _ _ _ _ _ _ _ _ _ (⟨t.val * 10000 + p.val, hr⟩ : Fin 200000) p q ?_ ?_ ?_ ?_ ?_
  · intro k
    show V c main_v88 (((cfg6.win 0).blk t).view.emb (ix2 p k)) = V c main_v88 (ix2 (⟨t.val * 10000 + p.val, hr⟩ : Fin 200000) k)
    refine congrArg _ (funext fun a => Fin.ext ?_)
    match a with
    | ⟨0, _⟩ => show win6_0.index t (0 : Fin 2) * 10000 + 1 * p.val = t.val * 10000 + p.val; rw [e00]; omega
    | ⟨1, _⟩ => show win6_0.index t (1 : Fin 2) * 128 + 1 * k.val = k.val; rw [e01]; omega
  · intro k
    show V c main_v62 (((cfg6.win 1).blk t).view.emb (ix2 p k)) = V c main_v62 (ix2 (⟨t.val * 10000 + p.val, hr⟩ : Fin 200000) k)
    refine congrArg _ (funext fun a => Fin.ext ?_)
    match a with
    | ⟨0, _⟩ => show win6_1.index t (0 : Fin 2) * 10000 + 1 * p.val = t.val * 10000 + p.val; rw [e10]; omega
    | ⟨1, _⟩ => show win6_1.index t (1 : Fin 2) * 128 + 1 * k.val = k.val; rw [e11]; omega
  · intro k
    show V c main_v98 (((cfg6.win 2).blk t).view.emb (ix2 k q)) = V c main_v98 (ix2 k q)
    refine congrArg _ (funext fun a => Fin.ext ?_)
    match a with
    | ⟨0, _⟩ => show win6_2.index t (0 : Fin 2) * 128 + 1 * k.val = k.val; rw [e20]; omega
    | ⟨1, _⟩ => show win6_2.index t (1 : Fin 2) * 128 + 1 * q.val = q.val; rw [e21]; omega
  · intro k
    show V c main_v100 (((cfg6.win 3).blk t).view.emb (ix2 k q)) = V c main_v100 (ix2 k q)
    refine congrArg _ (funext fun a => Fin.ext ?_)
    match a with
    | ⟨0, _⟩ => show win6_3.index t (0 : Fin 2) * 128 + 1 * k.val = k.val; rw [e30]; omega
    | ⟨1, _⟩ => show win6_3.index t (1 : Fin 2) * 128 + 1 * q.val = q.val; rw [e31]; omega
  · show V c main_v103 (((cfg6.win 4).blk t).view.emb (ix2 (0 : Fin 1) q)) = V c main_v103 (ix2 (0 : Fin 1) q)
    refine congrArg _ (funext fun a => Fin.ext ?_)
    match a with
    | ⟨0, _⟩ => show win6_4.index t (0 : Fin 2) * 1 + 1 * (0 : Fin 1).val = (0 : Fin 1).val; rw [e40]; rfl
    | ⟨1, _⟩ => show win6_4.index t (1 : Fin 2) * 128 + 1 * q.val = q.val; rw [e41]; omega

/-- An entry of the output array lies in grid point t's tile iff each coordinate lies in the tile's range on its axis. -/
theorem dual6_mem_tile (t : Fin cfg6.N) (i : S200000x128.Idx) :
    i ∈ ((cfg6.win 5).blk t).view.set ↔ ∀ a : Fin 2, win6_5.index t a * S10000x128.size a ≤ (i a).val ∧ (i a).val < win6_5.index t a * S10000x128.size a + S10000x128.size a := by
  show i ∈ ((View.whole main_v104).slice (win6_5.rect t)).set ↔ _
  rw [View.set_slice_whole, Rect.mem_set_unit]
  exact Iff.rfl

/-- The tiles cover the output array: row r lies in the tile of grid point r / 10000. -/
theorem dual6_cover (i : S200000x128.Idx) :
    ∃ t : Fin cfg6.N, (cfg6.win 5).flush t = true ∧ i ∈ ((cfg6.win 5).blk t).view.set := by
  have h0 : (i 0).val < 200000 := (i 0).isLt
  have h1 : (i 1).val < 128 := (i 1).isLt
  have hN : cfg6.N = 20 := N_6
  have hq : (i 0).val / 10000 < cfg6.N := by rw [hN]; omega
  obtain ⟨-, -, -, -, -, -, -, -, -, -, e50, e51⟩ := dual6_block_index ⟨(i 0).val / 10000, hq⟩
  refine ⟨⟨(i 0).val / 10000, hq⟩, flush6_5 _, ?_⟩
  rw [dual6_mem_tile]
  intro a
  match a with
  | ⟨0, _⟩ =>
    show win6_5.index ⟨(i 0).val / 10000, hq⟩ (0 : Fin 2) * 10000 ≤ (i 0).val ∧ (i 0).val < win6_5.index ⟨(i 0).val / 10000, hq⟩ (0 : Fin 2) * 10000 + 10000
    rw [e50]
    show (i 0).val / 10000 * 10000 ≤ (i 0).val ∧ (i 0).val < (i 0).val / 10000 * 10000 + 10000
    omega
  | ⟨1, _⟩ =>
    show win6_5.index ⟨(i 0).val / 10000, hq⟩ (1 : Fin 2) * 128 ≤ (i 1).val ∧ (i 1).val < win6_5.index ⟨(i 0).val / 10000, hq⟩ (1 : Fin 2) * 128 + 128
    rw [e51]
    omega

/-- After the region the output array holds relu ((a · wl + x · wr) + b) of the arrays as the region finds them. -/
theorem region6 (V : (c : Dev nD) → (b : Ref sig .tc) → Buf (Elt Ideal) ((c : Thread nD τ).loc b)) (c : Dev nD) :
    (Gen.dat6 (F := Ideal) V c).arrAt 5 cfg6.N = Spec.dual 200000 (V c main_v88) (V c main_v62) (V c main_v98) (V c main_v100) (V c main_v103) :=
  (dat6 (F := Ideal) V c).arrAt_eq_of_cover 5 (Spec.dual 200000 (V c main_v88) (V c main_v62) (V c main_v98) (V c main_v100) (V c main_v103))
    (fun t _ => dual6_flushed V c t) (fun i => dual6_cover i)

end Cert.KernelIdeal.RegionValue

end
-- ==== Proof.ChainC.lean ====
/-
  The kernel's buffers through the second mean-aggregation layer: the same stretch and the same two updates as in the
  first layer, now on the first layer's outputs.  This side reuses the clamped degrees computed before the first layer;
  the reference computes them again from the same endpoint vectors: the same value, by unfolding both.
-/
import proofs.«103209_j60009283060024_2_alg».proof.Proof.Gen.KernelIdeal.Frame
import proofs.«103209_j60009283060024_2_alg».proof.Proof.Gen.ReferenceIdeal.Read
import proofs.«103209_j60009283060024_2_alg».proof.Proof.Spec
import proofs.«103209_j60009283060024_2_alg».proof.Proof.LayoutEq
import proofs.«103209_j60009283060024_2_alg».proof.Proof.ChainB
import proofs.«103209_j60009283060024_2_alg».proof.Proof.RegionDual5
import proofs.«103209_j60009283060024_2_alg».proof.Proof.RegionDual6
import proofs.«103209_j60009283060024_2_alg».proof.Proof.RefDual

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The stretch before the second layer -/

theorem W11_v75 : W11 m ρ c (Proc.devRef .tc main_v75) = Cert.ReferenceIdeal.Read.val_main_v98 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg12)) (m ((c : Thread nD τ).loc main_arg13)) (m ((c : Thread nD τ).loc main_arg14)) (m ((c : Thread nD τ).loc main_arg19)) := by
  show StableHlo.after hostOps5 (W10 m ρ c) (Proc.devRef .tc main_v75) = _
  after_results_simp
  rw [W10_v3 m ρ c, W10_v62 m ρ c, W10_v1 m ρ c, W10_v15 m ρ c]
  simp only [Cert.LayoutEq.extf_id]
  rfl
theorem W11_v88 : W11 m ρ c (Proc.devRef .tc main_v88) = Cert.ReferenceIdeal.Read.val_main_v128 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg19)) := by
  show StableHlo.after hostOps5 (W10 m ρ c) (Proc.devRef .tc main_v88) = _
  after_results_simp
  rw [W10_v1 m ρ c, W10_v54 m ρ c, W10_v3 m ρ c, W10_v20 m ρ c]
  simp only [Cert.LayoutEq.extf_id]
  rfl
theorem W11_v90 : W11 m ρ c (Proc.devRef .tc main_v90) = Cert.ReferenceIdeal.Read.val_main_v100 (F := Ideal) (m ((c : Thread nD τ).loc main_arg9)) := by
  show StableHlo.after hostOps5 (W10 m ρ c) (Proc.devRef .tc main_v90) = _
  after_results_simp
  rw [W10_arg9 m ρ c]
  rfl
theorem W11_v92 : W11 m ρ c (Proc.devRef .tc main_v92) = Cert.ReferenceIdeal.Read.val_main_v108 (F := Ideal) (m ((c : Thread nD τ).loc main_arg11)) := by
  show StableHlo.after hostOps5 (W10 m ρ c) (Proc.devRef .tc main_v92) = _
  after_results_simp
  rw [W10_arg11 m ρ c]
  rfl
theorem W11_v95 : W11 m ρ c (Proc.devRef .tc main_v95) = Cert.ReferenceIdeal.Read.val_main_v104 (F := Ideal) (m ((c : Thread nD τ).loc main_arg10)) := by
  show StableHlo.after hostOps5 (W10 m ρ c) (Proc.devRef .tc main_v95) = _
  after_results_simp
  rw [W10_arg10 m ρ c]
  exact Cert.LayoutEq.row_reshape_eq_bcast 128 _ _ _
theorem W11_v54 : W11 m ρ c (Proc.devRef .tc main_v54) = Cert.ReferenceIdeal.Read.val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg19)) := by
  show StableHlo.after hostOps5 (W10 m ρ c) (Proc.devRef .tc main_v54) = _
  after_results_simp
  exact W10_v54 m ρ c

/-! ## The merchants' update, layer two -/

theorem W12_v96 : W12 m ρ c (Proc.devRef .tc main_v96) = Cert.ReferenceIdeal.Read.val_main_v142 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) := by
  refine (W12_arr m ρ c 5).trans ?_
  rw [Cert.KernelIdeal.RegionValue.region5 (V11 m ρ) c]
  rw [show V11 m ρ c main_v75 = _ from W11_v75 m ρ c,
    show V11 m ρ c main_v54 = _ from W11_v54 m ρ c,
    show V11 m ρ c main_v90 = _ from W11_v90 m ρ c,
    show V11 m ρ c main_v92 = _ from W11_v92 m ρ c,
    show V11 m ρ c main_v95 = _ from W11_v95 m ρ c]
  exact (Cert.ReferenceIdeal.StageValue.stage_v142 _ _ _ _ _ _ _ _ _ _ _ _ _).symm

/-! ## The users' update, layer two -/

theorem W12_arg12 : W12 m ρ c (Proc.devRef .tc main_arg12) = m ((c : Thread nD τ).loc main_arg12) := by
  rw [W12_of_ne m ρ c main_arg12 (by decide)]
  show StableHlo.after hostOps5 (W10 m ρ c) (Proc.devRef .tc main_arg12) = _
  after_results_simp
  rw [W10_of_ne m ρ c main_arg12 (by decide)]
  show StableHlo.after hostOps4 (W8 m ρ c) (Proc.devRef .tc main_arg12) = _
  after_results_simp
  exact W8_arg12 m ρ c
theorem W12_arg13 : W12 m ρ c (Proc.devRef .tc main_arg13) = m ((c : Thread nD τ).loc main_arg13) := by
  rw [W12_of_ne m ρ c main_arg13 (by decide)]
  show StableHlo.after hostOps5 (W10 m ρ c) (Proc.devRef .tc main_arg13) = _
  after_results_simp
  rw [W10_of_ne m ρ c main_arg13 (by decide)]
  show StableHlo.after hostOps4 (W8 m ρ c) (Proc.devRef .tc main_arg13) = _
  after_results_simp
  exact W8_arg13 m ρ c
theorem W12_arg14 : W12 m ρ c (Proc.devRef .tc main_arg14) = m ((c : Thread nD τ).loc main_arg14) := by
  rw [W12_of_ne m ρ c main_arg14 (by decide)]
  show StableHlo.after hostOps5 (W10 m ρ c) (Proc.devRef .tc main_arg14) = _
  after_results_simp
  rw [W10_of_ne m ρ c main_arg14 (by decide)]
  show StableHlo.after hostOps4 (W8 m ρ c) (Proc.devRef .tc main_arg14) = _
  after_results_simp
  exact W8_arg14 m ρ c
theorem W13_v98 : W13 m ρ c (Proc.devRef .tc main_v98) = Cert.ReferenceIdeal.Read.val_main_v130 (F := Ideal) (m ((c : Thread nD τ).loc main_arg12)) := by
  show StableHlo.after hostOps6 (W12 m ρ c) (Proc.devRef .tc main_v98) = _
  after_results_simp
  rw [W12_arg12 m ρ c]
  rfl
theorem W13_v100 : W13 m ρ c (Proc.devRef .tc main_v100) = Cert.ReferenceIdeal.Read.val_main_v138 (F := Ideal) (m ((c : Thread nD τ).loc main_arg14)) := by
  show StableHlo.after hostOps6 (W12 m ρ c) (Proc.devRef .tc main_v100) = _
  after_results_simp
  rw [W12_arg14 m ρ c]
  rfl
theorem W13_v103 : W13 m ρ c (Proc.devRef .tc main_v103) = Cert.ReferenceIdeal.Read.val_main_v134 (F := Ideal) (m ((c : Thread nD τ).loc main_arg13)) := by
  show StableHlo.after hostOps6 (W12 m ρ c) (Proc.devRef .tc main_v103) = _
  after_results_simp
  rw [W12_arg13 m ρ c]
  exact Cert.LayoutEq.row_reshape_eq_bcast 128 _ _ _
theorem W13_v88 : W13 m ρ c (Proc.devRef .tc main_v88) = Cert.ReferenceIdeal.Read.val_main_v128 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg19)) := by
  show StableHlo.after hostOps6 (W12 m ρ c) (Proc.devRef .tc main_v88) = _
  after_results_simp
  rw [W12_of_ne m ρ c main_v88 (by decide)]
  exact W11_v88 m ρ c
theorem W13_v62 : W13 m ρ c (Proc.devRef .tc main_v62) = Cert.ReferenceIdeal.Read.val_main_v79 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg12)) (m ((c : Thread nD τ).loc main_arg13)) (m ((c : Thread nD τ).loc main_arg14)) (m ((c : Thread nD τ).loc main_arg19)) := by
  show StableHlo.after hostOps6 (W12 m ρ c) (Proc.devRef .tc main_v62) = _
  after_results_simp
  rw [W12_of_ne m ρ c main_v62 (by decide)]
  show StableHlo.after hostOps5 (W10 m ρ c) (Proc.devRef .tc main_v62) = _
  after_results_simp
  exact W10_v62 m ρ c
theorem W14_v104 : W14 m ρ c (Proc.devRef .tc main_v104) = Cert.ReferenceIdeal.Read.val_main_v141 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) := by
  refine (W14_arr m ρ c 5).trans ?_
  rw [Cert.KernelIdeal.RegionValue.region6 (V13 m ρ) c]
  rw [show V13 m ρ c main_v88 = _ from W13_v88 m ρ c,
    show V13 m ρ c main_v62 = _ from W13_v62 m ρ c,
    show V13 m ρ c main_v98 = _ from W13_v98 m ρ c,
    show V13 m ρ c main_v100 = _ from W13_v100 m ρ c,
    show V13 m ρ c main_v103 = _ from W13_v103 m ρ c]
  exact (Cert.ReferenceIdeal.StageValue.stage_v141 _ _ _ _ _ _ _ _ _ _ _ _ _).symm

/-! ## What the last stretch reads, carried to its boundary -/

theorem W14_v1 : W14 m ρ c (Proc.devRef .tc main_v1) = Cert.ReferenceIdeal.Read.val_main_v1 (F := Ideal) (m ((c : Thread nD τ).loc main_arg19)) := by
  rw [W14_of_ne m ρ c main_v1 (by decide)]
  show StableHlo.after hostOps6 (W12 m ρ c) (Proc.devRef .tc main_v1) = _
  after_results_simp
  rw [W12_of_ne m ρ c main_v1 (by decide)]
  show StableHlo.after hostOps5 (W10 m ρ c) (Proc.devRef .tc main_v1) = _
  after_results_simp
  exact W10_v1 m ρ c
theorem W14_v3 : W14 m ρ c (Proc.devRef .tc main_v3) = Cert.ReferenceIdeal.Read.val_main_v3 (F := Ideal) (m ((c : Thread nD τ).loc main_arg19)) := by
  rw [W14_of_ne m ρ c main_v3 (by decide)]
  show StableHlo.after hostOps6 (W12 m ρ c) (Proc.devRef .tc main_v3) = _
  after_results_simp
  rw [W12_of_ne m ρ c main_v3 (by decide)]
  show StableHlo.after hostOps5 (W10 m ρ c) (Proc.devRef .tc main_v3) = _
  after_results_simp
  exact W10_v3 m ρ c
theorem W14_v96 : W14 m ρ c (Proc.devRef .tc main_v96) = Cert.ReferenceIdeal.Read.val_main_v142 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) := by
  rw [W14_of_ne m ρ c main_v96 (by decide)]
  show StableHlo.after hostOps6 (W12 m ρ c) (Proc.devRef .tc main_v96) = _
  after_results_simp
  exact W12_v96 m ρ c
theorem W14_v9 : W14 m ρ c (Proc.devRef .tc main_v9) = Cert.ReferenceIdeal.Read.val_main_v18 (F := Ideal) (m ((c : Thread nD τ).loc main_arg2)) (m ((c : Thread nD τ).loc main_arg7)) (m ((c : Thread nD τ).loc main_arg8)) := by
  rw [W14_of_ne m ρ c main_v9 (by decide)]
  show StableHlo.after hostOps6 (W12 m ρ c) (Proc.devRef .tc main_v9) = _
  after_results_simp
  rw [W12_of_ne m ρ c main_v9 (by decide)]
  show StableHlo.after hostOps5 (W10 m ρ c) (Proc.devRef .tc main_v9) = _
  after_results_simp
  exact W10_v9 m ρ c
theorem W14_arg15 : W14 m ρ c (Proc.devRef .tc main_arg15) = m ((c : Thread nD τ).loc main_arg15) := by
  rw [W14_of_ne m ρ c main_arg15 (by decide)]
  show StableHlo.after hostOps6 (W12 m ρ c) (Proc.devRef .tc main_arg15) = _
  after_results_simp
  rw [W12_of_ne m ρ c main_arg15 (by decide)]
  show StableHlo.after hostOps5 (W10 m ρ c) (Proc.devRef .tc main_arg15) = _
  after_results_simp
  rw [W10_of_ne m ρ c main_arg15 (by decide)]
  show StableHlo.after hostOps4 (W8 m ρ c) (Proc.devRef .tc main_arg15) = _
  after_results_simp
  rw [W8_of_ne m ρ c main_arg15 (by decide)]
  show StableHlo.after hostOps3 (W6 m ρ c) (Proc.devRef .tc main_arg15) = _
  after_results_simp
  rw [W6_of_ne m ρ c main_arg15 (by decide)]
  show StableHlo.after hostOps2 (W4 m ρ c) (Proc.devRef .tc main_arg15) = _
  after_results_simp
  rw [W4_of_ne m ρ c main_arg15 (by decide)]
  show StableHlo.after hostOps1 (W2 m ρ c) (Proc.devRef .tc main_arg15) = _
  after_results_simp
  rw [W2_of_ne m ρ c main_arg15 (by decide)]
  show StableHlo.after hostOps0 (W0 m ρ c) (Proc.devRef .tc main_arg15) = _
  after_results_simp
theorem W14_arg16 : W14 m ρ c (Proc.devRef .tc main_arg16) = m ((c : Thread nD τ).loc main_arg16) := by
  rw [W14_of_ne m ρ c main_arg16 (by decide)]
  show StableHlo.after hostOps6 (W12 m ρ c) (Proc.devRef .tc main_arg16) = _
  after_results_simp
  rw [W12_of_ne m ρ c main_arg16 (by decide)]
  show StableHlo.after hostOps5 (W10 m ρ c) (Proc.devRef .tc main_arg16) = _
  after_results_simp
  rw [W10_of_ne m ρ c main_arg16 (by decide)]
  show StableHlo.after hostOps4 (W8 m ρ c) (Proc.devRef .tc main_arg16) = _
  after_results_simp
  rw [W8_of_ne m ρ c main_arg16 (by decide)]
  show StableHlo.after hostOps3 (W6 m ρ c) (Proc.devRef .tc main_arg16) = _
  after_results_simp
  rw [W6_of_ne m ρ c main_arg16 (by decide)]
  show StableHlo.after hostOps2 (W4 m ρ c) (Proc.devRef .tc main_arg16) = _
  after_results_simp
  rw [W4_of_ne m ρ c main_arg16 (by decide)]
  show StableHlo.after hostOps1 (W2 m ρ c) (Proc.devRef .tc main_arg16) = _
  after_results_simp
  rw [W2_of_ne m ρ c main_arg16 (by decide)]
  show StableHlo.after hostOps0 (W0 m ρ c) (Proc.devRef .tc main_arg16) = _
  after_results_simp
theorem W14_arg17 : W14 m ρ c (Proc.devRef .tc main_arg17) = m ((c : Thread nD τ).loc main_arg17) := by
  rw [W14_of_ne m ρ c main_arg17 (by decide)]
  show StableHlo.after hostOps6 (W12 m ρ c) (Proc.devRef .tc main_arg17) = _
  after_results_simp
  rw [W12_of_ne m ρ c main_arg17 (by decide)]
  show StableHlo.after hostOps5 (W10 m ρ c) (Proc.devRef .tc main_arg17) = _
  after_results_simp
  rw [W10_of_ne m ρ c main_arg17 (by decide)]
  show StableHlo.after hostOps4 (W8 m ρ c) (Proc.devRef .tc main_arg17) = _
  after_results_simp
  rw [W8_of_ne m ρ c main_arg17 (by decide)]
  show StableHlo.after hostOps3 (W6 m ρ c) (Proc.devRef .tc main_arg17) = _
  after_results_simp
  rw [W6_of_ne m ρ c main_arg17 (by decide)]
  show StableHlo.after hostOps2 (W4 m ρ c) (Proc.devRef .tc main_arg17) = _
  after_results_simp
  rw [W4_of_ne m ρ c main_arg17 (by decide)]
  show StableHlo.after hostOps1 (W2 m ρ c) (Proc.devRef .tc main_arg17) = _
  after_results_simp
  rw [W2_of_ne m ρ c main_arg17 (by decide)]
  show StableHlo.after hostOps0 (W0 m ρ c) (Proc.devRef .tc main_arg17) = _
  after_results_simp
theorem W14_arg18 : W14 m ρ c (Proc.devRef .tc main_arg18) = m ((c : Thread nD τ).loc main_arg18) := by
  rw [W14_of_ne m ρ c main_arg18 (by decide)]
  show StableHlo.after hostOps6 (W12 m ρ c) (Proc.devRef .tc main_arg18) = _
  after_results_simp
  rw [W12_of_ne m ρ c main_arg18 (by decide)]
  show StableHlo.after hostOps5 (W10 m ρ c) (Proc.devRef .tc main_arg18) = _
  after_results_simp
  rw [W10_of_ne m ρ c main_arg18 (by decide)]
  show StableHlo.after hostOps4 (W8 m ρ c) (Proc.devRef .tc main_arg18) = _
  after_results_simp
  rw [W8_of_ne m ρ c main_arg18 (by decide)]
  show StableHlo.after hostOps3 (W6 m ρ c) (Proc.devRef .tc main_arg18) = _
  after_results_simp
  rw [W6_of_ne m ρ c main_arg18 (by decide)]
  show StableHlo.after hostOps2 (W4 m ρ c) (Proc.devRef .tc main_arg18) = _
  after_results_simp
  rw [W4_of_ne m ρ c main_arg18 (by decide)]
  show StableHlo.after hostOps1 (W2 m ρ c) (Proc.devRef .tc main_arg18) = _
  after_results_simp
  rw [W2_of_ne m ρ c main_arg18 (by decide)]
  show StableHlo.after hostOps0 (W0 m ρ c) (Proc.devRef .tc main_arg18) = _
  after_results_simp

end Cert.KernelIdeal.Chain

end
-- ==== Proof.RegionFinalPay.lean ====
/-
  The edge classifier's block arithmetic, read entry by entry over the extended reals.

  One grid point holds a tile of 10000 edges: three feature tiles gu, gm, e (10000 × 128), the three 128 × 128 slabs
  wa, wb, wc of the first layer's weight, its one-row bias b1, the one-row second-layer weight w2 and the 1 × 1 bias b2.
  The tile's result at row p (its single column q) is

      ∑ j, max (((∑ k, gu p k · wa k j) + (∑ k, gm p k · wb k j)) + (∑ k, e p k · wc k j) + b1 0 j) 0 · w2 0 j   +   b2 0 0 :

  entry (p, j) of the hidden layer depends on row p of the three feature tiles and column j of the three slabs only,
  and the result's row p on row p of the hidden layer only. Changes of float format are the identity on extended reals, and a
  product accumulated into the zero tile is the plain sum of products.
-/
import proofs.«103209_j60009283060024_2_alg».proof.Proof.Gen.KernelIdeal.Frame
import proofs.«103209_j60009283060024_2_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.RegionValue

open Cert.KernelIdeal Cert.KernelIdeal.Gen Idealize.ShloMosaic Idealize.ShloMosaic.TcCoe Idealize.ShloMosaic.ValueIdx Idealize.SL.Sem

/-! ## A 10000 × 128 tile against a 128 × 128 slab -/

/-- The left operand's row coordinate is the output's row. -/
theorem final_lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

/-- The right operand's column coordinate is the output's column. -/
theorem final_rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product of a tile and a slab accumulated into the zero tile: entry (p, q) is row p of the tile against column q of the slab. -/
theorem final_matmul_apply (x : FVec Ideal S10000x128 .bf16) (w : FVec Ideal S128x128 .bf16) (p : Fin 10000) (q : Fin 128) :
    matmul dot_S10000x128_S128x128_S10000x128_1_0_0_1_n_n none x w (constant (F := Ideal) S10000x128 .f32 0x00000000#32) (ix2 p q)
      = ∑ k : Fin 128, x (ix2 p k) * w (ix2 k q) := by
  refine (Ideal.matmul_constant_zero_apply dot_S10000x128_S128x128_S10000x128_1_0_0_1_n_n none x w (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact final_lhs_row _ _
    | ⟨1, _⟩ => exact (dot_S10000x128_S128x128_S10000x128_1_0_0_1_n_n.lhsIdx_val_of_single rfl _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (dot_S10000x128_S128x128_S10000x128_1_0_0_1_n_n.rhsIdx_val_of_single rfl _ _).trans hk
    | ⟨1, _⟩ => exact final_rhs_col _ _)
  rw [el, er]

/-! ## The lane sum, the column cast and the scalar bias -/

/-- The sum over the 128 lanes of a tile, at row r. -/
theorem final_lanesum_apply (v : FVec Ideal S10000x128 .f32) (r : Fin 10000) :
    multiReduction (F := Ideal) .add [1] S10000 v 0x00000000#32 reduces_S10000x128_S10000 (.inl rfl) rfl (ix1 r)
      = ∑ k : Fin 128, v (ix2 r k) := by
  refine (Ideal.multiReduction_add_single v 0x00000000#32 reduces_S10000x128_S10000 (.inl rfl) rfl (ix1 r)).trans ?_
  refine Finset.sum_congr rfl fun k _ => congrArg v ?_
  funext a
  apply Fin.ext
  match a with
  | ⟨0, _⟩ => rfl
  | ⟨1, _⟩ => rfl

/-- A length-10000 vector laid out as a 10000 × 1 column reads, at (p, q), the vector at p. -/
theorem final_column_apply (v : FVec Ideal S10000 .f32) (p : Fin 10000) (q : Fin 1) :
    shapeCast S10000x1 v shapeCasts_S10000_S10000x1 (ix2 p q) = v (ix1 p) :=
  shapeCast_apply v shapeCasts_S10000_S10000x1 _ _ (by
    have hq : q.val = 0 := by omega
    rw [Shape.rowMajor_val_two, Shape.rowMajor_val_one]
    show p.val = p.val * 1 + q.val
    rw [hq, Nat.mul_one, Nat.add_zero])

/-- The 1 × 1 bias spread over the column reads its one entry everywhere. -/
theorem final_scalar_apply (v : FVec Ideal S1x1 .f32) (p : Fin 10000) (q : Fin 1) :
    broadcastTo S10000x1 v broadcasts_S1x1_S10000x1 (ix2 p q) = v (ix2 (0 : Fin 1) (0 : Fin 1)) := by
  have hq : q = 0 := Subsingleton.elim _ _
  subst hq
  exact broadcastTo_1b_ab_apply v broadcasts_S1x1_S10000x1 p (0 : Fin 1)

/-! ## The tile's result at an entry -/

/-- The hidden layer of the tile at (p, j), of the nine blocks. -/
def tileHidden (x0 x1 x2 : Vec Ideal S10000x128 .bf16) (x3 x4 x5 : Vec Ideal S128x128 .f32) (x6 : Vec Ideal S1x128 .f32)
    (p : Fin 10000) (j : Fin 128) : EReal :=
  max ((((∑ k : Fin 128, x0 (ix2 p k) * x3 (ix2 k j)) + ∑ k : Fin 128, x1 (ix2 p k) * x4 (ix2 k j))
      + ∑ k : Fin 128, x2 (ix2 p k) * x5 (ix2 k j)) + x6 (ix2 (0 : Fin 1) j)) Spec.zero

/-- The body's arithmetic at entry (p, q) of the tile: the hidden layer's row p against the one-row weight, plus the scalar bias. -/
theorem final_pay_apply (x0 x1 x2 : Vec Ideal S10000x128 .bf16) (x3 x4 x5 : Vec Ideal S128x128 .f32)
    (x6 x7 : Vec Ideal S1x128 .f32) (x8 : Vec Ideal S1x1 .f32) (p : Fin 10000) (q : Fin 1) :
    Gen.k7_pay1 (F := Ideal) x0 x1 x2 x3 x4 x5 x6 x7 x8 (ix2 p q)
      = (∑ j : Fin 128, tileHidden x0 x1 x2 x3 x4 x5 x6 p j * x7 (ix2 (0 : Fin 1) j)) + x8 (ix2 (0 : Fin 1) (0 : Fin 1)) := by
  unfold Gen.k7_pay1
  simp only [shapeCast_self]
  refine (addf_apply _ _ _).trans ?_
  rw [final_column_apply, final_scalar_apply, final_lanesum_apply]
  refine congrArg (· + x8 (ix2 (0 : Fin 1) (0 : Fin 1))) (Finset.sum_congr rfl fun j _ => ?_)
  refine (mulf_apply _ _ _).trans ?_
  rw [broadcastTo_1b_ab_apply]
  refine congrArg (· * x7 (ix2 (0 : Fin 1) j)) ?_
  refine (maximumf_apply _ _ _).trans ?_
  unfold tileHidden
  refine congrArg₂ max ?_ rfl
  refine (addf_apply _ _ _).trans ?_
  rw [broadcastTo_1b_ab_apply]
  refine congrArg (· + x6 (ix2 (0 : Fin 1) j)) ?_
  refine (addf_apply _ _ _).trans ?_
  refine congrArg₂ (· + ·) ?_ (final_matmul_apply _ _ p j)
  refine (addf_apply _ _ _).trans ?_
  exact congrArg₂ (· + ·) (final_matmul_apply _ _ p j) (final_matmul_apply _ _ p j)

end Cert.KernelIdeal.RegionValue

end
-- ==== Proof.RegionFinal.lean ====
/-
  The edge classifier's region, from row tiles to the whole result array.

  The region runs over 60 grid points. Point t holds rows 10000 t … 10000 t + 9999 of the three 600000 × 128 feature arrays
  and the whole of the three 128 × 128 weight slabs, the two one-row arrays and the 1 × 1 bias, and writes back rows
  10000 t … 10000 t + 9999 of the 600000 × 1 result. Row p of the tile at point t is row 10000 t + p of each feature array,
  so the tile's result at row p is the classifier's result at row 10000 t + p; the 60 row ranges cover the 600000 rows
  (row r lies in the range of point r / 10000), so the result array ends holding the classifier's result everywhere.
-/
import proofs.«103209_j60009283060024_2_alg».proof.Proof.RegionFinalPay

noncomputable section

namespace Cert.KernelIdeal.RegionValue

open Cert.KernelIdeal Cert.KernelIdeal.Gen Idealize.ShloMosaic Idealize.ShloMosaic.TcCoe Idealize.ShloMosaic.ValueIdx Idealize.SL.Sem

/-! ## The tile's result is the classifier's rows -/

/-- If row p of the three feature tiles is row i of the three feature arrays, and the weight and bias blocks are the
    whole weight and bias arrays, the tile's result at row p is the classifier's result at row i. -/
theorem final_tile_eq (x0 x1 x2 : Vec Ideal S10000x128 .bf16) (x3 x4 x5 : Vec Ideal S128x128 .f32)
    (x6 x7 : Vec Ideal S1x128 .f32) (x8 : Vec Ideal S1x1 .f32)
    (gu gm e : Spec.Arr2 600000 128) (wa wb wc : Spec.Arr2 128 128) (b1 w2 : Spec.Arr2 1 128) (b2 : Spec.Arr2 1 1)
    (p : Fin 10000) (q : Fin 1) (i : Fin 600000) (q' : Fin 1)
    (h0 : ∀ k : Fin 128, x0 (ix2 p k) = gu (ix2 i k)) (h1 : ∀ k : Fin 128, x1 (ix2 p k) = gm (ix2 i k))
    (h2 : ∀ k : Fin 128, x2 (ix2 p k) = e (ix2 i k))
    (h3 : ∀ k j : Fin 128, x3 (ix2 k j) = wa (ix2 k j)) (h4 : ∀ k j : Fin 128, x4 (ix2 k j) = wb (ix2 k j))
    (h5 : ∀ k j : Fin 128, x5 (ix2 k j) = wc (ix2 k j))
    (h6 : ∀ j : Fin 128, x6 (ix2 (0 : Fin 1) j) = b1 (ix2 (0 : Fin 1) j))
    (h7 : ∀ j : Fin 128, x7 (ix2 (0 : Fin 1) j) = w2 (ix2 (0 : Fin 1) j))
    (h8 : x8 (ix2 (0 : Fin 1) (0 : Fin 1)) = b2 (ix2 (0 : Fin 1) (0 : Fin 1))) :
    Gen.k7_pay1 (F := Ideal) x0 x1 x2 x3 x4 x5 x6 x7 x8 (ix2 p q)
      = Spec.final 600000 gu gm e wa wb wc b1 w2 b2 (ix2 i q') := by
  rw [final_pay_apply]
  unfold tileHidden Spec.final Spec.hidden Spec.rowcol
  simp only [h0, h1, h2, h3, h4, h5, h6, h7, h8]

/-! ## The windows' block indices over the 60 grid points

The three feature windows and the result window are at block row t, block column 0 at point t; the weight and bias
windows stay at block (0, 0). -/

theorem final_idx_0 : ∀ t : Fin cfg7.N, win7_0.index t (0 : Fin 2) = t.val ∧ win7_0.index t (1 : Fin 2) = 0 :=
  (by decide +kernel : ∀ t : Fin grid7.N, _)

theorem final_idx_1 : ∀ t : Fin cfg7.N, win7_1.index t (0 : Fin 2) = t.val ∧ win7_1.index t (1 : Fin 2) = 0 :=
  (by decide +kernel : ∀ t : Fin grid7.N, _)

theorem final_idx_2 : ∀ t : Fin cfg7.N, win7_2.index t (0 : Fin 2) = t.val ∧ win7_2.index t (1 : Fin 2) = 0 :=
  (by decide +kernel : ∀ t : Fin grid7.N, _)

theorem final_idx_9 : ∀ t : Fin cfg7.N, win7_9.index t (0 : Fin 2) = t.val ∧ win7_9.index t (1 : Fin 2) = 0 :=
  (by decide +kernel : ∀ t : Fin grid7.N, _)

theorem final_idx_3 : ∀ t : Fin cfg7.N, win7_3.index t (0 : Fin 2) = 0 ∧ win7_3.index t (1 : Fin 2) = 0 :=
  (by decide +kernel : ∀ t : Fin grid7.N, _)

theorem final_idx_4 : ∀ t : Fin cfg7.N, win7_4.index t (0 : Fin 2) = 0 ∧ win7_4.index t (1 : Fin 2) = 0 :=
  (by decide +kernel : ∀ t : Fin grid7.N, _)

theorem final_idx_5 : ∀ t : Fin cfg7.N, win7_5.index t (0 : Fin 2) = 0 ∧ win7_5.index t (1 : Fin 2) = 0 :=
  (by decide +kernel : ∀ t : Fin grid7.N, _)

theorem final_idx_6 : ∀ t : Fin cfg7.N, win7_6.index t (0 : Fin 2) = 0 ∧ win7_6.index t (1 : Fin 2) = 0 :=
  (by decide +kernel : ∀ t : Fin grid7.N, _)

theorem final_idx_7 : ∀ t : Fin cfg7.N, win7_7.index t (0 : Fin 2) = 0 ∧ win7_7.index t (1 : Fin 2) = 0 :=
  (by decide +kernel : ∀ t : Fin grid7.N, _)

theorem final_idx_8 : ∀ t : Fin cfg7.N, win7_8.index t (0 : Fin 2) = 0 ∧ win7_8.index t (1 : Fin 2) = 0 :=
  (by decide +kernel : ∀ t : Fin grid7.N, _)

/-! ## Each window's block as entries of its array

A block's coordinate on an axis is block index × block extent + 1 × the coordinate inside the block. -/

/-- Row p of feature window 0's block at point t is row 10000 t + p of its array. -/
theorem final_blk_0 (V : (c : Dev nD) → (b : Ref sig .tc) → Buf (Elt Ideal) ((c : Thread nD τ).loc b)) (c : Dev nD) (t : Fin cfg7.N)
    (p : Fin 10000) (k : Fin 128) (i : Fin 600000) (hi : i.val = t.val * 10000 + p.val) :
    Gen.iblk7 V c 0 t (ix2 p k) = V c main_v111 (ix2 i k) := by
  obtain ⟨e0, e1⟩ := final_idx_0 t
  unfold Gen.iblk7
  show V c main_v111 (((cfg7.win 0).blk t).view.emb (ix2 p k)) = _
  refine congrArg (V c main_v111) (funext fun a => Fin.ext ?_)
  match a with
  | ⟨0, _⟩ => show win7_0.index t (0 : Fin 2) * 10000 + 1 * p.val = i.val; omega
  | ⟨1, _⟩ => show win7_0.index t (1 : Fin 2) * 128 + 1 * k.val = k.val; omega

/-- Row p of feature window 1's block at point t is row 10000 t + p of its array. -/
theorem final_blk_1 (V : (c : Dev nD) → (b : Ref sig .tc) → Buf (Elt Ideal) ((c : Thread nD τ).loc b)) (c : Dev nD) (t : Fin cfg7.N)
    (p : Fin 10000) (k : Fin 128) (i : Fin 600000) (hi : i.val = t.val * 10000 + p.val) :
    Gen.iblk7 V c 1 t (ix2 p k) = V c main_v118 (ix2 i k) := by
  obtain ⟨e0, e1⟩ := final_idx_1 t
  unfold Gen.iblk7
  show V c main_v118 (((cfg7.win 1).blk t).view.emb (ix2 p k)) = _
  refine congrArg (V c main_v118) (funext fun a => Fin.ext ?_)
  match a with
  | ⟨0, _⟩ => show win7_1.index t (0 : Fin 2) * 10000 + 1 * p.val = i.val; omega
  | ⟨1, _⟩ => show win7_1.index t (1 : Fin 2) * 128 + 1 * k.val = k.val; omega

/-- Row p of feature window 2's block at point t is row 10000 t + p of its array. -/
theorem final_blk_2 (V : (c : Dev nD) → (b : Ref sig .tc) → Buf (Elt Ideal) ((c : Thread nD τ).loc b)) (c : Dev nD) (t : Fin cfg7.N)
    (p : Fin 10000) (k : Fin 128) (i : Fin 600000) (hi : i.val = t.val * 10000 + p.val) :
    Gen.iblk7 V c 2 t (ix2 p k) = V c main_v9 (ix2 i k) := by
  obtain ⟨e0, e1⟩ := final_idx_2 t
  unfold Gen.iblk7
  show V c main_v9 (((cfg7.win 2).blk t).view.emb (ix2 p k)) = _
  refine congrArg (V c main_v9) (funext fun a => Fin.ext ?_)
  match a with
  | ⟨0, _⟩ => show win7_2.index t (0 : Fin 2) * 10000 + 1 * p.val = i.val; omega
  | ⟨1, _⟩ => show win7_2.index t (1 : Fin 2) * 128 + 1 * k.val = k.val; omega

/-- Weight window 3's block is its whole array at every point. -/
theorem final_blk_3 (V : (c : Dev nD) → (b : Ref sig .tc) → Buf (Elt Ideal) ((c : Thread nD τ).loc b)) (c : Dev nD) (t : Fin cfg7.N) (k j : Fin 128) :
    Gen.iblk7 V c 3 t (ix2 k j) = V c main_v119 (ix2 k j) := by
  obtain ⟨e0, e1⟩ := final_idx_3 t
  unfold Gen.iblk7
  show V c main_v119 (((cfg7.win 3).blk t).view.emb (ix2 k j)) = _
  refine congrArg (V c main_v119) (funext fun a => Fin.ext ?_)
  match a with
  | ⟨0, _⟩ => show win7_3.index t (0 : Fin 2) * 128 + 1 * k.val = k.val; omega
  | ⟨1, _⟩ => show win7_3.index t (1 : Fin 2) * 128 + 1 * j.val = j.val; omega

/-- Weight window 4's block is its whole array at every point. -/
theorem final_blk_4 (V : (c : Dev nD) → (b : Ref sig .tc) → Buf (Elt Ideal) ((c : Thread nD τ).loc b)) (c : Dev nD) (t : Fin cfg7.N) (k j : Fin 128) :
    Gen.iblk7 V c 4 t (ix2 k j) = V c main_v120 (ix2 k j) := by
  obtain ⟨e0, e1⟩ := final_idx_4 t
  unfold Gen.iblk7
  show V c main_v120 (((cfg7.win 4).blk t).view.emb (ix2 k j)) = _
  refine congrArg (V c main_v120) (funext fun a => Fin.ext ?_)
  match a with
  | ⟨0, _⟩ => show win7_4.index t (0 : Fin 2) * 128 + 1 * k.val = k.val; omega
  | ⟨1, _⟩ => show win7_4.index t (1 : Fin 2) * 128 + 1 * j.val = j.val; omega

/-- Weight window 5's block is its whole array at every point. -/
theorem final_blk_5 (V : (c : Dev nD) → (b : Ref sig .tc) → Buf (Elt Ideal) ((c : Thread nD τ).loc b)) (c : Dev nD) (t : Fin cfg7.N) (k j : Fin 128) :
    Gen.iblk7 V c 5 t (ix2 k j) = V c main_v121 (ix2 k j) := by
  obtain ⟨e0, e1⟩ := final_idx_5 t
  unfold Gen.iblk7
  show V c main_v121 (((cfg7.win 5).blk t).view.emb (ix2 k j)) = _
  refine congrArg (V c main_v121) (funext fun a => Fin.ext ?_)
  match a with
  | ⟨0, _⟩ => show win7_5.index t (0 : Fin 2) * 128 + 1 * k.val = k.val; omega
  | ⟨1, _⟩ => show win7_5.index t (1 : Fin 2) * 128 + 1 * j.val = j.val; omega

/-- One-row window 6's block is its whole array at every point. -/
theorem final_blk_6 (V : (c : Dev nD) → (b : Ref sig .tc) → Buf (Elt Ideal) ((c : Thread nD τ).loc b)) (c : Dev nD) (t : Fin cfg7.N) (j : Fin 128) :
    Gen.iblk7 V c 6 t (ix2 (0 : Fin 1) j) = V c main_v123 (ix2 (0 : Fin 1) j) := by
  obtain ⟨e0, e1⟩ := final_idx_6 t
  unfold Gen.iblk7
  show V c main_v123 (((cfg7.win 6).blk t).view.emb (ix2 (0 : Fin 1) j)) = _
  refine congrArg (V c main_v123) (funext fun a => Fin.ext ?_)
  match a with
  | ⟨0, _⟩ => show win7_6.index t (0 : Fin 2) * 1 + 1 * (0 : Fin 1).val = (0 : Fin 1).val; rw [e0]; rfl
  | ⟨1, _⟩ => show win7_6.index t (1 : Fin 2) * 128 + 1 * j.val = j.val; omega

/-- One-row window 7's block is its whole array at every point. -/
theorem final_blk_7 (V : (c : Dev nD) → (b : Ref sig .tc) → Buf (Elt Ideal) ((c : Thread nD τ).loc b)) (c : Dev nD) (t : Fin cfg7.N) (j : Fin 128) :
    Gen.iblk7 V c 7 t (ix2 (0 : Fin 1) j) = V c main_v122 (ix2 (0 : Fin 1) j) := by
  obtain ⟨e0, e1⟩ := final_idx_7 t
  unfold Gen.iblk7
  show V c main_v122 (((cfg7.win 7).blk t).view.emb (ix2 (0 : Fin 1) j)) = _
  refine congrArg (V c main_v122) (funext fun a => Fin.ext ?_)
  match a with
  | ⟨0, _⟩ => show win7_7.index t (0 : Fin 2) * 1 + 1 * (0 : Fin 1).val = (0 : Fin 1).val; rw [e0]; rfl
  | ⟨1, _⟩ => show win7_7.index t (1 : Fin 2) * 128 + 1 * j.val = j.val; omega

/-- The scalar bias window's block is its whole 1 × 1 array at every point. -/
theorem final_blk_8 (V : (c : Dev nD) → (b : Ref sig .tc) → Buf (Elt Ideal) ((c : Thread nD τ).loc b)) (c : Dev nD) (t : Fin cfg7.N) :
    Gen.iblk7 V c 8 t (ix2 (0 : Fin 1) (0 : Fin 1)) = V c main_v124 (ix2 (0 : Fin 1) (0 : Fin 1)) := by
  obtain ⟨e0, e1⟩ := final_idx_8 t
  unfold Gen.iblk7
  show V c main_v124 (((cfg7.win 8).blk t).view.emb (ix2 (0 : Fin 1) (0 : Fin 1))) = _
  refine congrArg (V c main_v124) (funext fun a => Fin.ext ?_)
  match a with
  | ⟨0, _⟩ => show win7_8.index t (0 : Fin 2) * 1 + 1 * (0 : Fin 1).val = (0 : Fin 1).val; rw [e0]; rfl
  | ⟨1, _⟩ => show win7_8.index t (1 : Fin 2) * 1 + 1 * (0 : Fin 1).val = (0 : Fin 1).val; rw [e1]; rfl

/-! ## What a point writes back, the cover, the array -/

theorem final_hz : (![0, 0] : Fin 2 → Nat) = fun _ => 0 := funext fun a => by fin_cases a <;> rfl

/-- Point t writes back block t of the classifier's result on the region's arrays: rows 10000 t … 10000 t + 9999. -/
theorem final_flushed_eq (V : (c : Dev nD) → (b : Ref sig .tc) → Buf (Elt Ideal) ((c : Thread nD τ).loc b)) (c : Dev nD) (t : Fin cfg7.N) :
    (Gen.dat7 (F := Ideal) V c).flushed 9 t = ((cfg7.win 9).blk t).view.read (Elt Ideal)
      (Spec.final 600000 (V c main_v111) (V c main_v118) (V c main_v9) (V c main_v119) (V c main_v120) (V c main_v121) (V c main_v123) (V c main_v122) (V c main_v124)) := by
  show (cfg7.win 9).cut (grid7.coords t) ((Gen.dat7 V c).after 9 t) = _
  rw [Gen.after7_9]
  unfold Gen.out7_9
  rw [View.canon_unit_zero final_hz]
  simp only [View.ld_unit_zero (S := S10000x128) final_hz, View.ld_unit_zero (S := S128x128) final_hz, View.ld_unit_zero (S := S1x128) final_hz, View.ld_unit_zero (S := S1x1) final_hz]
  funext y
  obtain ⟨p, q, rfl⟩ : ∃ (p : Fin 10000) (q : Fin 1), y = ix2 p q := ⟨y 0, y 1, eq_ix2 y⟩
  have hN : cfg7.N = 60 := Gen.N_7
  have ht : t.val < cfg7.N := t.isLt
  have hi : t.val * 10000 + p.val < 600000 := by have := p.isLt; omega
  obtain ⟨e0, e1⟩ := final_idx_9 t
  refine (final_tile_eq (Gen.iblk7 V c 0 t) (Gen.iblk7 V c 1 t) (Gen.iblk7 V c 2 t) (Gen.iblk7 V c 3 t) (Gen.iblk7 V c 4 t) (Gen.iblk7 V c 5 t) (Gen.iblk7 V c 6 t) (Gen.iblk7 V c 7 t) (Gen.iblk7 V c 8 t)
    (V c main_v111) (V c main_v118) (V c main_v9) (V c main_v119) (V c main_v120) (V c main_v121) (V c main_v123) (V c main_v122) (V c main_v124)
    p q ⟨t.val * 10000 + p.val, hi⟩ (0 : Fin 1)
    (fun k => final_blk_0 V c t p k ⟨t.val * 10000 + p.val, hi⟩ rfl)
    (fun k => final_blk_1 V c t p k ⟨t.val * 10000 + p.val, hi⟩ rfl)
    (fun k => final_blk_2 V c t p k ⟨t.val * 10000 + p.val, hi⟩ rfl)
    (fun k j => final_blk_3 V c t k j) (fun k j => final_blk_4 V c t k j) (fun k j => final_blk_5 V c t k j)
    (fun j => final_blk_6 V c t j) (fun j => final_blk_7 V c t j) (final_blk_8 V c t)).trans ?_
  show Spec.final 600000 (V c main_v111) (V c main_v118) (V c main_v9) (V c main_v119) (V c main_v120) (V c main_v121) (V c main_v123) (V c main_v122) (V c main_v124) _
    = Spec.final 600000 (V c main_v111) (V c main_v118) (V c main_v9) (V c main_v119) (V c main_v120) (V c main_v121) (V c main_v123) (V c main_v122) (V c main_v124) (((cfg7.win 9).blk t).view.emb (ix2 p q))
  refine congrArg (Spec.final 600000 (V c main_v111) (V c main_v118) (V c main_v9) (V c main_v119) (V c main_v120) (V c main_v121) (V c main_v123) (V c main_v122) (V c main_v124)) (funext fun a => Fin.ext ?_)
  match a with
  | ⟨0, _⟩ => show t.val * 10000 + p.val = win7_9.index t (0 : Fin 2) * 10000 + 1 * p.val; omega
  | ⟨1, _⟩ => show (0 : Fin 1).val = win7_9.index t (1 : Fin 2) * 1 + 1 * q.val; have := q.isLt; rw [e1]; show 0 = 0 * 1 + 1 * q.val; omega

/-- A row of the result array is in point t's block iff it lies in the block's range on each axis. -/
theorem final_mem_blk (t : Fin cfg7.N) (i : S600000x1.Idx) :
    i ∈ ((cfg7.win 9).blk t).view.set ↔ ∀ a : Fin 2, win7_9.index t a * S10000x1.size a ≤ (i a).val ∧ (i a).val < win7_9.index t a * S10000x1.size a + S10000x1.size a := by
  show i ∈ ((View.whole main_v125).slice (win7_9.rect t)).set ↔ _
  rw [View.set_slice_whole, Rect.mem_set_unit]
  exact Iff.rfl

/-- Every row r of the 600000 × 1 result is written back by point r / 10000. -/
theorem final_cover (i : S600000x1.Idx) :
    ∃ t : Fin cfg7.N, (cfg7.win 9).flush t = true ∧ i ∈ ((cfg7.win 9).blk t).view.set := by
  have hN : cfg7.N = 60 := Gen.N_7
  have hi0 : (i 0).val < 600000 := (i 0).isLt
  have hi1 : (i 1).val < 1 := (i 1).isLt
  have ht : (i 0).val / 10000 < cfg7.N := by rw [hN]; omega
  obtain ⟨e0, e1⟩ := final_idx_9 ⟨(i 0).val / 10000, ht⟩
  refine ⟨⟨(i 0).val / 10000, ht⟩, Gen.flush7_9 _, ?_⟩
  rw [final_mem_blk]
  intro a
  match a with
  | ⟨0, _⟩ =>
    show win7_9.index ⟨(i 0).val / 10000, ht⟩ (0 : Fin 2) * 10000 ≤ (i 0).val ∧ (i 0).val < win7_9.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win7_9.index ⟨(i 0).val / 10000, ht⟩ (1 : Fin 2) * 1 ≤ (i 1).val ∧ (i 1).val < win7_9.index ⟨(i 0).val / 10000, ht⟩ (1 : Fin 2) * 1 + 1
    rw [e1]
    omega

/-- The edge classifier's region leaves the classifier's result, row by row, in the 600000 × 1 result array. -/
theorem region7 (V : (c : Dev nD) → (b : Ref sig .tc) → Buf (Elt Ideal) ((c : Thread nD τ).loc b)) (c : Dev nD) :
    (Gen.dat7 (F := Ideal) V c).arrAt 9 cfg7.N
      = Spec.final 600000 (V c main_v111) (V c main_v118) (V c main_v9) (V c main_v119) (V c main_v120) (V c main_v121) (V c main_v123) (V c main_v122) (V c main_v124) :=
  (Gen.dat7 (F := Ideal) V c).arrAt_eq_of_cover 9 (Spec.final 600000 (V c main_v111) (V c main_v118) (V c main_v9) (V c main_v119) (V c main_v120) (V c main_v121) (V c main_v123) (V c main_v122) (V c main_v124))
    (fun t _ => final_flushed_eq V c t) final_cover

end Cert.KernelIdeal.RegionValue

end
-- ==== Proof.RefFinal.lean ====
/-
  The last stage of the reference program, the edge classifier, as the function \`Spec.final\` of its operands' values.

  The reference joins the three per-edge feature rows (gathered source features, gathered target features, projected
  edge features; 128 columns each) side by side into one row of 384 columns and multiplies it by one 384 × 128 weight.
  Column \`k\` of the joined row is column \`k\` of the first piece for \`k < 128\`, column \`k − 128\` of the second for
  \`128 ≤ k < 256\`, column \`k − 256\` of the third otherwise; so the sum over the 384 shared positions is the sum of the
  three sums over 128 positions, each piece against its own slab of 128 rows of the weight. Only the associativity
  and commutativity of addition on the extended reals are used, and the splitting of a finite sum over a range into
  consecutive parts.
-/
import proofs.«103209_j60009283060024_2_alg».proof.Proof.Gen.ReferenceIdeal.Read
import proofs.«103209_j60009283060024_2_alg».proof.Proof.Spec
import Idealize.ShloMosaic.Lib.ValueIdx
import Idealize.ShloMosaic.Lib.Pipeline.Value
import Idealize.ShloMosaic.PureOps.Ideal.Laws

noncomputable section

namespace Cert.ReferenceIdeal.StageValue

open Cert.ReferenceIdeal Cert.ReferenceIdeal.Gen Cert.ReferenceIdeal.Read Idealize.ShloMosaic Idealize.ShloMosaic.TcCoe Idealize.ShloMosaic.ValueIdx

/-! ## A sum over 384 positions is three sums over 128 -/

/-- A sum over \`Fin 384\` splits into the sums over its three consecutive thirds. -/
theorem sum_fin384 {M : Type*} [AddCommMonoid M] (f : Fin 384 → M) :
    ∑ k : Fin 384, f k
      = (∑ k : Fin 128, f ⟨k.val, Nat.lt_of_lt_of_le k.isLt (by decide)⟩
          + ∑ k : Fin 128, f ⟨128 + k.val, by have := k.isLt; omega⟩)
        + ∑ k : Fin 128, f ⟨256 + k.val, by have := k.isLt; omega⟩ := by
  have h1 := Fin.sum_univ_add (a := 128 + 128) (b := 128) (f := f)
  have h2 := Fin.sum_univ_add (a := 128) (b := 128) (f := fun i : Fin (128 + 128) => f (Fin.castAdd 128 i))
  refine h1.trans ?_
  rw [h2]
  rfl

/-! ## The joined row at a column of each piece -/

section Concat
variable {α : Type}

/-- A column below 128 of the joined row is that column of the first piece. -/
theorem concat3_first (gu gm e : S600000x128.Idx → α) (r : Fin 600000) (k : Fin 128) :
    concatenate S600000x384 1 [⟨S600000x128, gu⟩, ⟨S600000x128, gm⟩, ⟨S600000x128, e⟩]
        concatenates_S600000x128_S600000x128_S600000x128_S600000x384_d1
        (ix2 r ⟨k.val, Nat.lt_of_lt_of_le k.isLt (by decide)⟩)
      = gu (ix2 r k) :=
  concatenate_apply_piece (t := S600000x384) 1
    [⟨S600000x128, gu⟩, ⟨S600000x128, gm⟩, ⟨S600000x128, e⟩]
    concatenates_S600000x128_S600000x128_S600000x128_S600000x384_d1 _ 0 (by decide : (0 : Nat) < 3) S600000x128 gu rfl rfl 0 rfl (ix2 r k)
    (fun b hb => by
      match b with
      | ⟨0, _⟩ => rfl
      | ⟨1, _⟩ => exact absurd rfl hb)
    (Nat.zero_add _)

/-- A column \`128 + k\`, \`k < 128\`, of the joined row is column \`k\` of the second piece. -/
theorem concat3_second (gu gm e : S600000x128.Idx → α) (r : Fin 600000) (k : Fin 128) :
    concatenate S600000x384 1 [⟨S600000x128, gu⟩, ⟨S600000x128, gm⟩, ⟨S600000x128, e⟩]
        concatenates_S600000x128_S600000x128_S600000x128_S600000x384_d1
        (ix2 r ⟨128 + k.val, by have := k.isLt; omega⟩)
      = gm (ix2 r k) :=
  concatenate_apply_piece (t := S600000x384) 1
    [⟨S600000x128, gu⟩, ⟨S600000x128, gm⟩, ⟨S600000x128, e⟩]
    concatenates_S600000x128_S600000x128_S600000x128_S600000x384_d1 _ 1 (by decide : (1 : Nat) < 3) S600000x128 gm rfl rfl 128 rfl (ix2 r k)
    (fun b hb => by
      match b with
      | ⟨0, _⟩ => rfl
      | ⟨1, _⟩ => exact absurd rfl hb)
    rfl

/-- A column \`256 + k\`, \`k < 128\`, of the joined row is column \`k\` of the third piece. -/
theorem concat3_third (gu gm e : S600000x128.Idx → α) (r : Fin 600000) (k : Fin 128) :
    concatenate S600000x384 1 [⟨S600000x128, gu⟩, ⟨S600000x128, gm⟩, ⟨S600000x128, e⟩]
        concatenates_S600000x128_S600000x128_S600000x128_S600000x384_d1
        (ix2 r ⟨256 + k.val, by have := k.isLt; omega⟩)
      = e (ix2 r k) :=
  concatenate_apply_piece (t := S600000x384) 1
    [⟨S600000x128, gu⟩, ⟨S600000x128, gm⟩, ⟨S600000x128, e⟩]
    concatenates_S600000x128_S600000x128_S600000x128_S600000x384_d1 _ 2 (by decide : (2 : Nat) < 3) S600000x128 e rfl rfl 256 rfl (ix2 r k)
    (fun b hb => by
      match b with
      | ⟨0, _⟩ => rfl
      | ⟨1, _⟩ => exact absurd rfl hb)
    rfl

end Concat

/-! ## The classifier, layer by layer -/

section Main

variable (x0 : (⟨S200000x3, .f32⟩ : BufTy).Contents (Elt Ideal)) (x1 : (⟨S50000x2, .f32⟩ : BufTy).Contents (Elt Ideal))
  (x2 : (⟨S600000x2, .f32⟩ : BufTy).Contents (Elt Ideal)) (x3 : (⟨S3x128, .f32⟩ : BufTy).Contents (Elt Ideal))
  (x4 : (⟨S128, .f32⟩ : BufTy).Contents (Elt Ideal)) (x5 : (⟨S2x128, .f32⟩ : BufTy).Contents (Elt Ideal))
  (x6 : (⟨S128, .f32⟩ : BufTy).Contents (Elt Ideal)) (x7 : (⟨S2x128, .f32⟩ : BufTy).Contents (Elt Ideal))
  (x8 : (⟨S128, .f32⟩ : BufTy).Contents (Elt Ideal)) (x9 : (⟨S2x128x128, .f32⟩ : BufTy).Contents (Elt Ideal))
  (x10 : (⟨S2x128, .f32⟩ : BufTy).Contents (Elt Ideal)) (x11 x12 : (⟨S2x128x128, .f32⟩ : BufTy).Contents (Elt Ideal))
  (x13 : (⟨S2x128, .f32⟩ : BufTy).Contents (Elt Ideal)) (x14 : (⟨S2x128x128, .f32⟩ : BufTy).Contents (Elt Ideal))
  (x15 : (⟨S384x128, .f32⟩ : BufTy).Contents (Elt Ideal)) (x16 : (⟨S128, .f32⟩ : BufTy).Contents (Elt Ideal))
  (x17 : (⟨S128x1, .f32⟩ : BufTy).Contents (Elt Ideal)) (x18 : (⟨S1, .f32⟩ : BufTy).Contents (Elt Ideal))
  (x19 : (⟨S2x600000, .i32⟩ : BufTy).Contents (Elt Ideal))

/-- The first layer's product at row \`r\`, column \`j\`: the joined row against the 384 × 128 weight is the three pieces
    against the weight's three slabs of 128 rows, added left to right. -/
theorem v158_at (wa wb wc : Spec.Arr2 128 128)
    (hwa : ∀ k j : Fin 128, wa (ix2 k j) = x15 (ix2 ⟨k.val, Nat.lt_of_lt_of_le k.isLt (by decide)⟩ j))
    (hwb : ∀ k j : Fin 128, wb (ix2 k j) = x15 (ix2 ⟨128 + k.val, by have := k.isLt; omega⟩ j))
    (hwc : ∀ k j : Fin 128, wc (ix2 k j) = x15 (ix2 ⟨256 + k.val, by have := k.isLt; omega⟩ j))
    (r : Fin 600000) (j : Fin 128) :
    val_main_v158 (F := Ideal) x0 x1 x2 x3 x4 x5 x6 x7 x8 x9 x10 x11 x12 x13 x14 x15 x19 (ix2 r j)
      = (Spec.rowcol (val_main_v149 (F := Ideal) x0 x1 x3 x4 x5 x6 x9 x10 x11 x12 x13 x14 x19) wa r j
          + Spec.rowcol (val_main_v156 (F := Ideal) x0 x1 x3 x4 x5 x6 x9 x10 x11 x12 x13 x14 x19) wb r j)
        + Spec.rowcol (val_main_v18 (F := Ideal) x2 x7 x8) wc r j := by
  rw [val_main_v158_apply]
  unfold val_main_v157
  generalize val_main_v149 (F := Ideal) x0 x1 x3 x4 x5 x6 x9 x10 x11 x12 x13 x14 x19 = gu
  generalize val_main_v156 (F := Ideal) x0 x1 x3 x4 x5 x6 x9 x10 x11 x12 x13 x14 x19 = gm
  generalize val_main_v18 (F := Ideal) x2 x7 x8 = e
  rw [sum_fin384]
  unfold Spec.rowcol
  -- the row index of the joined row and the column index of the weight, at each of the three offsets
  have el : ∀ (k : Fin 384), lidx_main_v158 (ix2 r j) k = ix2 r k := fun k =>
    funext fun a => Fin.ext (by match a with | ⟨0, _⟩ => rfl | ⟨1, _⟩ => rfl)
  have er : ∀ (k : Fin 384), ridx_main_v158 (ix2 r j) k = ix2 k j := fun k =>
    funext fun a => Fin.ext (by match a with | ⟨0, _⟩ => rfl | ⟨1, _⟩ => rfl)
  simp only [el, er]
  refine congrArg₂ (· + ·) (congrArg₂ (· + ·) ?_ ?_) ?_
  · refine Finset.sum_congr rfl fun k _ => ?_
    rw [concat3_first, hwa]
  · refine Finset.sum_congr rfl fun k _ => ?_
    rw [concat3_second, hwb]
  · refine Finset.sum_congr rfl fun k _ => ?_
    rw [concat3_third, hwc]

/-- The hidden layer at row \`r\`, column \`j\`: the first layer's product plus the bias row, rectified. -/
theorem v162_at (wa wb wc : Spec.Arr2 128 128)
    (hwa : ∀ k j : Fin 128, wa (ix2 k j) = x15 (ix2 ⟨k.val, Nat.lt_of_lt_of_le k.isLt (by decide)⟩ j))
    (hwb : ∀ k j : Fin 128, wb (ix2 k j) = x15 (ix2 ⟨128 + k.val, by have := k.isLt; omega⟩ j))
    (hwc : ∀ k j : Fin 128, wc (ix2 k j) = x15 (ix2 ⟨256 + k.val, by have := k.isLt; omega⟩ j))
    (r : Fin 600000) (j : Fin 128) :
    val_main_v162 (F := Ideal) x0 x1 x2 x3 x4 x5 x6 x7 x8 x9 x10 x11 x12 x13 x14 x15 x16 x19 (ix2 r j)
      = Spec.hidden 600000 (val_main_v149 (F := Ideal) x0 x1 x3 x4 x5 x6 x9 x10 x11 x12 x13 x14 x19)
          (val_main_v156 (F := Ideal) x0 x1 x3 x4 x5 x6 x9 x10 x11 x12 x13 x14 x19)
          (val_main_v18 (F := Ideal) x2 x7 x8) wa wb wc (val_main_v159 (F := Ideal) x16) r j := by
  rw [val_main_v162_apply, val_main_v161_apply,
    v158_at x0 x1 x2 x3 x4 x5 x6 x7 x8 x9 x10 x11 x12 x13 x14 x15 x19 wa wb wc hwa hwb hwc r j,
    val_main_v160_apply, val_main_call7_v0_apply, val_main_call7_cst_apply]
  -- the bias is read at row 0 of its one row, at the column
  have eb : idx_main_v160 (ix2 r j) = ix2 0 j :=
    funext fun a => Fin.ext (by match a with | ⟨0, _⟩ => rfl | ⟨1, _⟩ => rfl)
  rw [eb]
  rfl

/-- **The edge classifier.** The reference's last stage is \`Spec.final\` of the three per-edge feature arrays, the
    three 128-row slabs of the first weight, the bias row, the second weight read as a row, and the scalar bias. -/
theorem stage_v166 (wa wb wc : Spec.Arr2 128 128) (w2 : Spec.Arr2 1 128)
    (hwa : ∀ k j : Fin 128, wa (ix2 k j) = x15 (ix2 ⟨k.val, Nat.lt_of_lt_of_le k.isLt (by decide)⟩ j))
    (hwb : ∀ k j : Fin 128, wb (ix2 k j) = x15 (ix2 ⟨128 + k.val, by have := k.isLt; omega⟩ j))
    (hwc : ∀ k j : Fin 128, wc (ix2 k j) = x15 (ix2 ⟨256 + k.val, by have := k.isLt; omega⟩ j))
    (hw2 : ∀ j : Fin 128, w2 (ix2 0 j) = x17 (ix2 j 0)) :
    val_main_v166 (F := Ideal) x0 x1 x2 x3 x4 x5 x6 x7 x8 x9 x10 x11 x12 x13 x14 x15 x16 x17 x18 x19
      = Spec.final 600000 (val_main_v149 (F := Ideal) x0 x1 x3 x4 x5 x6 x9 x10 x11 x12 x13 x14 x19)
          (val_main_v156 (F := Ideal) x0 x1 x3 x4 x5 x6 x9 x10 x11 x12 x13 x14 x19)
          (val_main_v18 (F := Ideal) x2 x7 x8) wa wb wc (val_main_v159 (F := Ideal) x16) w2
          (val_main_v164 (F := Ideal) x18) := by
  funext i
  obtain ⟨r, q, rfl⟩ : ∃ (r : Fin 600000) (q : Fin 1), i = ix2 r q := ⟨i 0, i 1, eq_ix2 i⟩
  obtain rfl : q = 0 := Subsingleton.elim _ _
  rw [val_main_v166_apply, val_main_v163_apply, val_main_v165_apply]
  -- the scalar bias is read at its one entry; the hidden row at (r, k); the second weight's column at row k
  have eb : idx_main_v165 (ix2 r (0 : Fin 1)) = ix2 0 0 :=
    funext fun a => Fin.ext (by match a with | ⟨0, _⟩ => rfl | ⟨1, _⟩ => rfl)
  have el : ∀ k : Fin 128, lidx_main_v163 (ix2 r (0 : Fin 1)) k = ix2 r k := fun k =>
    funext fun a => Fin.ext (by match a with | ⟨0, _⟩ => rfl | ⟨1, _⟩ => rfl)
  have er : ∀ k : Fin 128, ridx_main_v163 (ix2 r (0 : Fin 1)) k = ix2 k 0 := fun k =>
    funext fun a => Fin.ext (by match a with | ⟨0, _⟩ => rfl | ⟨1, _⟩ => rfl)
  simp only [eb, el, er]
  unfold Spec.final
  refine congrArg₂ (· + ·) (Finset.sum_congr rfl fun k _ => ?_) rfl
  rw [v162_at x0 x1 x2 x3 x4 x5 x6 x7 x8 x9 x10 x11 x12 x13 x14 x15 x16 x19 wa wb wc hwa hwb hwc r k, hw2]

end Main

end Cert.ReferenceIdeal.StageValue

end
-- ==== Proof.SliceFacts.lean ====
/-
  The classifier's host-side weight pieces, read entry by entry.

  The first layer's 384 × 128 weight is cut along its rows into three 128 × 128 slabs: entry (k, j) of slab s is entry
  (128 s + k, j) of the weight. The second layer's 128 × 1 column, transposed into a 1 × 128 row, reads at (0, j) the
  column's entry (j, 0).
-/
import proofs.«103209_j60009283060024_2_alg».proof.Proof.Gen.KernelIdeal
import Idealize.ShloMosaic.Lib.ValueIdx
import Idealize.ShloMosaic.Lib.Pipeline.Value
import Idealize.ShloMosaic.Lib.ValueLayout

noncomputable section

namespace Cert.KernelIdeal.SliceFacts

open Cert.KernelIdeal Cert.KernelIdeal.Gen Idealize.ShloMosaic Idealize.ShloMosaic.ValueIdx

/-- Rows 0 … 127 of the weight: entry (k, j) of the first slab is entry (k, j). -/
theorem slab0 (x15 : (⟨S384x128, .f32⟩ : BufTy).Contents (Elt Ideal)) (k j : Fin 128) :
    extractStridedSlice S128x128 ![0, 0] x15 slices_S384x128_S128x128_0_0 (ix2 k j)
      = x15 (ix2 (⟨k.val, by omega⟩ : Fin 384) j) :=
  slice2_axis0_apply 0 x15 slices_S384x128_S128x128_0_0 k j ⟨k.val, by omega⟩ (Nat.zero_add _).symm

/-- Rows 128 … 255 of the weight: entry (k, j) of the second slab is entry (128 + k, j). -/
theorem slab1 (x15 : (⟨S384x128, .f32⟩ : BufTy).Contents (Elt Ideal)) (k j : Fin 128) :
    extractStridedSlice S128x128 ![128, 0] x15 slices_S384x128_S128x128_128_0 (ix2 k j)
      = x15 (ix2 (⟨128 + k.val, by omega⟩ : Fin 384) j) :=
  slice2_axis0_apply 128 x15 slices_S384x128_S128x128_128_0 k j ⟨128 + k.val, by omega⟩ rfl

/-- Rows 256 … 383 of the weight: entry (k, j) of the third slab is entry (256 + k, j). -/
theorem slab2 (x15 : (⟨S384x128, .f32⟩ : BufTy).Contents (Elt Ideal)) (k j : Fin 128) :
    extractStridedSlice S128x128 ![256, 0] x15 slices_S384x128_S128x128_256_0 (ix2 k j)
      = x15 (ix2 (⟨256 + k.val, by omega⟩ : Fin 384) j) :=
  slice2_axis0_apply 256 x15 slices_S384x128_S128x128_256_0 k j ⟨256 + k.val, by omega⟩ rfl

/-- The column as a row: entry (0, j) of the transpose is entry (j, 0) of the column. -/
theorem row_of_column (x17 : (⟨S128x1, .f32⟩ : BufTy).Contents (Elt Ideal)) (j : Fin 128) :
    transpose S1x128 [1, 0] x17 transposes_S128x1_S1x128_1_0 (ix2 (0 : Fin 1) j) = x17 (ix2 j (0 : Fin 1)) :=
  transpose_ix2_apply x17 transposes_S128x1_S1x128_1_0 (0 : Fin 1) j

end Cert.KernelIdeal.SliceFacts

end
-- ==== Proof.ChainD.lean ====
/-
  The kernel's buffers through the edge classifier to the result.
  The last stretch gathers the two final node-feature arrays along the edges (the reference's own gathers), cuts the
  first classifier weight into its three 128-row slabs, turns the second weight's column into a row, and lays the two
  biases out as one-row arrays.  The region's output is the Spec's classifier of these; the reference's stage — the
  three feature rows joined side by side against the whole first weight — is the same function because a sum over the
  384 joined columns splits into the three sums over 128.  The result is that array with its unit axis dropped, on
  both sides by the same reshape.
-/
import proofs.«103209_j60009283060024_2_alg».proof.Proof.Gen.KernelIdeal.Frame
import proofs.«103209_j60009283060024_2_alg».proof.Proof.Gen.ReferenceIdeal.Read
import proofs.«103209_j60009283060024_2_alg».proof.Proof.Spec
import proofs.«103209_j60009283060024_2_alg».proof.Proof.LayoutEq
import proofs.«103209_j60009283060024_2_alg».proof.Proof.ChainC
import proofs.«103209_j60009283060024_2_alg».proof.Proof.RegionFinal
import proofs.«103209_j60009283060024_2_alg».proof.Proof.RefFinal
import proofs.«103209_j60009283060024_2_alg».proof.Proof.SliceFacts

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The last stretch -/

theorem W15_v111 : W15 m ρ c (Proc.devRef .tc main_v111) = Cert.ReferenceIdeal.Read.val_main_v149 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) := by
  show StableHlo.after hostOps7 (W14 m ρ c) (Proc.devRef .tc main_v111) = _
  after_results_simp
  rw [W14_v104 m ρ c, W14_v1 m ρ c]
  rfl
theorem W15_v118 : W15 m ρ c (Proc.devRef .tc main_v118) = Cert.ReferenceIdeal.Read.val_main_v156 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) := by
  show StableHlo.after hostOps7 (W14 m ρ c) (Proc.devRef .tc main_v118) = _
  after_results_simp
  rw [W14_v96 m ρ c, W14_v3 m ρ c]
  rfl
theorem W15_v123 : W15 m ρ c (Proc.devRef .tc main_v123) = Cert.ReferenceIdeal.Read.val_main_v159 (F := Ideal) (m ((c : Thread nD τ).loc main_arg16)) := by
  show StableHlo.after hostOps7 (W14 m ρ c) (Proc.devRef .tc main_v123) = _
  after_results_simp
  rw [W14_arg16 m ρ c]
  exact Cert.LayoutEq.row_reshape_eq_bcast 128 _ _ _
theorem W15_v124 : W15 m ρ c (Proc.devRef .tc main_v124) = Cert.ReferenceIdeal.Read.val_main_v164 (F := Ideal) (m ((c : Thread nD τ).loc main_arg18)) := by
  show StableHlo.after hostOps7 (W14 m ρ c) (Proc.devRef .tc main_v124) = _
  after_results_simp
  rw [W14_arg18 m ρ c]
  exact Cert.LayoutEq.row_reshape_eq_bcast 1 _ _ _
theorem W15_v119 : W15 m ρ c (Proc.devRef .tc main_v119) = extractStridedSlice S128x128 ![0, 0] (m ((c : Thread nD τ).loc main_arg15)) slices_S384x128_S128x128_0_0 := by
  show StableHlo.after hostOps7 (W14 m ρ c) (Proc.devRef .tc main_v119) = _
  after_results_simp
  rw [W14_arg15 m ρ c]
theorem W15_v120 : W15 m ρ c (Proc.devRef .tc main_v120) = extractStridedSlice S128x128 ![128, 0] (m ((c : Thread nD τ).loc main_arg15)) slices_S384x128_S128x128_128_0 := by
  show StableHlo.after hostOps7 (W14 m ρ c) (Proc.devRef .tc main_v120) = _
  after_results_simp
  rw [W14_arg15 m ρ c]
theorem W15_v121 : W15 m ρ c (Proc.devRef .tc main_v121) = extractStridedSlice S128x128 ![256, 0] (m ((c : Thread nD τ).loc main_arg15)) slices_S384x128_S128x128_256_0 := by
  show StableHlo.after hostOps7 (W14 m ρ c) (Proc.devRef .tc main_v121) = _
  after_results_simp
  rw [W14_arg15 m ρ c]
theorem W15_v122 : W15 m ρ c (Proc.devRef .tc main_v122) = transpose S1x128 [1, 0] (m ((c : Thread nD τ).loc main_arg17)) transposes_S128x1_S1x128_1_0 := by
  show StableHlo.after hostOps7 (W14 m ρ c) (Proc.devRef .tc main_v122) = _
  after_results_simp
  rw [W14_arg17 m ρ c]
theorem W15_v9 : W15 m ρ c (Proc.devRef .tc main_v9) = Cert.ReferenceIdeal.Read.val_main_v18 (F := Ideal) (m ((c : Thread nD τ).loc main_arg2)) (m ((c : Thread nD τ).loc main_arg7)) (m ((c : Thread nD τ).loc main_arg8)) := by
  show StableHlo.after hostOps7 (W14 m ρ c) (Proc.devRef .tc main_v9) = _
  after_results_simp
  exact W14_v9 m ρ c

/-! ## The edge classifier -/

theorem W16_v125 : W16 m ρ c (Proc.devRef .tc main_v125) = Cert.ReferenceIdeal.Read.val_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (W16_arr m ρ c 9).trans ?_
  rw [Cert.KernelIdeal.RegionValue.region7 (V15 m ρ) c]
  rw [show V15 m ρ c main_v111 = _ from W15_v111 m ρ c,
    show V15 m ρ c main_v118 = _ from W15_v118 m ρ c,
    show V15 m ρ c main_v9 = _ from W15_v9 m ρ c,
    show V15 m ρ c main_v119 = _ from W15_v119 m ρ c,
    show V15 m ρ c main_v120 = _ from W15_v120 m ρ c,
    show V15 m ρ c main_v121 = _ from W15_v121 m ρ c,
    show V15 m ρ c main_v123 = _ from W15_v123 m ρ c,
    show V15 m ρ c main_v122 = _ from W15_v122 m ρ c,
    show V15 m ρ c main_v124 = _ from W15_v124 m ρ c]
  exact (Cert.ReferenceIdeal.StageValue.stage_v166 _ _ _ _ _ _ _ _ _ _ _ _ _ _ _ _ _ _ _ _ _ _ _ _
    (fun k j => Cert.KernelIdeal.SliceFacts.slab0 _ k j) (fun k j => Cert.KernelIdeal.SliceFacts.slab1 _ k j)
    (fun k j => Cert.KernelIdeal.SliceFacts.slab2 _ k j) (fun j => Cert.KernelIdeal.SliceFacts.row_of_column _ j)).symm

/-! ## The result -/

theorem W17_v126 : W17 m ρ c (Proc.devRef .tc main_v126) = Cert.ReferenceIdeal.Read.val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  show StableHlo.after hostOps8 (W16 m ρ c) (Proc.devRef .tc main_v126) = _
  after_results_simp
  rw [W16_v125 m ρ c]
  rfl

end Cert.KernelIdeal.Chain

end
-- ==== Proof.lean ====
/-
  The certificate of the heterogeneous-graph edge classifier: a tiled-kernel program against its plain reference.

  Both programs compute, from node features, edge features and the edges' endpoints,
    * three input projections relu (x · w + b) — users, merchants, edges;
    * two rounds of mean aggregation: each node's new features are relu of (the mean of its neighbours' features) · wl
      plus (its own features) · wr plus a bias, the mean being a gather along the edges, a scatter-add at the other
      endpoint and a division by the in-degree clamped below by one;
    * an edge classifier on (user row, merchant row, edge row): a hidden layer relu (joined · c1 + b1) and a linear read-out.
  The kernel program runs every affine stage as a tiled region (10000 rows per tile, float formats narrowed and widened
  on the way, which over the extended reals is the identity), keeps the gathers and scatter-adds on the host exactly as
  the reference has them, computes the degrees once, adds the three terms of an update in another order, and feeds the
  classifier's first layer as three products against the three row slabs of c1 instead of one product against the
  joined rows.  Over the extended reals these differences are: associativity and commutativity of addition, and the
  split of a sum over 384 columns into three sums over 128.  No distributive law and no cancellation is used, so the
  finiteness of the inputs is never needed.

  The frames of the two kernel programs are the generated ones; the reference's frame is its generated run with the
  result dropped; nothing was rewritten by the idealization, so there is nothing to preserve; the algebraic claim puts
  the kernel's run (its result buffer named at the last boundary's contents and then followed back through the eight
  regions and nine host stretches: modules ChainA … ChainD) beside the reference's generated run.
-/
import proofs.«103209_j60009283060024_2_alg».proof.Defs
import proofs.«103209_j60009283060024_2_alg».proof.Proof.Gen.Kernel
import proofs.«103209_j60009283060024_2_alg».proof.Proof.Gen.Kernel.Frame
import proofs.«103209_j60009283060024_2_alg».proof.Proof.Gen.KernelIdeal
import proofs.«103209_j60009283060024_2_alg».proof.Proof.Gen.KernelIdeal.Frame
import proofs.«103209_j60009283060024_2_alg».proof.Proof.Gen.ReferenceIdeal
import proofs.«103209_j60009283060024_2_alg».proof.Proof.Gen.ReferenceIdeal.Run
import proofs.«103209_j60009283060024_2_alg».proof.Proof.Gen.ReferenceIdeal.Read
import proofs.«103209_j60009283060024_2_alg».proof.Proof.Gen.Pre_finite_inputs
import proofs.«103209_j60009283060024_2_alg».proof.Proof.KernelRun
import proofs.«103209_j60009283060024_2_alg».proof.Proof.ChainD
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same result: the reference's composed value of the (shared) argument arrays. -/
theorem algebraic : Cert.algebraic_KernelIdeal_ReferenceIdeal := by
  intro m ρ m' ρ' _ hagree
  refine ⟨fun c => Cert.ReferenceIdeal.Read.val_main_v167 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19)), ?_, ?_⟩
  · exact (θ_run Cert.KernelIdeal.defs _ _).mono
      (fun r h c => ⟨(h c).1.trans (Cert.KernelIdeal.Chain.W17_v126 m ρ c), (h c).2⟩)
      (Cert.KernelIdeal.RunValue.run m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13, e14, e15, e16, e17, e18, e19⟩ := hagree c
    rw [(h c).1, Cert.ReferenceIdeal.Read.val_main_v167_eq, e0, e1, e2, e3, e4, e5, e6, e7, e8, e9, e10, e11, e12, e13, e14, e15, e16, e17, e18, e19]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
